-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S304096x128 : Shape := ⟨2, ![304096, 128]⟩
abbrev S154096x128 : Shape := ⟨2, ![154096, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S2x500000 : Shape := ⟨2, ![2, 500000]⟩
abbrev S_ : Shape := ⟨0, ![]⟩

class Facts : Prop where
  bcast_S_S304096x128 : S_.BroadcastsInDim S304096x128 (![] : Fin 0 → Fin S304096x128.rank)
  reducesTo_S304096x128_S_d0_1 : S304096x128.ReducesTo [0, 1] S_
  h_S_ : 0 < S_.numel
  bcast_S_S154096x128 : S_.BroadcastsInDim S154096x128 (![] : Fin 0 → Fin S154096x128.rank)
  reducesTo_S154096x128_S_d0_1 : S154096x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg21 : FVec F S64 .f32) (main_v98 : IVec S_ 1) (main_v101 : IVec S256x64 1) (main_c_39 : IVec S_ 1) : IVec S_ 1 :=
  let main_v102 : IVec S_ 1 := (fun x v => Host.reduce IntOp.andi x v reducesTo_S256x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  main_v108

def fn_part5 {F : FTy → Type} [FloatOps F] (main_arg18 : FVec F S256 .f32) (main_arg19 : FVec F S256x256 .f32) (main_arg20 : FVec F S256x64 .f32) (main_arg21 : FVec F S64 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256x64 .f32 := Host.absf main_arg20
  let main_cst_38 : FVec F S_ .f32 := constant S_ .f32 0x7F800000#32
  let main_v100 : FVec F S256x64 .f32 := broadcastInDim S256x64 ![] bcast_S_S256x64 main_cst_38
  let main_v101 : IVec S256x64 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256x64 .f32) (main_arg21 : FVec F S64 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256x64 .f32) (main_arg21 : FVec F S64 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128x256 .f32) (main_arg8 : FVec F S128x256 .f32) (main_arg9 : FVec F S256 .f32) (main_arg10 : FVec F S128x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256x64 .f32) (main_arg21 : FVec F S64 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S128x256 .f32) (main_arg5 : FVec F S128x256 .f32) (main_arg6 : FVec F S256 .f32) (main_arg7 : FVec F S128x256 .f32) (main_arg8 : FVec F S128x256 .f32) (main_arg9 : FVec F S256 .f32) (main_arg10 : FVec F S128x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256x64 .f32) (main_arg21 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S304096x128 .f32) (main_arg1 : FVec F S154096x128 .f32) (main_arg2 : FVec F S128x256 .f32) (main_arg3 : FVec F S256 .f32) (main_arg4 : FVec F S128x256 .f32) (main_arg5 : FVec F S128x256 .f32) (main_arg6 : FVec F S256 .f32) (main_arg7 : FVec F S128x256 .f32) (main_arg8 : FVec F S128x256 .f32) (main_arg9 : FVec F S256 .f32) (main_arg10 : FVec F S128x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256x64 .f32) (main_arg21 : FVec F S64 .f32) (main_arg22 : IVec S2x500000 32) (main_arg23 : IVec S2x500000 32) (main_arg24 : IVec S2x500000 32) (main_arg25 : IVec S2x500000 32) (main_arg26 : IVec S2x500000 32) (main_arg27 : IVec S2x500000 32) : IVec S_ 1 :=
  let main_v0 : FVec F S304096x128 .f32 := Host.absf main_arg0
  let main_cst : FVec F S_ .f32 := constant S_ .f32 0x7F800000#32
  let main_v1 : FVec F S304096x128 .f32 := broadcastInDim S304096x128 ![] bcast_S_S304096x128 main_cst
  let main_v2 : IVec S304096x128 1 := cmpf .olt main_v0 main_v1
  let main_c : IVec S_ 1 := constantI S_ 1 1#1
  let main_v3 : IVec S_ 1 := (fun x v => Host.reduce IntOp.andi x v reducesTo_S304096x128_S_d0_1 h_S_) main_v2 main_c
  let main_v4 : FVec F S154096x128 .f32 := Host.absf main_arg1
  let main_cst_0 : FVec F S_ .f32 := constant S_ .f32 0x7F800000#32
  let main_v5 : FVec F S154096x128 .f32 := broadcastInDim S154096x128 ![] bcast_S_S154096x128 main_cst_0
  let main_v6 : IVec S154096x128 1 := cmpf .olt main_v4 main_v5
  let main_c_1 : IVec S_ 1 := constantI S_ 1 1#1
  let main_v7 : IVec S_ 1 := (fun x v => Host.reduce IntOp.andi x v reducesTo_S154096x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S304096x128 : Shape := ⟨2, ![304096, 128]⟩
abbrev S154096x128 : Shape := ⟨2, ![154096, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S2x500000 : Shape := ⟨2, ![2, 500000]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S304096 : Shape := ⟨1, ![304096]⟩
abbrev S304096x1 : Shape := ⟨2, ![304096, 1]⟩
abbrev S305152x128 : Shape := ⟨2, ![305152, 128]⟩
abbrev S305152x256 : Shape := ⟨2, ![305152, 256]⟩
abbrev S2048x128 : Shape := ⟨2, ![2048, 128]⟩
abbrev S2048x256 : Shape := ⟨2, ![2048, 256]⟩
abbrev S1x256 : Shape := ⟨2, ![1, 256]⟩
abbrev S304096x256 : Shape := ⟨2, ![304096, 256]⟩
abbrev S154096 : Shape := ⟨1, ![154096]⟩
abbrev S154096x1 : Shape := ⟨2, ![154096, 1]⟩
abbrev S155648x128 : Shape := ⟨2, ![155648, 128]⟩
abbrev S155648x256 : Shape := ⟨2, ![155648, 256]⟩
abbrev S154096x256 : Shape := ⟨2, ![154096, 256]⟩
abbrev S104096x256 : Shape := ⟨2, ![104096, 256]⟩
abbrev S54096x256 : Shape := ⟨2, ![54096, 256]⟩
abbrev S1x500000 : Shape := ⟨2, ![1, 500000]⟩
abbrev S500000 : Shape := ⟨1, ![500000]⟩
abbrev S500000x1 : Shape := ⟨2, ![500000, 1]⟩
abbrev S500000x256 : Shape := ⟨2, ![500000, 256]⟩
abbrev S104096 : Shape := ⟨1, ![104096]⟩
abbrev S104096x1 : Shape := ⟨2, ![104096, 1]⟩
abbrev S104448x256 : Shape := ⟨2, ![104448, 256]⟩
abbrev S104448x64 : Shape := ⟨2, ![104448, 64]⟩
abbrev S2048x64 : Shape := ⟨2, ![2048, 64]⟩
abbrev S1x64 : Shape := ⟨2, ![1, 64]⟩
abbrev S104096x64 : Shape := ⟨2, ![104096, 64]⟩

abbrev nBuf : Space → Nat
  | .hbm => 218
  | .vmem => 39
  | .smem => 0
  | _ => 0

abbrev hbmTy0_0 (i : Nat) : BufTy := match i % 128 with
  | 0 => ⟨S304096x128, .f32⟩
  | 1 => ⟨S154096x128, .f32⟩
  | 2 => ⟨S128x256, .f32⟩
  | 3 => ⟨S256, .f32⟩
  | 4 => ⟨S128x256, .f32⟩
  | 5 => ⟨S128x256, .f32⟩
  | 6 => ⟨S256, .f32⟩
  | 7 => ⟨S128x256, .f32⟩
  | 8 => ⟨S128x256, .f32⟩
  | 9 => ⟨S256, .f32⟩
  | 10 => ⟨S128x256, .f32⟩
  | 11 => ⟨S256x256, .f32⟩
  | 12 => ⟨S256, .f32⟩
  | 13 => ⟨S256x256, .f32⟩
  | 14 => ⟨S256x256, .f32⟩
  | 15 => ⟨S256, .f32⟩
  | 16 => ⟨S256x256, .f32⟩
  | 17 => ⟨S256x256, .f32⟩
  | 18 => ⟨S256, .f32⟩
  | 19 => ⟨S256x256, .f32⟩
  | 20 => ⟨S256x64, .f32⟩
  | 21 => ⟨S64, .f32⟩
  | 22 => ⟨S2x500000, .i32⟩
  | 23 => ⟨S2x500000, .i32⟩
  | 24 => ⟨S2x500000, .i32⟩
  | 25 => ⟨S2x500000, .i32⟩
  | 26 => ⟨S2x500000, .i32⟩
  | 27 => ⟨S2x500000, .i32⟩
  | 28 => ⟨S2x1000000, .i32⟩
  | 29 => ⟨S2x1000000, .i32⟩
  | 30 => ⟨S2x1000000, .i32⟩
  | 31 => ⟨S1x1000000, .i32⟩
  | 32 => ⟨S1000000, .i32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x128, .f32⟩
  | 42 => ⟨S1x1000000, .i32⟩
  | 43 => ⟨S1000000, .i32⟩
  | 44 => ⟨S_, .f32⟩
  | 45 => ⟨S304096x128, .f32⟩
  | 46 => ⟨S1000000x1, .i32⟩
  | 47 => ⟨S304096x128, .f32⟩
  | 48 => ⟨S_, .f32⟩
  | 49 => ⟨S1000000, .f32⟩
  | 50 => ⟨S1x1000000, .i32⟩
  | 51 => ⟨S1000000, .i32⟩
  | 52 => ⟨S_, .f32⟩
  | 53 => ⟨S304096, .f32⟩
  | 54 => ⟨S1000000x1, .i32⟩
  | 55 => ⟨S304096, .f32⟩
  | 56 => ⟨S_, .f32⟩
  | 57 => ⟨S304096, .f32⟩
  | 58 => ⟨S304096, .f32⟩
  | 59 => ⟨S304096x1, .f32⟩
  | 60 => ⟨S304096x128, .f32⟩
  | 61 => ⟨S304096x128, .f32⟩
  | 62 => ⟨S1x1000000, .i32⟩
  | 63 => ⟨S1000000, .i32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x128, .f32⟩
  | 73 => ⟨S1x1000000, .i32⟩
  | 74 => ⟨S1000000, .i32⟩
  | 75 => ⟨S_, .f32⟩
  | 76 => ⟨S304096x128, .f32⟩
  | 77 => ⟨S1000000x1, .i32⟩
  | 78 => ⟨S304096x128, .f32⟩
  | 79 => ⟨S_, .f32⟩
  | 80 => ⟨S1000000, .f32⟩
  | 81 => ⟨S1x1000000, .i32⟩
  | 82 => ⟨S1000000, .i32⟩
  | 83 => ⟨S_, .f32⟩
  | 84 => ⟨S304096, .f32⟩
  | 85 => ⟨S1000000x1, .i32⟩
  | 86 => ⟨S304096, .f32⟩
  | 87 => ⟨S_, .f32⟩
  | 88 => ⟨S304096, .f32⟩
  | 89 => ⟨S304096, .f32⟩
  | 90 => ⟨S304096x1, .f32⟩
  | 91 => ⟨S304096x128, .f32⟩
  | 92 => ⟨S304096x128, .f32⟩
  | 93 => ⟨S_, .i32⟩
  | 94 => ⟨S_, .f32⟩
  | 95 => ⟨S305152x128, .f32⟩
  | 96 => ⟨S_, .i32⟩
  | 97 => ⟨S_, .f32⟩
  | 98 => ⟨S305152x128, .f32⟩
  | 99 => ⟨S_, .i32⟩
  | 100 => ⟨S_, .f32⟩
  | 101 => ⟨S305152x128, .f32⟩
  | 102 => ⟨S305152x256, .f32⟩
  | 103 => ⟨S304096x256, .f32⟩
  | 104 => ⟨S1x1000000, .i32⟩
  | 105 => ⟨S1000000, .i32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x128, .f32⟩
  | 115 => ⟨S1x1000000, .i32⟩
  | 116 => ⟨S1000000, .i32⟩
  | 117 => ⟨S_, .f32⟩
  | 118 => ⟨S154096x128, .f32⟩
  | 119 => ⟨S1000000x1, .i32⟩
  | 120 => ⟨S154096x128, .f32⟩
  | 121 => ⟨S_, .f32⟩
  | 122 => ⟨S1000000, .f32⟩
  | 123 => ⟨S1x1000000, .i32⟩
  | 124 => ⟨S1000000, .i32⟩
  | 125 => ⟨S_, .f32⟩
  | 126 => ⟨S154096, .f32⟩
  | 127 => ⟨S1000000x1, .i32⟩
  | _ => ⟨S304096x128, .f32⟩

abbrev hbmTy0_1 (i : Nat) : BufTy := match i % 128 with
  | 0 => ⟨S154096, .f32⟩
  | 1 => ⟨S_, .f32⟩
  | 2 => ⟨S154096, .f32⟩
  | 3 => ⟨S154096, .f32⟩
  | 4 => ⟨S154096x1, .f32⟩
  | 5 => ⟨S154096x128, .f32⟩
  | 6 => ⟨S154096x128, .f32⟩
  | 7 => ⟨S_, .i32⟩
  | 8 => ⟨S_, .f32⟩
  | 9 => ⟨S155648x128, .f32⟩
  | 10 => ⟨S_, .i32⟩
  | 11 => ⟨S_, .f32⟩
  | 12 => ⟨S155648x128, .f32⟩
  | 13 => ⟨S155648x256, .f32⟩
  | 14 => ⟨S154096x256, .f32⟩
  | 15 => ⟨S104096x256, .f32⟩
  | 16 => ⟨S54096x256, .f32⟩
  | 17 => ⟨S1x500000, .i32⟩
  | 18 => ⟨S500000, .i32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000x256, .f32⟩
  | 28 => ⟨S1x500000, .i32⟩
  | 29 => ⟨S500000, .i32⟩
  | 30 => ⟨S_, .f32⟩
  | 31 => ⟨S104096x256, .f32⟩
  | 32 => ⟨S500000x1, .i32⟩
  | 33 => ⟨S104096x256, .f32⟩
  | 34 => ⟨S_, .f32⟩
  | 35 => ⟨S500000, .f32⟩
  | 36 => ⟨S1x500000, .i32⟩
  | 37 => ⟨S500000, .i32⟩
  | 38 => ⟨S_, .f32⟩
  | 39 => ⟨S104096, .f32⟩
  | 40 => ⟨S500000x1, .i32⟩
  | 41 => ⟨S104096, .f32⟩
  | 42 => ⟨S_, .f32⟩
  | 43 => ⟨S104096, .f32⟩
  | 44 => ⟨S104096, .f32⟩
  | 45 => ⟨S104096x1, .f32⟩
  | 46 => ⟨S104096x256, .f32⟩
  | 47 => ⟨S104096x256, .f32⟩
  | 48 => ⟨S1x500000, .i32⟩
  | 49 => ⟨S500000, .i32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x256, .f32⟩
  | 59 => ⟨S1x500000, .i32⟩
  | 60 => ⟨S500000, .i32⟩
  | 61 => ⟨S_, .f32⟩
  | 62 => ⟨S104096x256, .f32⟩
  | 63 => ⟨S500000x1, .i32⟩
  | 64 => ⟨S104096x256, .f32⟩
  | 65 => ⟨S_, .f32⟩
  | 66 => ⟨S500000, .f32⟩
  | 67 => ⟨S1x500000, .i32⟩
  | 68 => ⟨S500000, .i32⟩
  | 69 => ⟨S_, .f32⟩
  | 70 => ⟨S104096, .f32⟩
  | 71 => ⟨S500000x1, .i32⟩
  | 72 => ⟨S104096, .f32⟩
  | 73 => ⟨S_, .f32⟩
  | 74 => ⟨S104096, .f32⟩
  | 75 => ⟨S104096, .f32⟩
  | 76 => ⟨S104096x1, .f32⟩
  | 77 => ⟨S104096x256, .f32⟩
  | 78 => ⟨S104096x256, .f32⟩
  | 79 => ⟨S_, .i32⟩
  | 80 => ⟨S_, .f32⟩
  | 81 => ⟨S104448x256, .f32⟩
  | 82 => ⟨S_, .i32⟩
  | 83 => ⟨S_, .f32⟩
  | 84 => ⟨S104448x256, .f32⟩
  | 85 => ⟨S_, .i32⟩
  | 86 => ⟨S_, .f32⟩
  | 87 => ⟨S104448x256, .f32⟩
  | 88 => ⟨S104448x64, .f32⟩
  | 89 => ⟨S104096x64, .f32⟩
  | _ => ⟨S304096x128, .f32⟩

abbrev hbmTy (i : Nat) : BufTy := match i / 128 with
  | 0 => hbmTy0_0 i
  | 1 => hbmTy0_1 i
  | _ => ⟨S304096x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x256, .f32⟩
  | .local _ .vmem, ⟨7, _⟩ => ⟨S256, .f32⟩
  | .local _ .vmem, ⟨8, _⟩ => ⟨S128x256, .f32⟩
  | .local _ .vmem, ⟨9, _⟩ => ⟨S128x256, .f32⟩
  | .local _ .vmem, ⟨10, _⟩ => ⟨S256, .f32⟩
  | .local _ .vmem, ⟨11, _⟩ => ⟨S128x256, .f32⟩
  | .local _ .vmem, ⟨12, _⟩ => ⟨S2048x256, .f32⟩
  | .local _ .vmem, ⟨13, _⟩ => ⟨S2048x256, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S128x256, .f32⟩
  | .local _ .vmem, ⟨19, _⟩ => ⟨S256, .f32⟩
  | .local _ .vmem, ⟨20, _⟩ => ⟨S128x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S256x256, .f32⟩
  | .local _ .vmem, ⟨30, _⟩ => ⟨S256, .f32⟩
  | .local _ .vmem, ⟨31, _⟩ => ⟨S256x256, .f32⟩
  | .local _ .vmem, ⟨32, _⟩ => ⟨S256x256, .f32⟩
  | .local _ .vmem, ⟨33, _⟩ => ⟨S256, .f32⟩
  | .local _ .vmem, ⟨34, _⟩ => ⟨S256x256, .f32⟩
  | .local _ .vmem, ⟨35, _⟩ => ⟨S256x64, .f32⟩
  | .local _ .vmem, ⟨36, _⟩ => ⟨S64, .f32⟩
  | .local _ .vmem, ⟨37, _⟩ => ⟨S2048x64, .f32⟩
  | .local _ .vmem, ⟨38, _⟩ => ⟨S2048x64, .f32⟩
  | _, _ => ⟨S304096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_c : Ref sig .tc := ⟨.hbm, 33, rfl⟩
abbrev main_v5 : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_1 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_2 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_4 : Ref sig .tc := ⟨.hbm, 64, rfl⟩
abbrev main_v30 : Ref sig .tc := ⟨.hbm, 65, rfl⟩
abbrev main_v31 : Ref sig .tc := ⟨.hbm, 66, rfl⟩
abbrev main_c_5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_6 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_7 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_8 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_9 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_c_10 : Ref sig .tc := ⟨.hbm, 93, rfl⟩
abbrev main_call0_v0 : Ref sig .tc := ⟨.hbm, 94, rfl⟩
abbrev main_v53 : Ref sig .tc := ⟨.hbm, 95, rfl⟩
abbrev main_c_11 : Ref sig .tc := ⟨.hbm, 96, rfl⟩
abbrev main_call1_v0 : Ref sig .tc := ⟨.hbm, 97, rfl⟩
abbrev main_v54 : Ref sig .tc := ⟨.hbm, 98, rfl⟩
abbrev main_c_12 : Ref sig .tc := ⟨.hbm, 99, rfl⟩
abbrev main_call2_v0 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_13 : Ref sig .tc := ⟨.hbm, 106, rfl⟩
abbrev main_v60 : Ref sig .tc := ⟨.hbm, 107, rfl⟩
abbrev main_v61 : Ref sig .tc := ⟨.hbm, 108, rfl⟩
abbrev main_c_14 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_15 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_16 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_17 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_18 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_19 : Ref sig .tc := ⟨.hbm, 135, rfl⟩
abbrev main_call3_v0 : Ref sig .tc := ⟨.hbm, 136, rfl⟩
abbrev main_v83 : Ref sig .tc := ⟨.hbm, 137, rfl⟩
abbrev main_c_20 : Ref sig .tc := ⟨.hbm, 138, rfl⟩
abbrev main_call4_v0 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_21 : Ref sig .tc := ⟨.hbm, 147, rfl⟩
abbrev main_v91 : Ref sig .tc := ⟨.hbm, 148, rfl⟩
abbrev main_v92 : Ref sig .tc := ⟨.hbm, 149, rfl⟩
abbrev main_c_22 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_23 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_24 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_25 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_cst_26 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_c_27 : Ref sig .tc := ⟨.hbm, 178, rfl⟩
abbrev main_v116 : Ref sig .tc := ⟨.hbm, 179, rfl⟩
abbrev main_v117 : Ref sig .tc := ⟨.hbm, 180, rfl⟩
abbrev main_c_28 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_cst_29 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_30 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_31 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_32 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_c_33 : Ref sig .tc := ⟨.hbm, 207, rfl⟩
abbrev main_call5_v0 : Ref sig .tc := ⟨.hbm, 208, rfl⟩
abbrev main_v139 : Ref sig .tc := ⟨.hbm, 209, rfl⟩
abbrev main_c_34 : Ref sig .tc := ⟨.hbm, 210, rfl⟩
abbrev main_call6_v0 : Ref sig .tc := ⟨.hbm, 211, rfl⟩
abbrev main_v140 : Ref sig .tc := ⟨.hbm, 212, rfl⟩
abbrev main_c_35 : Ref sig .tc := ⟨.hbm, 213, rfl⟩
abbrev main_call7_v0 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg11_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem11_1 : DmaSem sig := 38

abbrev nD : Nat := 1
abbrev τ : Topo := Topo.v7x

variable {F : FTy → Type} [FloatOps F]

abbrev grid0 : Pipeline.Grid := ⟨1, ![149], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![76], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![51], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2048x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  concatenates_S2x500000_S2x500000_S2x1000000_d1 : Shape.Concatenates [S2x500000, S2x500000] S2x1000000 1
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S304096x128 : S_.BroadcastsInDim S304096x128 (![] : Fin 0 → Fin S304096x128.rank)
  bcast_S_S304096 : S_.BroadcastsInDim S304096 (![] : Fin 0 → Fin S304096.rank)
  bcast_S304096_S304096x1_0 : S304096.BroadcastsInDim S304096x1 (![0] : Fin 1 → Fin S304096x1.rank)
  bcast_S304096x1_S304096x128_0_1 : S304096x1.BroadcastsInDim S304096x128 (![0, 1] : Fin 2 → Fin S304096x128.rank)
  pads_S304096x128_S305152x128_010560_000 : S304096x128.Pads (![0, 0] : Fin 2 → Nat) ![1056, 0] ![0, 0] S305152x128
  h_S_ : 0 < S_.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  slices_S305152x256_S304096x256_0_0 : S305152x256.Slices ![0, 0] S304096x256
  bcast_S_S154096x128 : S_.BroadcastsInDim S154096x128 (![] : Fin 0 → Fin S154096x128.rank)
  bcast_S_S154096 : S_.BroadcastsInDim S154096 (![] : Fin 0 → Fin S154096.rank)
  bcast_S154096_S154096x1_0 : S154096.BroadcastsInDim S154096x1 (![0] : Fin 1 → Fin S154096x1.rank)
  bcast_S154096x1_S154096x128_0_1 : S154096x1.BroadcastsInDim S154096x128 (![0, 1] : Fin 2 → Fin S154096x128.rank)
  pads_S154096x128_S155648x128_015520_000 : S154096x128.Pads (![0, 0] : Fin 2 → Nat) ![1552, 0] ![0, 0] S155648x128
  slices_S155648x256_S154096x256_0_0 : S155648x256.Slices ![0, 0] S154096x256
  slices_S304096x256_S104096x256_0_0 : S304096x256.Slices ![0, 0] S104096x256
  slices_S154096x256_S54096x256_0_0 : S154096x256.Slices ![0, 0] S54096x256
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S104096x256 : S_.BroadcastsInDim S104096x256 (![] : Fin 0 → Fin S104096x256.rank)
  bcast_S_S104096 : S_.BroadcastsInDim S104096 (![] : Fin 0 → Fin S104096.rank)
  bcast_S104096_S104096x1_0 : S104096.BroadcastsInDim S104096x1 (![0] : Fin 1 → Fin S104096x1.rank)
  bcast_S104096x1_S104096x256_0_1 : S104096x1.BroadcastsInDim S104096x256 (![0, 1] : Fin 2 → Fin S104096x256.rank)
  pads_S104096x256_S104448x256_03520_000 : S104096x256.Pads (![0, 0] : Fin 2 → Nat) ![352, 0] ![0, 0] S104448x256
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  slices_S104448x64_S104096x64_0_0 : S104448x64.Slices ![0, 0] S104096x64
  gather_S304096x128_S1000000x1_S1000000x128_1_0_n_n_0_1_1128_wf : GatherDims.WF S304096x128 S1000000x1 S1000000x128 [1] [0] [] [0] [] 1 ![1, 128]
  scatter_S304096x128_S1000000x1_S1000000x128_1_0_0_1_wf : ScatterDims.WF S304096x128 S1000000x1 S1000000x128 [1] [0] [0] 1
  scatter_S304096_S1000000x1_S1000000_n_0_0_1_wf : ScatterDims.WF S304096 S1000000x1 S1000000 [] [0] [0] 1
  gather_S154096x128_S1000000x1_S1000000x128_1_0_n_n_0_1_1128_wf : GatherDims.WF S154096x128 S1000000x1 S1000000x128 [1] [0] [] [0] [] 1 ![1, 128]
  dot_S2048x128_S128x256_S2048x256_1_0_0_1_n_n_wf : DotDims.WF S2048x128 S128x256 S2048x256 [1] [0] [0] [1] [] []
  scatter_S154096x128_S1000000x1_S1000000x128_1_0_0_1_wf : ScatterDims.WF S154096x128 S1000000x1 S1000000x128 [1] [0] [0] 1
  scatter_S154096_S1000000x1_S1000000_n_0_0_1_wf : ScatterDims.WF S154096 S1000000x1 S1000000 [] [0] [0] 1
  gather_S104096x256_S500000x1_S500000x256_1_0_n_n_0_1_1256_wf : GatherDims.WF S104096x256 S500000x1 S500000x256 [1] [0] [] [0] [] 1 ![1, 256]
  scatter_S104096x256_S500000x1_S500000x256_1_0_0_1_wf : ScatterDims.WF S104096x256 S500000x1 S500000x256 [1] [0] [0] 1
  scatter_S104096_S500000x1_S500000_n_0_0_1_wf : ScatterDims.WF S104096 S500000x1 S500000 [] [0] [0] 1
  gather_S54096x256_S500000x1_S500000x256_1_0_n_n_0_1_1256_wf : GatherDims.WF S54096x256 S500000x1 S500000x256 [1] [0] [] [0] [] 1 ![1, 256]
  dot_S2048x256_S256x256_S2048x256_1_0_0_1_n_n_wf : DotDims.WF S2048x256 S256x256 S2048x256 [1] [0] [0] [1] [] []
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S305152x128.size a
  hwx0_0 : ∀ i : grid0.Coords, EltTy.bits .f32 = 32 ∨ (Rect.block (s := S305152x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S305152x128.size a
  hwx0_1 : ∀ i : grid0.Coords, EltTy.bits .f32 = 32 ∨ (Rect.block (s := S305152x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S305152x128.size a
  hwx0_2 : ∀ i : grid0.Coords, EltTy.bits .f32 = 32 ∨ (Rect.block (s := S305152x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S128x256.size a
  hwx0_8 : ∀ i : grid0.Coords, EltTy.bits .f32 = 32 ∨ (Rect.block (s := S128x256) S128x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S305152x256.size a
  hwx0_9 : ∀ i : grid0.Coords, EltTy.bits .f32 = 32 ∨ (Rect.block (s := S305152x256) S2048x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S155648x128.size a
  hwx1_0 : ∀ i : grid1.Coords, EltTy.bits .f32 = 32 ∨ (Rect.block (s := S155648x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S155648x128.size a
  hwx1_1 : ∀ i : grid1.Coords, EltTy.bits .f32 = 32 ∨ (Rect.block (s := S155648x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S155648x256.size a
  hwx1_5 : ∀ i : grid1.Coords, EltTy.bits .f32 = 32 ∨ (Rect.block (s := S155648x256) S2048x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S104448x256.size a
  hwx2_0 : ∀ i : grid2.Coords, EltTy.bits .f32 = 32 ∨ (Rect.block (s := S104448x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S104448x256.size a
  hwx2_1 : ∀ i : grid2.Coords, EltTy.bits .f32 = 32 ∨ (Rect.block (s := S104448x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S104448x256.size a
  hwx2_2 : ∀ i : grid2.Coords, EltTy.bits .f32 = 32 ∨ (Rect.block (s := S104448x256) S2048x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256.size a ≤ S256.size a
  hwx2_7 : ∀ i : grid2.Coords, EltTy.bits .f32 = 32 ∨ (Rect.block (s := S256) S256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .f32 = 32 ∨ (Rect.block (s := S256x256) S256x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x64.size a ≤ S256x64.size a
  hwx2_9 : ∀ i : grid2.Coords, EltTy.bits .f32 = 32 ∨ (Rect.block (s := S256x64) S256x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2048x64.size a ≤ S104448x64.size a
  hwx2_11 : ∀ i : grid2.Coords, EltTy.bits .f32 = 32 ∨ (Rect.block (s := S104448x64) S2048x64.size (cc2_transform_11 i) (hinb2_11 i)).WholeWords (EltTy.packing .f32)

variable [Facts₀]

def gather_S304096x128_S1000000x1_S1000000x128_1_0_n_n_0_1_1128 : GatherDims S304096x128 S1000000x1 S1000000x128 where
  offsetDims := [1]
  collapsedSliceDims := [0]
  operandBatchingDims := []
  startIndicesBatchingDims := []
  startIndexMap := [0]
  indexVectorDim := 1
  sliceSizes := ![1, 128]
  wf := gather_S304096x128_S1000000x1_S1000000x128_1_0_n_n_0_1_1128_wf
def scatter_S304096x128_S1000000x1_S1000000x128_1_0_0_1 : ScatterDims S304096x128 S1000000x1 S1000000x128 where
  updateWindowDims := [1]
  insertedWindowDims := [0]
  scatterDimsToOperandDims := [0]
  indexVectorDim := 1
  wf := scatter_S304096x128_S1000000x1_S1000000x128_1_0_0_1_wf
def scatter_S304096_S1000000x1_S1000000_n_0_0_1 : ScatterDims S304096 S1000000x1 S1000000 where
  updateWindowDims := []
  insertedWindowDims := [0]
  scatterDimsToOperandDims := [0]
  indexVectorDim := 1
  wf := scatter_S304096_S1000000x1_S1000000_n_0_0_1_wf
def gather_S154096x128_S1000000x1_S1000000x128_1_0_n_n_0_1_1128 : GatherDims S154096x128 S1000000x1 S1000000x128 where
  offsetDims := [1]
  collapsedSliceDims := [0]
  operandBatchingDims := []
  startIndicesBatchingDims := []
  startIndexMap := [0]
  indexVectorDim := 1
  sliceSizes := ![1, 128]
  wf := gather_S154096x128_S1000000x1_S1000000x128_1_0_n_n_0_1_1128_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def scatter_S154096x128_S1000000x1_S1000000x128_1_0_0_1 : ScatterDims S154096x128 S1000000x1 S1000000x128 where
  updateWindowDims := [1]
  insertedWindowDims := [0]
  scatterDimsToOperandDims := [0]
  indexVectorDim := 1
  wf := scatter_S154096x128_S1000000x1_S1000000x128_1_0_0_1_wf
def scatter_S154096_S1000000x1_S1000000_n_0_0_1 : ScatterDims S154096 S1000000x1 S1000000 where
  updateWindowDims := []
  insertedWindowDims := [0]
  scatterDimsToOperandDims := [0]
  indexVectorDim := 1
  wf := scatter_S154096_S1000000x1_S1000000_n_0_0_1_wf
def gather_S104096x256_S500000x1_S500000x256_1_0_n_n_0_1_1256 : GatherDims S104096x256 S500000x1 S500000x256 where
  offsetDims := [1]
  collapsedSliceDims := [0]
  operandBatchingDims := []
  startIndicesBatchingDims := []
  startIndexMap := [0]
  indexVectorDim := 1
  sliceSizes := ![1, 256]
  wf := gather_S104096x256_S500000x1_S500000x256_1_0_n_n_0_1_1256_wf
def scatter_S104096x256_S500000x1_S500000x256_1_0_0_1 : ScatterDims S104096x256 S500000x1 S500000x256 where
  updateWindowDims := [1]
  insertedWindowDims := [0]
  scatterDimsToOperandDims := [0]
  indexVectorDim := 1
  wf := scatter_S104096x256_S500000x1_S500000x256_1_0_0_1_wf
def scatter_S104096_S500000x1_S500000_n_0_0_1 : ScatterDims S104096 S500000x1 S500000 where
  updateWindowDims := []
  insertedWindowDims := [0]
  scatterDimsToOperandDims := [0]
  indexVectorDim := 1
  wf := scatter_S104096_S500000x1_S500000_n_0_0_1_wf
def gather_S54096x256_S500000x1_S500000x256_1_0_n_n_0_1_1256 : GatherDims S54096x256 S500000x1 S500000x256 where
  offsetDims := [1]
  collapsedSliceDims := [0]
  operandBatchingDims := []
  startIndicesBatchingDims := []
  startIndexMap := [0]
  indexVectorDim := 1
  sliceSizes := ![1, 256]
  wf := gather_S54096x256_S500000x1_S500000x256_1_0_n_n_0_1_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_v53) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v56) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v83) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v85) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v139) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v140) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v141) S2048x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg16) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg20) S256x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg21) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v142) S2048x64.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S304096x128 : Shape := ⟨2, ![304096, 128]⟩
abbrev S154096x128 : Shape := ⟨2, ![154096, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S2x500000 : Shape := ⟨2, ![2, 500000]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S304096 : Shape := ⟨1, ![304096]⟩
abbrev S304096x1 : Shape := ⟨2, ![304096, 1]⟩
abbrev S304096x256 : Shape := ⟨2, ![304096, 256]⟩
abbrev S1x256 : Shape := ⟨2, ![1, 256]⟩
abbrev S154096 : Shape := ⟨1, ![154096]⟩
abbrev S154096x1 : Shape := ⟨2, ![154096, 1]⟩
abbrev S154096x256 : Shape := ⟨2, ![154096, 256]⟩
abbrev S104096x256 : Shape := ⟨2, ![104096, 256]⟩
abbrev S54096x256 : Shape := ⟨2, ![54096, 256]⟩
abbrev S1x500000 : Shape := ⟨2, ![1, 500000]⟩
abbrev S500000 : Shape := ⟨1, ![500000]⟩
abbrev S500000x1 : Shape := ⟨2, ![500000, 1]⟩
abbrev S500000x256 : Shape := ⟨2, ![500000, 256]⟩
abbrev S104096 : Shape := ⟨1, ![104096]⟩
abbrev S104096x1 : Shape := ⟨2, ![104096, 1]⟩
abbrev S104096x64 : Shape := ⟨2, ![104096, 64]⟩
abbrev S1x64 : Shape := ⟨2, ![1, 64]⟩

abbrev nBuf : Space → Nat
  | .hbm => 233
  | .vmem => 0
  | .smem => 0
  | _ => 0

abbrev hbmTy0_0 (i : Nat) : BufTy := match i % 128 with
  | 0 => ⟨S304096x128, .f32⟩
  | 1 => ⟨S154096x128, .f32⟩
  | 2 => ⟨S128x256, .f32⟩
  | 3 => ⟨S256, .f32⟩
  | 4 => ⟨S128x256, .f32⟩
  | 5 => ⟨S128x256, .f32⟩
  | 6 => ⟨S256, .f32⟩
  | 7 => ⟨S128x256, .f32⟩
  | 8 => ⟨S128x256, .f32⟩
  | 9 => ⟨S256, .f32⟩
  | 10 => ⟨S128x256, .f32⟩
  | 11 => ⟨S256x256, .f32⟩
  | 12 => ⟨S256, .f32⟩
  | 13 => ⟨S256x256, .f32⟩
  | 14 => ⟨S256x256, .f32⟩
  | 15 => ⟨S256, .f32⟩
  | 16 => ⟨S256x256, .f32⟩
  | 17 => ⟨S256x256, .f32⟩
  | 18 => ⟨S256, .f32⟩
  | 19 => ⟨S256x256, .f32⟩
  | 20 => ⟨S256x64, .f32⟩
  | 21 => ⟨S64, .f32⟩
  | 22 => ⟨S2x500000, .i32⟩
  | 23 => ⟨S2x500000, .i32⟩
  | 24 => ⟨S2x500000, .i32⟩
  | 25 => ⟨S2x500000, .i32⟩
  | 26 => ⟨S2x500000, .i32⟩
  | 27 => ⟨S2x500000, .i32⟩
  | 28 => ⟨S2x1000000, .i32⟩
  | 29 => ⟨S2x1000000, .i32⟩
  | 30 => ⟨S2x1000000, .i32⟩
  | 31 => ⟨S1x1000000, .i32⟩
  | 32 => ⟨S1000000, .i32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x128, .f32⟩
  | 42 => ⟨S1x1000000, .i32⟩
  | 43 => ⟨S1000000, .i32⟩
  | 44 => ⟨S_, .f32⟩
  | 45 => ⟨S304096x128, .f32⟩
  | 46 => ⟨S1000000x1, .i32⟩
  | 47 => ⟨S304096x128, .f32⟩
  | 48 => ⟨S_, .f32⟩
  | 49 => ⟨S1000000, .f32⟩
  | 50 => ⟨S1x1000000, .i32⟩
  | 51 => ⟨S1000000, .i32⟩
  | 52 => ⟨S_, .f32⟩
  | 53 => ⟨S304096, .f32⟩
  | 54 => ⟨S1000000x1, .i32⟩
  | 55 => ⟨S304096, .f32⟩
  | 56 => ⟨S_, .f32⟩
  | 57 => ⟨S304096, .f32⟩
  | 58 => ⟨S304096, .f32⟩
  | 59 => ⟨S304096x1, .f32⟩
  | 60 => ⟨S304096x128, .f32⟩
  | 61 => ⟨S304096x128, .f32⟩
  | 62 => ⟨S304096x256, .f32⟩
  | 63 => ⟨S1x256, .f32⟩
  | 64 => ⟨S304096x256, .f32⟩
  | 65 => ⟨S304096x256, .f32⟩
  | 66 => ⟨S304096x256, .f32⟩
  | 67 => ⟨S304096x256, .f32⟩
  | 68 => ⟨S1x1000000, .i32⟩
  | 69 => ⟨S1000000, .i32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x128, .f32⟩
  | 79 => ⟨S1x1000000, .i32⟩
  | 80 => ⟨S1000000, .i32⟩
  | 81 => ⟨S_, .f32⟩
  | 82 => ⟨S304096x128, .f32⟩
  | 83 => ⟨S1000000x1, .i32⟩
  | 84 => ⟨S304096x128, .f32⟩
  | 85 => ⟨S_, .f32⟩
  | 86 => ⟨S1000000, .f32⟩
  | 87 => ⟨S1x1000000, .i32⟩
  | 88 => ⟨S1000000, .i32⟩
  | 89 => ⟨S_, .f32⟩
  | 90 => ⟨S304096, .f32⟩
  | 91 => ⟨S1000000x1, .i32⟩
  | 92 => ⟨S304096, .f32⟩
  | 93 => ⟨S_, .f32⟩
  | 94 => ⟨S304096, .f32⟩
  | 95 => ⟨S304096, .f32⟩
  | 96 => ⟨S304096x1, .f32⟩
  | 97 => ⟨S304096x128, .f32⟩
  | 98 => ⟨S304096x128, .f32⟩
  | 99 => ⟨S304096x256, .f32⟩
  | 100 => ⟨S1x256, .f32⟩
  | 101 => ⟨S304096x256, .f32⟩
  | 102 => ⟨S304096x256, .f32⟩
  | 103 => ⟨S304096x256, .f32⟩
  | 104 => ⟨S304096x256, .f32⟩
  | 105 => ⟨S304096x256, .f32⟩
  | 106 => ⟨S1x1000000, .i32⟩
  | 107 => ⟨S1000000, .i32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x128, .f32⟩
  | 117 => ⟨S1x1000000, .i32⟩
  | 118 => ⟨S1000000, .i32⟩
  | 119 => ⟨S_, .f32⟩
  | 120 => ⟨S154096x128, .f32⟩
  | 121 => ⟨S1000000x1, .i32⟩
  | 122 => ⟨S154096x128, .f32⟩
  | 123 => ⟨S_, .f32⟩
  | 124 => ⟨S1000000, .f32⟩
  | 125 => ⟨S1x1000000, .i32⟩
  | 126 => ⟨S1000000, .i32⟩
  | 127 => ⟨S_, .f32⟩
  | _ => ⟨S304096x128, .f32⟩

abbrev hbmTy0_1 (i : Nat) : BufTy := match i % 128 with
  | 0 => ⟨S154096, .f32⟩
  | 1 => ⟨S1000000x1, .i32⟩
  | 2 => ⟨S154096, .f32⟩
  | 3 => ⟨S_, .f32⟩
  | 4 => ⟨S154096, .f32⟩
  | 5 => ⟨S154096, .f32⟩
  | 6 => ⟨S154096x1, .f32⟩
  | 7 => ⟨S154096x128, .f32⟩
  | 8 => ⟨S154096x128, .f32⟩
  | 9 => ⟨S154096x256, .f32⟩
  | 10 => ⟨S1x256, .f32⟩
  | 11 => ⟨S154096x256, .f32⟩
  | 12 => ⟨S154096x256, .f32⟩
  | 13 => ⟨S154096x256, .f32⟩
  | 14 => ⟨S154096x256, .f32⟩
  | 15 => ⟨S_, .f32⟩
  | 16 => ⟨S304096x256, .f32⟩
  | 17 => ⟨S304096x256, .f32⟩
  | 18 => ⟨S_, .f32⟩
  | 19 => ⟨S154096x256, .f32⟩
  | 20 => ⟨S154096x256, .f32⟩
  | 21 => ⟨S104096x256, .f32⟩
  | 22 => ⟨S54096x256, .f32⟩
  | 23 => ⟨S1x500000, .i32⟩
  | 24 => ⟨S500000, .i32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x256, .f32⟩
  | 34 => ⟨S1x500000, .i32⟩
  | 35 => ⟨S500000, .i32⟩
  | 36 => ⟨S_, .f32⟩
  | 37 => ⟨S104096x256, .f32⟩
  | 38 => ⟨S500000x1, .i32⟩
  | 39 => ⟨S104096x256, .f32⟩
  | 40 => ⟨S_, .f32⟩
  | 41 => ⟨S500000, .f32⟩
  | 42 => ⟨S1x500000, .i32⟩
  | 43 => ⟨S500000, .i32⟩
  | 44 => ⟨S_, .f32⟩
  | 45 => ⟨S104096, .f32⟩
  | 46 => ⟨S500000x1, .i32⟩
  | 47 => ⟨S104096, .f32⟩
  | 48 => ⟨S_, .f32⟩
  | 49 => ⟨S104096, .f32⟩
  | 50 => ⟨S104096, .f32⟩
  | 51 => ⟨S104096x1, .f32⟩
  | 52 => ⟨S104096x256, .f32⟩
  | 53 => ⟨S104096x256, .f32⟩
  | 54 => ⟨S104096x256, .f32⟩
  | 55 => ⟨S1x256, .f32⟩
  | 56 => ⟨S104096x256, .f32⟩
  | 57 => ⟨S104096x256, .f32⟩
  | 58 => ⟨S104096x256, .f32⟩
  | 59 => ⟨S104096x256, .f32⟩
  | 60 => ⟨S1x500000, .i32⟩
  | 61 => ⟨S500000, .i32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x256, .f32⟩
  | 71 => ⟨S1x500000, .i32⟩
  | 72 => ⟨S500000, .i32⟩
  | 73 => ⟨S_, .f32⟩
  | 74 => ⟨S104096x256, .f32⟩
  | 75 => ⟨S500000x1, .i32⟩
  | 76 => ⟨S104096x256, .f32⟩
  | 77 => ⟨S_, .f32⟩
  | 78 => ⟨S500000, .f32⟩
  | 79 => ⟨S1x500000, .i32⟩
  | 80 => ⟨S500000, .i32⟩
  | 81 => ⟨S_, .f32⟩
  | 82 => ⟨S104096, .f32⟩
  | 83 => ⟨S500000x1, .i32⟩
  | 84 => ⟨S104096, .f32⟩
  | 85 => ⟨S_, .f32⟩
  | 86 => ⟨S104096, .f32⟩
  | 87 => ⟨S104096, .f32⟩
  | 88 => ⟨S104096x1, .f32⟩
  | 89 => ⟨S104096x256, .f32⟩
  | 90 => ⟨S104096x256, .f32⟩
  | 91 => ⟨S104096x256, .f32⟩
  | 92 => ⟨S1x256, .f32⟩
  | 93 => ⟨S104096x256, .f32⟩
  | 94 => ⟨S104096x256, .f32⟩
  | 95 => ⟨S104096x256, .f32⟩
  | 96 => ⟨S104096x256, .f32⟩
  | 97 => ⟨S104096x256, .f32⟩
  | 98 => ⟨S_, .f32⟩
  | 99 => ⟨S104096x256, .f32⟩
  | 100 => ⟨S104096x256, .f32⟩
  | 101 => ⟨S104096x64, .f32⟩
  | 102 => ⟨S1x64, .f32⟩
  | 103 => ⟨S104096x64, .f32⟩
  | 104 => ⟨S104096x64, .f32⟩
  | _ => ⟨S304096x128, .f32⟩

abbrev hbmTy (i : Nat) : BufTy := match i / 128 with
  | 0 => hbmTy0_0 i
  | 1 => hbmTy0_1 i
  | _ => ⟨S304096x128, .f32⟩

abbrev bufTy : (tb : Table) → Fin (tcTables nBuf tb) → BufTy
  | .hbm, ⟨i, _⟩ => hbmTy i
  | _, _ => ⟨S304096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_c : Ref sig .tc := ⟨.hbm, 33, rfl⟩
abbrev main_v5 : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_1 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_2 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_4 : Ref sig .tc := ⟨.hbm, 70, rfl⟩
abbrev main_v36 : Ref sig .tc := ⟨.hbm, 71, rfl⟩
abbrev main_v37 : Ref sig .tc := ⟨.hbm, 72, rfl⟩
abbrev main_c_5 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_6 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_7 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_9 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_10 : Ref sig .tc := ⟨.hbm, 108, rfl⟩
abbrev main_v68 : Ref sig .tc := ⟨.hbm, 109, rfl⟩
abbrev main_v69 : Ref sig .tc := ⟨.hbm, 110, rfl⟩
abbrev main_c_11 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_12 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_13 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_14 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_15 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_call0_cst : Ref sig .tc := ⟨.hbm, 143, rfl⟩
abbrev main_call0_v0 : Ref sig .tc := ⟨.hbm, 144, rfl⟩
abbrev main_v97 : Ref sig .tc := ⟨.hbm, 145, rfl⟩
abbrev main_call1_cst : Ref sig .tc := ⟨.hbm, 146, rfl⟩
abbrev main_call1_v0 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_16 : Ref sig .tc := ⟨.hbm, 153, rfl⟩
abbrev main_v103 : Ref sig .tc := ⟨.hbm, 154, rfl⟩
abbrev main_v104 : Ref sig .tc := ⟨.hbm, 155, rfl⟩
abbrev main_c_17 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_18 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_19 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_20 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_21 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_c_22 : Ref sig .tc := ⟨.hbm, 190, rfl⟩
abbrev main_v134 : Ref sig .tc := ⟨.hbm, 191, rfl⟩
abbrev main_v135 : Ref sig .tc := ⟨.hbm, 192, rfl⟩
abbrev main_c_23 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_24 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_25 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_26 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_cst_27 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_call2_cst : Ref sig .tc := ⟨.hbm, 226, rfl⟩
abbrev main_call2_v0 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩

abbrev nD : Nat := 1
abbrev τ : Topo := Topo.v7x

variable {F : FTy → Type} [FloatOps F]

class Facts₀ : Prop where
  concatenates_S2x500000_S2x500000_S2x1000000_d1 : Shape.Concatenates [S2x500000, S2x500000] S2x1000000 1
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S304096x128 : S_.BroadcastsInDim S304096x128 (![] : Fin 0 → Fin S304096x128.rank)
  bcast_S_S304096 : S_.BroadcastsInDim S304096 (![] : Fin 0 → Fin S304096.rank)
  bcast_S304096_S304096x1_0 : S304096.BroadcastsInDim S304096x1 (![0] : Fin 1 → Fin S304096x1.rank)
  bcast_S304096x1_S304096x128_0_1 : S304096x1.BroadcastsInDim S304096x128 (![0, 1] : Fin 2 → Fin S304096x128.rank)
  bcast_S256_S1x256_1 : S256.BroadcastsInDim S1x256 (![1] : Fin 1 → Fin S1x256.rank)
  bcast_S1x256_S304096x256_0_1 : S1x256.BroadcastsInDim S304096x256 (![0, 1] : Fin 2 → Fin S304096x256.rank)
  bcast_S_S154096x128 : S_.BroadcastsInDim S154096x128 (![] : Fin 0 → Fin S154096x128.rank)
  bcast_S_S154096 : S_.BroadcastsInDim S154096 (![] : Fin 0 → Fin S154096.rank)
  bcast_S154096_S154096x1_0 : S154096.BroadcastsInDim S154096x1 (![0] : Fin 1 → Fin S154096x1.rank)
  bcast_S154096x1_S154096x128_0_1 : S154096x1.BroadcastsInDim S154096x128 (![0, 1] : Fin 2 → Fin S154096x128.rank)
  bcast_S1x256_S154096x256_0_1 : S1x256.BroadcastsInDim S154096x256 (![0, 1] : Fin 2 → Fin S154096x256.rank)
  bcast_S_S304096x256 : S_.BroadcastsInDim S304096x256 (![] : Fin 0 → Fin S304096x256.rank)
  bcast_S_S154096x256 : S_.BroadcastsInDim S154096x256 (![] : Fin 0 → Fin S154096x256.rank)
  slices_S304096x256_S104096x256_0_0 : S304096x256.Slices ![0, 0] S104096x256
  slices_S154096x256_S54096x256_0_0 : S154096x256.Slices ![0, 0] S54096x256
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S104096x256 : S_.BroadcastsInDim S104096x256 (![] : Fin 0 → Fin S104096x256.rank)
  bcast_S_S104096 : S_.BroadcastsInDim S104096 (![] : Fin 0 → Fin S104096.rank)
  bcast_S104096_S104096x1_0 : S104096.BroadcastsInDim S104096x1 (![0] : Fin 1 → Fin S104096x1.rank)
  bcast_S104096x1_S104096x256_0_1 : S104096x1.BroadcastsInDim S104096x256 (![0, 1] : Fin 2 → Fin S104096x256.rank)
  bcast_S1x256_S104096x256_0_1 : S1x256.BroadcastsInDim S104096x256 (![0, 1] : Fin 2 → Fin S104096x256.rank)
  bcast_S64_S1x64_1 : S64.BroadcastsInDim S1x64 (![1] : Fin 1 → Fin S1x64.rank)
  bcast_S1x64_S104096x64_0_1 : S1x64.BroadcastsInDim S104096x64 (![0, 1] : Fin 2 → Fin S104096x64.rank)
  gather_S304096x128_S1000000x1_S1000000x128_1_0_n_n_0_1_1128_wf : GatherDims.WF S304096x128 S1000000x1 S1000000x128 [1] [0] [] [0] [] 1 ![1, 128]
  scatter_S304096x128_S1000000x1_S1000000x128_1_0_0_1_wf : ScatterDims.WF S304096x128 S1000000x1 S1000000x128 [1] [0] [0] 1
  scatter_S304096_S1000000x1_S1000000_n_0_0_1_wf : ScatterDims.WF S304096 S1000000x1 S1000000 [] [0] [0] 1
  dot_S304096x128_S128x256_S304096x256_1_0_0_1_n_n_wf : DotDims.WF S304096x128 S128x256 S304096x256 [1] [0] [0] [1] [] []
  gather_S154096x128_S1000000x1_S1000000x128_1_0_n_n_0_1_1128_wf : GatherDims.WF S154096x128 S1000000x1 S1000000x128 [1] [0] [] [0] [] 1 ![1, 128]
  scatter_S154096x128_S1000000x1_S1000000x128_1_0_0_1_wf : ScatterDims.WF S154096x128 S1000000x1 S1000000x128 [1] [0] [0] 1
  scatter_S154096_S1000000x1_S1000000_n_0_0_1_wf : ScatterDims.WF S154096 S1000000x1 S1000000 [] [0] [0] 1
  dot_S154096x128_S128x256_S154096x256_1_0_0_1_n_n_wf : DotDims.WF S154096x128 S128x256 S154096x256 [1] [0] [0] [1] [] []
  gather_S104096x256_S500000x1_S500000x256_1_0_n_n_0_1_1256_wf : GatherDims.WF S104096x256 S500000x1 S500000x256 [1] [0] [] [0] [] 1 ![1, 256]
  scatter_S104096x256_S500000x1_S500000x256_1_0_0_1_wf : ScatterDims.WF S104096x256 S500000x1 S500000x256 [1] [0] [0] 1
  scatter_S104096_S500000x1_S500000_n_0_0_1_wf : ScatterDims.WF S104096 S500000x1 S500000 [] [0] [0] 1
  dot_S104096x256_S256x256_S104096x256_1_0_0_1_n_n_wf : DotDims.WF S104096x256 S256x256 S104096x256 [1] [0] [0] [1] [] []
  gather_S54096x256_S500000x1_S500000x256_1_0_n_n_0_1_1256_wf : GatherDims.WF S54096x256 S500000x1 S500000x256 [1] [0] [] [0] [] 1 ![1, 256]
  dot_S104096x256_S256x64_S104096x64_1_0_0_1_n_n_wf : DotDims.WF S104096x256 S256x64 S104096x64 [1] [0] [0] [1] [] []

variable [Facts₀]

def gather_S304096x128_S1000000x1_S1000000x128_1_0_n_n_0_1_1128 : GatherDims S304096x128 S1000000x1 S1000000x128 where
  offsetDims := [1]
  collapsedSliceDims := [0]
  operandBatchingDims := []
  startIndicesBatchingDims := []
  startIndexMap := [0]
  indexVectorDim := 1
  sliceSizes := ![1, 128]
  wf := gather_S304096x128_S1000000x1_S1000000x128_1_0_n_n_0_1_1128_wf
def scatter_S304096x128_S1000000x1_S1000000x128_1_0_0_1 : ScatterDims S304096x128 S1000000x1 S1000000x128 where
  updateWindowDims := [1]
  insertedWindowDims := [0]
  scatterDimsToOperandDims := [0]
  indexVectorDim := 1
  wf := scatter_S304096x128_S1000000x1_S1000000x128_1_0_0_1_wf
def scatter_S304096_S1000000x1_S1000000_n_0_0_1 : ScatterDims S304096 S1000000x1 S1000000 where
  updateWindowDims := []
  insertedWindowDims := [0]
  scatterDimsToOperandDims := [0]
  indexVectorDim := 1
  wf := scatter_S304096_S1000000x1_S1000000_n_0_0_1_wf
def dot_S304096x128_S128x256_S304096x256_1_0_0_1_n_n : DotDims S304096x128 S128x256 S304096x256 where
  lhsContracting := [1]
  rhsContracting := [0]
  lhsNonContracting := [0]
  rhsNonContracting := [1]
  lhsBatch := []
  rhsBatch := []
  wf := dot_S304096x128_S128x256_S304096x256_1_0_0_1_n_n_wf
def gather_S154096x128_S1000000x1_S1000000x128_1_0_n_n_0_1_1128 : GatherDims S154096x128 S1000000x1 S1000000x128 where
  offsetDims := [1]
  collapsedSliceDims := [0]
  operandBatchingDims := []
  startIndicesBatchingDims := []
  startIndexMap := [0]
  indexVectorDim := 1
  sliceSizes := ![1, 128]
  wf := gather_S154096x128_S1000000x1_S1000000x128_1_0_n_n_0_1_1128_wf
def scatter_S154096x128_S1000000x1_S1000000x128_1_0_0_1 : ScatterDims S154096x128 S1000000x1 S1000000x128 where
  updateWindowDims := [1]
  insertedWindowDims := [0]
  scatterDimsToOperandDims := [0]
  indexVectorDim := 1
  wf := scatter_S154096x128_S1000000x1_S1000000x128_1_0_0_1_wf
def scatter_S154096_S1000000x1_S1000000_n_0_0_1 : ScatterDims S154096 S1000000x1 S1000000 where
  updateWindowDims := []
  insertedWindowDims := [0]
  scatterDimsToOperandDims := [0]
  indexVectorDim := 1
  wf := scatter_S154096_S1000000x1_S1000000_n_0_0_1_wf
def dot_S154096x128_S128x256_S154096x256_1_0_0_1_n_n : DotDims S154096x128 S128x256 S154096x256 where
  lhsContracting := [1]
  rhsContracting := [0]
  lhsNonContracting := [0]
  rhsNonContracting := [1]
  lhsBatch := []
  rhsBatch := []
  wf := dot_S154096x128_S128x256_S154096x256_1_0_0_1_n_n_wf
def gather_S104096x256_S500000x1_S500000x256_1_0_n_n_0_1_1256 : GatherDims S104096x256 S500000x1 S500000x256 where
  offsetDims := [1]
  collapsedSliceDims := [0]
  operandBatchingDims := []
  startIndicesBatchingDims := []
  startIndexMap := [0]
  indexVectorDim := 1
  sliceSizes := ![1, 256]
  wf := gather_S104096x256_S500000x1_S500000x256_1_0_n_n_0_1_1256_wf
def scatter_S104096x256_S500000x1_S500000x256_1_0_0_1 : ScatterDims S104096x256 S500000x1 S500000x256 where
  updateWindowDims := [1]
  insertedWindowDims := [0]
  scatterDimsToOperandDims := [0]
  indexVectorDim := 1
  wf := scatter_S104096x256_S500000x1_S500000x256_1_0_0_1_wf
def scatter_S104096_S500000x1_S500000_n_0_0_1 : ScatterDims S104096 S500000x1 S500000 where
  updateWindowDims := []
  insertedWindowDims := [0]
  scatterDimsToOperandDims := [0]
  indexVectorDim := 1
  wf := scatter_S104096_S500000x1_S500000_n_0_0_1_wf
def dot_S104096x256_S256x256_S104096x256_1_0_0_1_n_n : DotDims S104096x256 S256x256 S104096x256 where
  lhsContracting := [1]
  rhsContracting := [0]
  lhsNonContracting := [0]
  rhsNonContracting := [1]
  lhsBatch := []
  rhsBatch := []
  wf := dot_S104096x256_S256x256_S104096x256_1_0_0_1_n_n_wf
def gather_S54096x256_S500000x1_S500000x256_1_0_n_n_0_1_1256 : GatherDims S54096x256 S500000x1 S500000x256 where
  offsetDims := [1]
  collapsedSliceDims := [0]
  operandBatchingDims := []
  startIndicesBatchingDims := []
  startIndexMap := [0]
  indexVectorDim := 1
  sliceSizes := ![1, 256]
  wf := gather_S54096x256_S500000x1_S500000x256_1_0_n_n_0_1_1256_wf
def dot_S104096x256_S256x64_S104096x64_1_0_0_1_n_n : DotDims S104096x256 S256x64 S104096x64 where
  lhsContracting := [1]
  rhsContracting := [0]
  lhsNonContracting := [0]
  rhsNonContracting := [1]
  lhsBatch := []
  rhsBatch := []
  wf := dot_S104096x256_S256x64_S104096x64_1_0_0_1_n_n_wf

class Facts : Prop extends Facts₀ where

variable [Facts]
-- ==== Proof.KernelRun.lean ====
/-
  The idealized kernel's run with every buffer named.

  The program is three kernel regions among stretches of host operations.  Its launch over those segments ends, on every
  core, with each unscoped buffer holding the fold of the segments from the launch memory: a stretch applies its
  operations in order, a region leaves its arrays at what its write-backs leave and every other buffer as it found it.
  This module states that run once with the whole final memory named by the fold; the modules after it read single
  buffers off the fold.
-/
import proofs.«168620_j7301444403985_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every core ends
    at the fold of the program's segments from the launch memory. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

end Cert.KernelIdeal.Whole

end
-- ==== Proof.HostStart.lean ====
/-
  What the first stretch of host operations leaves.

  The program's first sixty-six host operations join each relation's two hop lists, and for the first two relations
  compute the mean of the gathered source rows per paper node (a gather, two accumulating scatters, a division).  They
  are the reference's first operations on the same arguments, so the buffers hold the reference's stage terms; the
  feature arrays are written by none of them.
-/
import proofs.«168620_j7301444403985_1_alg».proof.Proof.Gen.KernelIdeal.Frame
import proofs.«168620_j7301444403985_1_alg».proof.Proof.Gen.ReferenceIdeal.Read
import Idealize.ShloMosaic.Lib.StableHlo.Run

set_option maxRecDepth 16384
set_option Elab.async false

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 40000000 in
/-- The cites mean is the reference's mean stage of the same arguments. -/
theorem W1_v27 (c : Dev nD) :
    W1 m ρ c (Proc.devRef .tc main_v27)
      = Cert.ReferenceIdeal.Read.val_main_v27 (F := Ideal) (m ((c : Thread nD τ).loc main_arg0))
          (m ((c : Thread nD τ).loc main_arg22)) (m ((c : Thread nD τ).loc main_arg23)) := by
  show StableHlo.after hostOps0 (W0 m ρ c) (Proc.devRef .tc main_v27) = _
  dsimp only [hostOps0]
  after_results_simp <;> rfl

set_option maxHeartbeats 40000000 in
/-- The writes mean is the reference's mean stage of the same arguments. -/
theorem W1_v52 (c : Dev nD) :
    W1 m ρ c (Proc.devRef .tc main_v52)
      = Cert.ReferenceIdeal.Read.val_main_v58 (F := Ideal) (m ((c : Thread nD τ).loc main_arg1))
          (m ((c : Thread nD τ).loc main_arg24)) (m ((c : Thread nD τ).loc main_arg25)) := by
  show StableHlo.after hostOps0 (W0 m ρ c) (Proc.devRef .tc main_v52) = _
  dsimp only [hostOps0]
  after_results_simp <;> rfl

set_option maxHeartbeats 40000000 in
/-- The third relation's joined hop lists, as the reference joins them. -/
theorem W1_v2 (c : Dev nD) :
    W1 m ρ c (Proc.devRef .tc main_v2)
      = Cert.ReferenceIdeal.Read.val_main_v2 (F := Ideal) (m ((c : Thread nD τ).loc main_arg26)) (m ((c : Thread nD τ).loc main_arg27)) := by
  show StableHlo.after hostOps0 (W0 m ρ c) (Proc.devRef .tc main_v2) = _
  dsimp only [hostOps0]
  after_results_simp <;> rfl

set_option maxHeartbeats 40000000 in
/-- The paper features are written by none of the first operations. -/
theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results_simp <;> rfl

set_option maxHeartbeats 40000000 in
/-- The author features are written by none of the first operations. -/
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results_simp <;> rfl

end Cert.KernelIdeal.Host

end
-- ==== Proof.HostEntry1.lean ====
/-
  What the host operations between the first and the second kernel region leave.

  After the first region the program keeps the first 304096 rows of its result (the paper layer), computes the third
  relation's mean of gathered paper rows per author node, and appends 1552 zero rows to that mean and to the author
  features; the second region's windows stage these two padded arrays.  The mean is the reference's stage of the same
  arguments.  The first region writes only its result array, so every other buffer is as the host operations before
  it left it.
-/
import proofs.«168620_j7301444403985_1_alg».proof.Proof.HostStart

set_option maxRecDepth 16384
set_option Elab.async false

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Entering the first region: buffers the later operations read -/

set_option maxHeartbeats 4000000 in
/-- The paper features are as launched when the first region is entered. -/
theorem W6_arg0 (c : Dev nD) : W6 m ρ c (Proc.devRef .tc main_arg0) = m ((c : Thread nD τ).loc main_arg0) := by
  have h := W1_arg0 m ρ c
  dsimp only [W6, W5, W4, W3, W2, hostOps0_1, hostOps0_2, hostOps0_3, hostOps0_4, hostOps0_5]
  generalize W1 m ρ c = U at h ⊢
  after_results_simp
  exact h

set_option maxHeartbeats 4000000 in
/-- The author features are as launched when the first region is entered. -/
theorem W6_arg1 (c : Dev nD) : W6 m ρ c (Proc.devRef .tc main_arg1) = m ((c : Thread nD τ).loc main_arg1) := by
  have h := W1_arg1 m ρ c
  dsimp only [W6, W5, W4, W3, W2, hostOps0_1, hostOps0_2, hostOps0_3, hostOps0_4, hostOps0_5]
  generalize W1 m ρ c = U at h ⊢
  after_results_simp
  exact h

set_option maxHeartbeats 4000000 in
/-- The third relation's joined hop lists, as the reference joins them. -/
theorem W6_v2 (c : Dev nD) :
    W6 m ρ c (Proc.devRef .tc main_v2)
      = Cert.ReferenceIdeal.Read.val_main_v2 (F := Ideal) (m ((c : Thread nD τ).loc main_arg26)) (m ((c : Thread nD τ).loc main_arg27)) := by
  have h := W1_v2 m ρ c
  dsimp only [W6, W5, W4, W3, W2, hostOps0_1, hostOps0_2, hostOps0_3, hostOps0_4, hostOps0_5]
  generalize W1 m ρ c = U at h ⊢
  after_results_simp
  exact h

/-- The first region leaves the paper features alone. -/
theorem W7_arg0 (c : Dev nD) : W7 m ρ c (Proc.devRef .tc main_arg0) = m ((c : Thread nD τ).loc main_arg0) :=
  (W7_of_ne m ρ c main_arg0 (by decide)).trans (W6_arg0 m ρ c)

/-- The first region leaves the author features alone. -/
theorem W7_arg1 (c : Dev nD) : W7 m ρ c (Proc.devRef .tc main_arg1) = m ((c : Thread nD τ).loc main_arg1) :=
  (W7_of_ne m ρ c main_arg1 (by decide)).trans (W6_arg1 m ρ c)

/-- The first region leaves the joined hop lists alone. -/
theorem W7_v2 (c : Dev nD) :
    W7 m ρ c (Proc.devRef .tc main_v2)
      = Cert.ReferenceIdeal.Read.val_main_v2 (F := Ideal) (m ((c : Thread nD τ).loc main_arg26)) (m ((c : Thread nD τ).loc main_arg27)) :=
  (W7_of_ne m ρ c main_v2 (by decide)).trans (W6_v2 m ρ c)

/-! ## After the thirty-three operations that follow the first region -/

set_option maxHeartbeats 40000000 in
/-- The third relation's mean is the reference's mean stage of the same arguments. -/
theorem W8_v82 (c : Dev nD) :
    W8 m ρ c (Proc.devRef .tc main_v82)
      = Cert.ReferenceIdeal.Read.val_main_v90 (F := Ideal) (m ((c : Thread nD τ).loc main_arg0)) (m ((c : Thread nD τ).loc main_arg26)) (m ((c : Thread nD τ).loc main_arg27)) := by
  dsimp only [W8, hostOps1]
  after_results_simp
  rw [W7_v2, W7_arg0]
  rfl

set_option maxHeartbeats 40000000 in
/-- The paper layer: the first 304096 rows of the first region's result. -/
theorem W8_v57 (c : Dev nD) :
    W8 m ρ c (Proc.devRef .tc main_v57)
      = extractStridedSlice S304096x256 ![0, 0] (W7 m ρ c (Proc.devRef .tc main_v56)) slices_S305152x256_S304096x256_0_0 := by
  dsimp only [W8, hostOps1]
  after_results_simp <;> rfl

set_option maxHeartbeats 40000000 in
/-- The author features are still as launched. -/
theorem W8_arg1 (c : Dev nD) : W8 m ρ c (Proc.devRef .tc main_arg1) = m ((c : Thread nD τ).loc main_arg1) := by
  dsimp only [W8, hostOps1]
  after_results_simp
  exact W7_arg1 m ρ c

/-! ## Entering the second region -/

set_option maxHeartbeats 4000000 in
/-- The second region's first window's array is the third relation's mean with zero rows appended (the padding value is
    the preceding stretch's integer zero, converted). -/
theorem W11_v83 (c : Dev nD) :
    W11 m ρ c (Proc.devRef .tc main_v83)
      = pad S155648x128 ![0, 0] ![1552, 0] ![0, 0]
          (Cert.ReferenceIdeal.Read.val_main_v90 (F := Ideal) (m ((c : Thread nD τ).loc main_arg0)) (m ((c : Thread nD τ).loc main_arg26)) (m ((c : Thread nD τ).loc main_arg27)))
          (sitofp (F := Ideal) .f32 (W8 m ρ c (Proc.devRef .tc main_c_19) : IVec S_ 32))
          pads_S154096x128_S155648x128_015520_000 h_S_ := by
  have h82 := W8_v82 m ρ c
  dsimp only [W11, W10, W9, hostOps1_1, hostOps1_2, hostOps1_3]
  generalize W8 m ρ c = U at h82 ⊢
  after_results_simp
  rw [← h82]
  rfl

set_option maxHeartbeats 4000000 in
/-- Its second window's array is the author features with zero rows appended. -/
theorem W11_v84 (c : Dev nD) :
    W11 m ρ c (Proc.devRef .tc main_v84)
      = pad S155648x128 ![0, 0] ![1552, 0] ![0, 0] (m ((c : Thread nD τ).loc main_arg1))
          (sitofp (F := Ideal) .f32 (constantI S_ 32 0#32)) pads_S154096x128_S155648x128_015520_000 h_S_ := by
  have h1 := W8_arg1 m ρ c
  dsimp only [W11, W10, W9, hostOps1_1, hostOps1_2, hostOps1_3]
  generalize W8 m ρ c = U at h1 ⊢
  after_results_simp
  rw [← h1]
  rfl

set_option maxHeartbeats 4000000 in
/-- The paper layer is kept until the second region is entered. -/
theorem W11_v57 (c : Dev nD) :
    W11 m ρ c (Proc.devRef .tc main_v57)
      = extractStridedSlice S304096x256 ![0, 0] (W7 m ρ c (Proc.devRef .tc main_v56)) slices_S305152x256_S304096x256_0_0 := by
  have h := W8_v57 m ρ c
  dsimp only [W11, W10, W9, hostOps1_1, hostOps1_2, hostOps1_3]
  generalize W8 m ρ c = U at h ⊢
  after_results_simp
  exact h

/-- The second region does not write the paper layer's buffer. -/
theorem W12_v57 (c : Dev nD) :
    W12 m ρ c (Proc.devRef .tc main_v57)
      = extractStridedSlice S304096x256 ![0, 0] (W7 m ρ c (Proc.devRef .tc main_v56)) slices_S305152x256_S304096x256_0_0 :=
  (W12_of_ne m ρ c main_v57 (by decide)).trans (W11_v57 m ρ c)

end Cert.KernelIdeal.Host

end
-- ==== Proof.HostArgsA.lean ====
/-
  The parameter and index arrays of the later layers, as the first kernel region's entry finds them.

  No host operation before the first region writes one of these argument arrays: each still holds its launch contents.
-/
import proofs.«168620_j7301444403985_1_alg».proof.Proof.Gen.KernelIdeal.Frame
import proofs.«168620_j7301444403985_1_alg».proof.Proof.Gen.ReferenceIdeal.Read
import Idealize.ShloMosaic.Lib.StableHlo.Run

set_option maxRecDepth 16384
-- each statement follows one buffer back through every operation before the region
set_option Elab.async false

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 40000000 in
/-- No operation before the first region writes argument 8. -/
theorem W6_arg8 (c : Dev nD) : W6 m ρ c (Proc.devRef .tc main_arg8) = m ((c : Thread nD τ).loc main_arg8) := by
  dsimp only [W6, W5, W4, W3, W2, W1, hostOps0, hostOps0_1, hostOps0_2, hostOps0_3, hostOps0_4, hostOps0_5]
  after_results_simp <;> rfl

set_option maxHeartbeats 40000000 in
/-- No operation before the first region writes argument 9. -/
theorem W6_arg9 (c : Dev nD) : W6 m ρ c (Proc.devRef .tc main_arg9) = m ((c : Thread nD τ).loc main_arg9) := by
  dsimp only [W6, W5, W4, W3, W2, W1, hostOps0, hostOps0_1, hostOps0_2, hostOps0_3, hostOps0_4, hostOps0_5]
  after_results_simp <;> rfl

set_option maxHeartbeats 40000000 in
/-- No operation before the first region writes argument 10. -/
theorem W6_arg10 (c : Dev nD) : W6 m ρ c (Proc.devRef .tc main_arg10) = m ((c : Thread nD τ).loc main_arg10) := by
  dsimp only [W6, W5, W4, W3, W2, W1, hostOps0, hostOps0_1, hostOps0_2, hostOps0_3, hostOps0_4, hostOps0_5]
  after_results_simp <;> rfl

set_option maxHeartbeats 40000000 in
/-- No operation before the first region writes argument 11. -/
theorem W6_arg11 (c : Dev nD) : W6 m ρ c (Proc.devRef .tc main_arg11) = m ((c : Thread nD τ).loc main_arg11) := by
  dsimp only [W6, W5, W4, W3, W2, W1, hostOps0, hostOps0_1, hostOps0_2, hostOps0_3, hostOps0_4, hostOps0_5]
  after_results_simp <;> rfl

set_option maxHeartbeats 40000000 in
/-- No operation before the first region writes argument 12. -/
theorem W6_arg12 (c : Dev nD) : W6 m ρ c (Proc.devRef .tc main_arg12) = m ((c : Thread nD τ).loc main_arg12) := by
  dsimp only [W6, W5, W4, W3, W2, W1, hostOps0, hostOps0_1, hostOps0_2, hostOps0_3, hostOps0_4, hostOps0_5]
  after_results_simp <;> rfl

set_option maxHeartbeats 40000000 in
/-- No operation before the first region writes argument 13. -/
theorem W6_arg13 (c : Dev nD) : W6 m ρ c (Proc.devRef .tc main_arg13) = m ((c : Thread nD τ).loc main_arg13) := by
  dsimp only [W6, W5, W4, W3, W2, W1, hostOps0, hostOps0_1, hostOps0_2, hostOps0_3, hostOps0_4, hostOps0_5]
  after_results_simp <;> rfl

set_option maxHeartbeats 40000000 in
/-- No operation before the first region writes argument 14. -/
theorem W6_arg14 (c : Dev nD) : W6 m ρ c (Proc.devRef .tc main_arg14) = m ((c : Thread nD τ).loc main_arg14) := by
  dsimp only [W6, W5, W4, W3, W2, W1, hostOps0, hostOps0_1, hostOps0_2, hostOps0_3, hostOps0_4, hostOps0_5]
  after_results_simp <;> rfl

set_option maxHeartbeats 40000000 in
/-- No operation before the first region writes argument 15. -/
theorem W6_arg15 (c : Dev nD) : W6 m ρ c (Proc.devRef .tc main_arg15) = m ((c : Thread nD τ).loc main_arg15) := by
  dsimp only [W6, W5, W4, W3, W2, W1, hostOps0, hostOps0_1, hostOps0_2, hostOps0_3, hostOps0_4, hostOps0_5]
  after_results_simp <;> rfl

set_option maxHeartbeats 40000000 in
/-- No operation before the first region writes argument 16. -/
theorem W6_arg16 (c : Dev nD) : W6 m ρ c (Proc.devRef .tc main_arg16) = m ((c : Thread nD τ).loc main_arg16) := by
  dsimp only [W6, W5, W4, W3, W2, W1, hostOps0, hostOps0_1, hostOps0_2, hostOps0_3, hostOps0_4, hostOps0_5]
  after_results_simp <;> rfl

set_option maxHeartbeats 40000000 in
/-- No operation before the first region writes argument 20. -/
theorem W6_arg20 (c : Dev nD) : W6 m ρ c (Proc.devRef .tc main_arg20) = m ((c : Thread nD τ).loc main_arg20) := by
  dsimp only [W6, W5, W4, W3, W2, W1, hostOps0, hostOps0_1, hostOps0_2, hostOps0_3, hostOps0_4, hostOps0_5]
  after_results_simp <;> rfl

set_option maxHeartbeats 40000000 in
/-- No operation before the first region writes argument 21. -/
theorem W6_arg21 (c : Dev nD) : W6 m ρ c (Proc.devRef .tc main_arg21) = m ((c : Thread nD τ).loc main_arg21) := by
  dsimp only [W6, W5, W4, W3, W2, W1, hostOps0, hostOps0_1, hostOps0_2, hostOps0_3, hostOps0_4, hostOps0_5]
  after_results_simp <;> rfl

set_option maxHeartbeats 40000000 in
/-- No operation before the first region writes argument 22. -/
theorem W6_arg22 (c : Dev nD) : W6 m ρ c (Proc.devRef .tc main_arg22) = m ((c : Thread nD τ).loc main_arg22) := by
  dsimp only [W6, W5, W4, W3, W2, W1, hostOps0, hostOps0_1, hostOps0_2, hostOps0_3, hostOps0_4, hostOps0_5]
  after_results_simp <;> rfl

set_option maxHeartbeats 40000000 in
/-- No operation before the first region writes argument 24. -/
theorem W6_arg24 (c : Dev nD) : W6 m ρ c (Proc.devRef .tc main_arg24) = m ((c : Thread nD τ).loc main_arg24) := by
  dsimp only [W6, W5, W4, W3, W2, W1, hostOps0, hostOps0_1, hostOps0_2, hostOps0_3, hostOps0_4, hostOps0_5]
  after_results_simp <;> rfl

end Cert.KernelIdeal.Host

end
-- ==== Proof.HostArgsB.lean ====
/-
  The parameter and index arrays of the later layers, as the second kernel region's entry finds them.

  The first region writes its own result array only, and no host operation between the first and the second region writes
  an argument array: each still holds its launch contents.
-/
import proofs.«168620_j7301444403985_1_alg».proof.Proof.HostArgsA

set_option maxRecDepth 16384
-- each statement follows one buffer back through every operation between the two regions
set_option Elab.async false

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 40000000 in
/-- Neither the first region nor an operation before the second region writes argument 8. -/
theorem W11_arg8 (c : Dev nD) : W11 m ρ c (Proc.devRef .tc main_arg8) = m ((c : Thread nD τ).loc main_arg8) := by
  dsimp only [W11, W10, W9, W8, hostOps1, hostOps1_1, hostOps1_2, hostOps1_3]
  after_results_simp
  exact (W7_of_ne m ρ c main_arg8 (by decide)).trans (W6_arg8 m ρ c)

set_option maxHeartbeats 40000000 in
/-- Neither the first region nor an operation before the second region writes argument 9. -/
theorem W11_arg9 (c : Dev nD) : W11 m ρ c (Proc.devRef .tc main_arg9) = m ((c : Thread nD τ).loc main_arg9) := by
  dsimp only [W11, W10, W9, W8, hostOps1, hostOps1_1, hostOps1_2, hostOps1_3]
  after_results_simp
  exact (W7_of_ne m ρ c main_arg9 (by decide)).trans (W6_arg9 m ρ c)

set_option maxHeartbeats 40000000 in
/-- Neither the first region nor an operation before the second region writes argument 10. -/
theorem W11_arg10 (c : Dev nD) : W11 m ρ c (Proc.devRef .tc main_arg10) = m ((c : Thread nD τ).loc main_arg10) := by
  dsimp only [W11, W10, W9, W8, hostOps1, hostOps1_1, hostOps1_2, hostOps1_3]
  after_results_simp
  exact (W7_of_ne m ρ c main_arg10 (by decide)).trans (W6_arg10 m ρ c)

set_option maxHeartbeats 40000000 in
/-- Neither the first region nor an operation before the second region writes argument 11. -/
theorem W11_arg11 (c : Dev nD) : W11 m ρ c (Proc.devRef .tc main_arg11) = m ((c : Thread nD τ).loc main_arg11) := by
  dsimp only [W11, W10, W9, W8, hostOps1, hostOps1_1, hostOps1_2, hostOps1_3]
  after_results_simp
  exact (W7_of_ne m ρ c main_arg11 (by decide)).trans (W6_arg11 m ρ c)

set_option maxHeartbeats 40000000 in
/-- Neither the first region nor an operation before the second region writes argument 12. -/
theorem W11_arg12 (c : Dev nD) : W11 m ρ c (Proc.devRef .tc main_arg12) = m ((c : Thread nD τ).loc main_arg12) := by
  dsimp only [W11, W10, W9, W8, hostOps1, hostOps1_1, hostOps1_2, hostOps1_3]
  after_results_simp
  exact (W7_of_ne m ρ c main_arg12 (by decide)).trans (W6_arg12 m ρ c)

set_option maxHeartbeats 40000000 in
/-- Neither the first region nor an operation before the second region writes argument 13. -/
theorem W11_arg13 (c : Dev nD) : W11 m ρ c (Proc.devRef .tc main_arg13) = m ((c : Thread nD τ).loc main_arg13) := by
  dsimp only [W11, W10, W9, W8, hostOps1, hostOps1_1, hostOps1_2, hostOps1_3]
  after_results_simp
  exact (W7_of_ne m ρ c main_arg13 (by decide)).trans (W6_arg13 m ρ c)

set_option maxHeartbeats 40000000 in
/-- Neither the first region nor an operation before the second region writes argument 14. -/
theorem W11_arg14 (c : Dev nD) : W11 m ρ c (Proc.devRef .tc main_arg14) = m ((c : Thread nD τ).loc main_arg14) := by
  dsimp only [W11, W10, W9, W8, hostOps1, hostOps1_1, hostOps1_2, hostOps1_3]
  after_results_simp
  exact (W7_of_ne m ρ c main_arg14 (by decide)).trans (W6_arg14 m ρ c)

set_option maxHeartbeats 40000000 in
/-- Neither the first region nor an operation before the second region writes argument 15. -/
theorem W11_arg15 (c : Dev nD) : W11 m ρ c (Proc.devRef .tc main_arg15) = m ((c : Thread nD τ).loc main_arg15) := by
  dsimp only [W11, W10, W9, W8, hostOps1, hostOps1_1, hostOps1_2, hostOps1_3]
  after_results_simp
  exact (W7_of_ne m ρ c main_arg15 (by decide)).trans (W6_arg15 m ρ c)

set_option maxHeartbeats 40000000 in
/-- Neither the first region nor an operation before the second region writes argument 16. -/
theorem W11_arg16 (c : Dev nD) : W11 m ρ c (Proc.devRef .tc main_arg16) = m ((c : Thread nD τ).loc main_arg16) := by
  dsimp only [W11, W10, W9, W8, hostOps1, hostOps1_1, hostOps1_2, hostOps1_3]
  after_results_simp
  exact (W7_of_ne m ρ c main_arg16 (by decide)).trans (W6_arg16 m ρ c)

set_option maxHeartbeats 40000000 in
/-- Neither the first region nor an operation before the second region writes argument 20. -/
theorem W11_arg20 (c : Dev nD) : W11 m ρ c (Proc.devRef .tc main_arg20) = m ((c : Thread nD τ).loc main_arg20) := by
  dsimp only [W11, W10, W9, W8, hostOps1, hostOps1_1, hostOps1_2, hostOps1_3]
  after_results_simp
  exact (W7_of_ne m ρ c main_arg20 (by decide)).trans (W6_arg20 m ρ c)

set_option maxHeartbeats 40000000 in
/-- Neither the first region nor an operation before the second region writes argument 21. -/
theorem W11_arg21 (c : Dev nD) : W11 m ρ c (Proc.devRef .tc main_arg21) = m ((c : Thread nD τ).loc main_arg21) := by
  dsimp only [W11, W10, W9, W8, hostOps1, hostOps1_1, hostOps1_2, hostOps1_3]
  after_results_simp
  exact (W7_of_ne m ρ c main_arg21 (by decide)).trans (W6_arg21 m ρ c)

set_option maxHeartbeats 40000000 in
/-- Neither the first region nor an operation before the second region writes argument 22. -/
theorem W11_arg22 (c : Dev nD) : W11 m ρ c (Proc.devRef .tc main_arg22) = m ((c : Thread nD τ).loc main_arg22) := by
  dsimp only [W11, W10, W9, W8, hostOps1, hostOps1_1, hostOps1_2, hostOps1_3]
  after_results_simp
  exact (W7_of_ne m ρ c main_arg22 (by decide)).trans (W6_arg22 m ρ c)

set_option maxHeartbeats 40000000 in
/-- Neither the first region nor an operation before the second region writes argument 24. -/
theorem W11_arg24 (c : Dev nD) : W11 m ρ c (Proc.devRef .tc main_arg24) = m ((c : Thread nD τ).loc main_arg24) := by
  dsimp only [W11, W10, W9, W8, hostOps1, hostOps1_1, hostOps1_2, hostOps1_3]
  after_results_simp
  exact (W7_of_ne m ρ c main_arg24 (by decide)).trans (W6_arg24 m ρ c)

end Cert.KernelIdeal.Host

end
-- ==== Proof.HostArgsC.lean ====
/-
  The argument arrays that the third kernel region and the operations before it read, as they find them.

  The second region writes its own result array only, and no host operation between the second and the third region writes
  an argument array: each still holds its launch contents.
-/
import proofs.«168620_j7301444403985_1_alg».proof.Proof.HostArgsB

set_option maxRecDepth 16384
-- each statement follows one buffer back through every operation between the two regions
set_option Elab.async false

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The second region does not write argument 22: at its exit the array is as launched. -/
theorem W12_arg22 (c : Dev nD) : W12 m ρ c (Proc.devRef .tc main_arg22) = m ((c : Thread nD τ).loc main_arg22) :=
  (W12_of_ne m ρ c main_arg22 (by decide)).trans (W11_arg22 m ρ c)

/-- The second region does not write argument 24: at its exit the array is as launched. -/
theorem W12_arg24 (c : Dev nD) : W12 m ρ c (Proc.devRef .tc main_arg24) = m ((c : Thread nD τ).loc main_arg24) :=
  (W12_of_ne m ρ c main_arg24 (by decide)).trans (W11_arg24 m ρ c)

set_option maxHeartbeats 40000000 in
/-- Neither the second region nor an operation before the third region writes argument 11. -/
theorem W18_arg11 (c : Dev nD) : W18 m ρ c (Proc.devRef .tc main_arg11) = m ((c : Thread nD τ).loc main_arg11) := by
  dsimp only [W18, W17, W16, W15, W14, W13, hostOps2, hostOps2_1, hostOps2_2, hostOps2_3, hostOps2_4, hostOps2_5]
  after_results_simp
  exact (W12_of_ne m ρ c main_arg11 (by decide)).trans (W11_arg11 m ρ c)

set_option maxHeartbeats 40000000 in
/-- Neither the second region nor an operation before the third region writes argument 12. -/
theorem W18_arg12 (c : Dev nD) : W18 m ρ c (Proc.devRef .tc main_arg12) = m ((c : Thread nD τ).loc main_arg12) := by
  dsimp only [W18, W17, W16, W15, W14, W13, hostOps2, hostOps2_1, hostOps2_2, hostOps2_3, hostOps2_4, hostOps2_5]
  after_results_simp
  exact (W12_of_ne m ρ c main_arg12 (by decide)).trans (W11_arg12 m ρ c)

set_option maxHeartbeats 40000000 in
/-- Neither the second region nor an operation before the third region writes argument 13. -/
theorem W18_arg13 (c : Dev nD) : W18 m ρ c (Proc.devRef .tc main_arg13) = m ((c : Thread nD τ).loc main_arg13) := by
  dsimp only [W18, W17, W16, W15, W14, W13, hostOps2, hostOps2_1, hostOps2_2, hostOps2_3, hostOps2_4, hostOps2_5]
  after_results_simp
  exact (W12_of_ne m ρ c main_arg13 (by decide)).trans (W11_arg13 m ρ c)

set_option maxHeartbeats 40000000 in
/-- Neither the second region nor an operation before the third region writes argument 14. -/
theorem W18_arg14 (c : Dev nD) : W18 m ρ c (Proc.devRef .tc main_arg14) = m ((c : Thread nD τ).loc main_arg14) := by
  dsimp only [W18, W17, W16, W15, W14, W13, hostOps2, hostOps2_1, hostOps2_2, hostOps2_3, hostOps2_4, hostOps2_5]
  after_results_simp
  exact (W12_of_ne m ρ c main_arg14 (by decide)).trans (W11_arg14 m ρ c)

set_option maxHeartbeats 40000000 in
/-- Neither the second region nor an operation before the third region writes argument 15. -/
theorem W18_arg15 (c : Dev nD) : W18 m ρ c (Proc.devRef .tc main_arg15) = m ((c : Thread nD τ).loc main_arg15) := by
  dsimp only [W18, W17, W16, W15, W14, W13, hostOps2, hostOps2_1, hostOps2_2, hostOps2_3, hostOps2_4, hostOps2_5]
  after_results_simp
  exact (W12_of_ne m ρ c main_arg15 (by decide)).trans (W11_arg15 m ρ c)

set_option maxHeartbeats 40000000 in
/-- Neither the second region nor an operation before the third region writes argument 16. -/
theorem W18_arg16 (c : Dev nD) : W18 m ρ c (Proc.devRef .tc main_arg16) = m ((c : Thread nD τ).loc main_arg16) := by
  dsimp only [W18, W17, W16, W15, W14, W13, hostOps2, hostOps2_1, hostOps2_2, hostOps2_3, hostOps2_4, hostOps2_5]
  after_results_simp
  exact (W12_of_ne m ρ c main_arg16 (by decide)).trans (W11_arg16 m ρ c)

set_option maxHeartbeats 40000000 in
/-- Neither the second region nor an operation before the third region writes argument 20. -/
theorem W18_arg20 (c : Dev nD) : W18 m ρ c (Proc.devRef .tc main_arg20) = m ((c : Thread nD τ).loc main_arg20) := by
  dsimp only [W18, W17, W16, W15, W14, W13, hostOps2, hostOps2_1, hostOps2_2, hostOps2_3, hostOps2_4, hostOps2_5]
  after_results_simp
  exact (W12_of_ne m ρ c main_arg20 (by decide)).trans (W11_arg20 m ρ c)

set_option maxHeartbeats 40000000 in
/-- Neither the second region nor an operation before the third region writes argument 21. -/
theorem W18_arg21 (c : Dev nD) : W18 m ρ c (Proc.devRef .tc main_arg21) = m ((c : Thread nD τ).loc main_arg21) := by
  dsimp only [W18, W17, W16, W15, W14, W13, hostOps2, hostOps2_1, hostOps2_2, hostOps2_3, hostOps2_4, hostOps2_5]
  after_results_simp
  exact (W12_of_ne m ρ c main_arg21 (by decide)).trans (W11_arg21 m ρ c)

end Cert.KernelIdeal.Host

end
-- ==== Proof.HostEntry0.lean ====
/-
  What the host operations before the first kernel region leave in its three row-block arrays.

  After the first stretch (the two means) the program appends 1056 zero rows to the cites mean, to the writes mean and to
  the paper features; the first region's windows stage these three padded arrays.  The means are the reference's stage
  terms (the first stretch's facts); the padding operations sit in a called function, whose values move between a
  tensor's type and its buffer's type by the identity.
-/
import proofs.«168620_j7301444403985_1_alg».proof.Proof.HostStart

set_option maxRecDepth 16384
set_option Elab.async false

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- Entering the first region, its first window's array is the cites mean with zero rows appended (the padding value is
    the first stretch's integer zero, converted). -/
theorem W6_v53 (c : Dev nD) :
    W6 m ρ c (Proc.devRef .tc main_v53)
      = pad S305152x128 ![0, 0] ![1056, 0] ![0, 0]
          (Cert.ReferenceIdeal.Read.val_main_v27 (F := Ideal) (m ((c : Thread nD τ).loc main_arg0))
            (m ((c : Thread nD τ).loc main_arg22)) (m ((c : Thread nD τ).loc main_arg23)))
          (sitofp (F := Ideal) .f32 (W1 m ρ c (Proc.devRef .tc main_c_10) : IVec S_ 32))
          pads_S304096x128_S305152x128_010560_000 h_S_ := by
  have h27 := W1_v27 m ρ c
  dsimp only [W6, W5, W4, W3, W2, hostOps0_1, hostOps0_2, hostOps0_3, hostOps0_4, hostOps0_5]
  generalize W1 m ρ c = U at h27 ⊢
  after_results_simp
  rw [← h27]
  rfl

set_option maxHeartbeats 4000000 in
/-- Its second window's array is the writes mean with zero rows appended. -/
theorem W6_v54 (c : Dev nD) :
    W6 m ρ c (Proc.devRef .tc main_v54)
      = pad S305152x128 ![0, 0] ![1056, 0] ![0, 0]
          (Cert.ReferenceIdeal.Read.val_main_v58 (F := Ideal) (m ((c : Thread nD τ).loc main_arg1))
            (m ((c : Thread nD τ).loc main_arg24)) (m ((c : Thread nD τ).loc main_arg25)))
          (sitofp (F := Ideal) .f32 (constantI S_ 32 0#32))
          pads_S304096x128_S305152x128_010560_000 h_S_ := by
  have h52 := W1_v52 m ρ c
  dsimp only [W6, W5, W4, W3, W2, hostOps0_1, hostOps0_2, hostOps0_3, hostOps0_4, hostOps0_5]
  generalize W1 m ρ c = U at h52 ⊢
  after_results_simp
  rw [← h52]
  rfl

set_option maxHeartbeats 4000000 in
/-- Its third window's array is the paper features with zero rows appended. -/
theorem W6_v55 (c : Dev nD) :
    W6 m ρ c (Proc.devRef .tc main_v55)
      = pad S305152x128 ![0, 0] ![1056, 0] ![0, 0] (m ((c : Thread nD τ).loc main_arg0))
          (sitofp (F := Ideal) .f32 (constantI S_ 32 0#32))
          pads_S304096x128_S305152x128_010560_000 h_S_ := by
  have h0 := W1_arg0 m ρ c
  dsimp only [W6, W5, W4, W3, W2, hostOps0_1, hostOps0_2, hostOps0_3, hostOps0_4, hostOps0_5]
  generalize W1 m ρ c = U at h0 ⊢
  after_results_simp
  rw [← h0]
  rfl

end Cert.KernelIdeal.Host

end
-- ==== Proof.HostArgs0.lean ====
/-
  The six parameter arrays of the first kernel region, as the region finds them.

  No host operation before the first region writes a weight or bias array: each still holds its launch contents.
-/
import proofs.«168620_j7301444403985_1_alg».proof.Proof.Gen.KernelIdeal.Frame
import proofs.«168620_j7301444403985_1_alg».proof.Proof.Gen.ReferenceIdeal.Read
import Idealize.ShloMosaic.Lib.StableHlo.Run

set_option maxRecDepth 16384
set_option Elab.async false

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 40000000 in
/-- No operation before the first region writes argument 2. -/
theorem W6_arg2 (c : Dev nD) : W6 m ρ c (Proc.devRef .tc main_arg2) = m ((c : Thread nD τ).loc main_arg2) := by
  dsimp only [W6, W5, W4, W3, W2, W1, hostOps0, hostOps0_1, hostOps0_2, hostOps0_3, hostOps0_4, hostOps0_5]
  after_results_simp <;> rfl

set_option maxHeartbeats 40000000 in
/-- No operation before the first region writes argument 3. -/
theorem W6_arg3 (c : Dev nD) : W6 m ρ c (Proc.devRef .tc main_arg3) = m ((c : Thread nD τ).loc main_arg3) := by
  dsimp only [W6, W5, W4, W3, W2, W1, hostOps0, hostOps0_1, hostOps0_2, hostOps0_3, hostOps0_4, hostOps0_5]
  after_results_simp <;> rfl

set_option maxHeartbeats 40000000 in
/-- No operation before the first region writes argument 4. -/
theorem W6_arg4 (c : Dev nD) : W6 m ρ c (Proc.devRef .tc main_arg4) = m ((c : Thread nD τ).loc main_arg4) := by
  dsimp only [W6, W5, W4, W3, W2, W1, hostOps0, hostOps0_1, hostOps0_2, hostOps0_3, hostOps0_4, hostOps0_5]
  after_results_simp <;> rfl

set_option maxHeartbeats 40000000 in
/-- No operation before the first region writes argument 5. -/
theorem W6_arg5 (c : Dev nD) : W6 m ρ c (Proc.devRef .tc main_arg5) = m ((c : Thread nD τ).loc main_arg5) := by
  dsimp only [W6, W5, W4, W3, W2, W1, hostOps0, hostOps0_1, hostOps0_2, hostOps0_3, hostOps0_4, hostOps0_5]
  after_results_simp <;> rfl

set_option maxHeartbeats 40000000 in
/-- No operation before the first region writes argument 6. -/
theorem W6_arg6 (c : Dev nD) : W6 m ρ c (Proc.devRef .tc main_arg6) = m ((c : Thread nD τ).loc main_arg6) := by
  dsimp only [W6, W5, W4, W3, W2, W1, hostOps0, hostOps0_1, hostOps0_2, hostOps0_3, hostOps0_4, hostOps0_5]
  after_results_simp <;> rfl

set_option maxHeartbeats 40000000 in
/-- No operation before the first region writes argument 7. -/
theorem W6_arg7 (c : Dev nD) : W6 m ρ c (Proc.devRef .tc main_arg7) = m ((c : Thread nD τ).loc main_arg7) := by
  dsimp only [W6, W5, W4, W3, W2, W1, hostOps0, hostOps0_1, hostOps0_2, hostOps0_3, hostOps0_4, hostOps0_5]
  after_results_simp <;> rfl

end Cert.KernelIdeal.Host

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibSageBlocks.lean ====
/-
  Row blocks of mean-aggregating graph-convolution layers, over the extended reals.

  One relation's convolution of aggregated features A and node features H is, at node a and output feature j,
  (∑ c, A (a, c) · W_l (c, j) + b j) + ∑ c, H (a, c) · W_r (c, j): it depends on row a of A and of H only.  A layer over two
  relations that share H adds two such convolutions and rectifies; a final linear layer is one more row-local product.
  A kernel that works on a block of m rows computes the two products of each relation first and adds the bias rows
  afterwards, (((((p₁ + q₁) + b₁) + p₂) + q₂) + b₂): the same value, because addition on the extended reals is
  commutative and associative (also at infinite values; nothing is assumed finite).  Rows appended below an array by a
  padding with no low and no interior part leave the rows above as they were.
-/
import proofs.«168620_j7301444403985_1_alg».proof.Proof.LibPlainMatmul
import Idealize.ShloMosaic.Lib.ValueIdx
import Idealize.ShloMosaic.Lib.ValueLayout
import Idealize.ShloMosaic.Lib.KernelVsHost

noncomputable section

namespace Cert.Lib

open Idealize.ShloMosaic Idealize.ShloMosaic.ValueIdx

/-! ## The layers, entry by entry -/

/-- One relation's convolution at node `a`, feature `j`: the aggregated row through `Wl`, plus the bias, plus the node's
    own row through `Wr`. -/
def sageConv {M k n : Nat} (A H : FVec Ideal ⟨2, ![M, k]⟩ .f32) (Wl Wr : FVec Ideal ⟨2, ![k, n]⟩ .f32)
    (b : FVec Ideal ⟨1, ![n]⟩ .f32) (a : Fin M) (j : Fin n) : Ideal .f32 :=
  ((∑ c : Fin k, A (ix2 a c) * Wl (ix2 c j)) + b (ix1 j)) + ∑ c : Fin k, H (ix2 a c) * Wr (ix2 c j)

/-- A rectified layer over one relation: `max (conv, z)` with `z` the rectifier's threshold. -/
def sageSingle {M k n : Nat} (A H : FVec Ideal ⟨2, ![M, k]⟩ .f32) (Wl Wr : FVec Ideal ⟨2, ![k, n]⟩ .f32)
    (b : FVec Ideal ⟨1, ![n]⟩ .f32) (z : Ideal .f32) : FVec Ideal ⟨2, ![M, n]⟩ .f32 :=
  fun i => max (sageConv A H Wl Wr b (i 0) (i 1)) z

/-- A rectified layer over two relations that share the node features `H`. -/
def sageDual {M k n : Nat} (A1 A2 H : FVec Ideal ⟨2, ![M, k]⟩ .f32) (Wl1 Wr1 Wl2 Wr2 : FVec Ideal ⟨2, ![k, n]⟩ .f32)
    (b1 b2 : FVec Ideal ⟨1, ![n]⟩ .f32) (z : Ideal .f32) : FVec Ideal ⟨2, ![M, n]⟩ .f32 :=
  fun i => max (sageConv A1 H Wl1 Wr1 b1 (i 0) (i 1) + sageConv A2 H Wl2 Wr2 b2 (i 0) (i 1)) z

/-- A linear layer on rows: `Y · W` plus the bias row. -/
def linearRows {M k n : Nat} (Y : FVec Ideal ⟨2, ![M, k]⟩ .f32) (W : FVec Ideal ⟨2, ![k, n]⟩ .f32)
    (b : FVec Ideal ⟨1, ![n]⟩ .f32) : FVec Ideal ⟨2, ![M, n]⟩ .f32 :=
  fun i => (∑ c : Fin k, Y (ix2 (i 0) c) * W (ix2 c (i 1))) + b (ix1 (i 1))

/-- A convolution reads row `a` of `A` and of `H` only. -/
theorem sageConv_congr {M M' k n : Nat} (A H : FVec Ideal ⟨2, ![M, k]⟩ .f32) (A' H' : FVec Ideal ⟨2, ![M', k]⟩ .f32)
    (Wl Wr : FVec Ideal ⟨2, ![k, n]⟩ .f32) (b : FVec Ideal ⟨1, ![n]⟩ .f32) (a : Fin M) (a' : Fin M') (j : Fin n)
    (hA : ∀ c, A (ix2 a c) = A' (ix2 a' c)) (hH : ∀ c, H (ix2 a c) = H' (ix2 a' c)) :
    sageConv A H Wl Wr b a j = sageConv A' H' Wl Wr b a' j := by
  unfold sageConv
  rw [Finset.sum_congr rfl fun c _ => congrArg (· * Wl (ix2 c j)) (hA c),
    Finset.sum_congr rfl fun c _ => congrArg (· * Wr (ix2 c j)) (hH c)]

/-! ## What a kernel computes on a block of rows -/

/-- A bias vector cast to one row and spread over `m` rows reads, at `(a, j)`, the vector at `j`. -/
theorem bias_rows_apply {m n : Nat} (b : FVec Ideal ⟨1, ![n]⟩ .f32) (h1 : (⟨1, ![n]⟩ : Shape).ShapeCasts ⟨2, ![1, n]⟩)
    (h2 : (⟨2, ![1, n]⟩ : Shape).Broadcasts ⟨2, ![m, n]⟩) (a : Fin m) (j : Fin n) :
    broadcastTo ⟨2, ![m, n]⟩ (shapeCast ⟨2, ![1, n]⟩ b h1) h2 (ix2 a j) = b (ix1 j) := by
  rw [broadcastTo_1b_ab_apply, shapeCast_a_1a_apply]

/-- `max ((x · wl + xh · wr) + bb, zz)` on a block, both products accumulated into zero, at `(a, j)`. -/
theorem single_body_apply {m k n : Nat} {φ₁ φ₂ : FTy} (prec : Option ContractPrecision)
    (x xh : FVec Ideal ⟨2, ![m, k]⟩ φ₁) (wl wr : FVec Ideal ⟨2, ![k, n]⟩ φ₂) (bb zz : FVec Ideal ⟨2, ![m, n]⟩ .f32)
    (a : Fin m) (j : Fin n) :
    maximumf (addf (addf (matmul (DotDims.plain m k n) prec x wl (constant ⟨2, ![m, n]⟩ .f32 0x00000000#32))
        (matmul (DotDims.plain m k n) prec xh wr (constant ⟨2, ![m, n]⟩ .f32 0x00000000#32))) bb) zz (ix2 a j)
      = max (((∑ c : Fin k, x (ix2 a c) * wl (ix2 c j)) + bb (ix2 a j)) + ∑ c : Fin k, xh (ix2 a c) * wr (ix2 c j))
          (zz (ix2 a j)) := by
  rw [maximumf_apply, addf_apply, addf_apply, matmul_plain_zero_apply, matmul_plain_zero_apply]
  exact congrArg (fun t => max t (zz (ix2 a j))) (add_right_comm _ _ _)

/-- The sum of the two relations as a kernel groups it, regrouped relation by relation. -/
theorem dual_regroup (p1 q1 c1 p2 q2 c2 : EReal) :
    ((((p1 + q1) + c1) + p2) + q2) + c2 = ((p1 + c1) + q1) + ((p2 + c2) + q2) := by
  abel

/-- `max (((((x1 · wl1 + xh · wr1) + bb1) + x2 · wl2) + xh · wr2) + bb2, zz)` on a block, every product accumulated into
    zero, at `(a, j)`: the two relations' convolutions of the block's rows, added and rectified. -/
theorem dual_body_apply {m k n : Nat} {φ₁ φ₂ : FTy} (prec : Option ContractPrecision)
    (x1 x2 xh : FVec Ideal ⟨2, ![m, k]⟩ φ₁) (wl1 wr1 wl2 wr2 : FVec Ideal ⟨2, ![k, n]⟩ φ₂)
    (bb1 bb2 zz : FVec Ideal ⟨2, ![m, n]⟩ .f32) (a : Fin m) (j : Fin n) :
    maximumf (addf (addf (addf (addf (addf
        (matmul (DotDims.plain m k n) prec x1 wl1 (constant ⟨2, ![m, n]⟩ .f32 0x00000000#32))
        (matmul (DotDims.plain m k n) prec xh wr1 (constant ⟨2, ![m, n]⟩ .f32 0x00000000#32))) bb1)
        (matmul (DotDims.plain m k n) prec x2 wl2 (constant ⟨2, ![m, n]⟩ .f32 0x00000000#32)))
        (matmul (DotDims.plain m k n) prec xh wr2 (constant ⟨2, ![m, n]⟩ .f32 0x00000000#32))) bb2) zz (ix2 a j)
      = max ((((∑ c : Fin k, x1 (ix2 a c) * wl1 (ix2 c j)) + bb1 (ix2 a j)) + ∑ c : Fin k, xh (ix2 a c) * wr1 (ix2 c j))
            + (((∑ c : Fin k, x2 (ix2 a c) * wl2 (ix2 c j)) + bb2 (ix2 a j)) + ∑ c : Fin k, xh (ix2 a c) * wr2 (ix2 c j)))
          (zz (ix2 a j)) := by
  rw [maximumf_apply, addf_apply, addf_apply, addf_apply, addf_apply, addf_apply, matmul_plain_zero_apply,
    matmul_plain_zero_apply, matmul_plain_zero_apply, matmul_plain_zero_apply]
  exact congrArg (fun t => max t (zz (ix2 a j))) (dual_regroup _ _ _ _ _ _)

/-- `y · w + bb` on a block, the product accumulated into zero, at `(a, j)`. -/
theorem linear_body_apply {m k n : Nat} {φ₁ φ₂ : FTy} (prec : Option ContractPrecision)
    (y : FVec Ideal ⟨2, ![m, k]⟩ φ₁) (w : FVec Ideal ⟨2, ![k, n]⟩ φ₂) (bb : FVec Ideal ⟨2, ![m, n]⟩ .f32)
    (a : Fin m) (j : Fin n) :
    addf (matmul (DotDims.plain m k n) prec y w (constant ⟨2, ![m, n]⟩ .f32 0x00000000#32)) bb (ix2 a j)
      = (∑ c : Fin k, y (ix2 a c) * w (ix2 c j)) + bb (ix2 a j) := by
  rw [addf_apply, matmul_plain_zero_apply]

/-! ## Rows appended below an array -/

/-- An array padded with `hi` rows below and nothing else reads, at a row of the operand, the operand. -/
theorem pad_rows_apply {M M' k hi : Nat} {α : Type} (X : (⟨2, ![M, k]⟩ : Shape).Idx → α) {u : Shape} (v : u.Idx → α)
    (h : (⟨2, ![M, k]⟩ : Shape).Pads ![0, 0] ![hi, 0] ![0, 0] ⟨2, ![M', k]⟩) (hu : 0 < u.numel)
    (a' : Fin M') (a : Fin M) (c : Fin k) (ha : a'.val = a.val) :
    pad ⟨2, ![M', k]⟩ ![0, 0] ![hi, 0] ![0, 0] X v h hu (ix2 a' c) = X (ix2 a c) := by
  refine pad_apply_of_inside _ _ _ X v h hu (ix2 a' c) (ix2 a c) fun ax => ?_
  match ax with
  | ⟨0, _⟩ => show a'.val = 0 + a.val * (0 + 1); omega
  | ⟨1, _⟩ => show c.val = 0 + c.val * (0 + 1); omega

end Cert.Lib

end
-- ==== Proof.Region0.lean ====
/-
  The first kernel region: the rectified two-relation layer on the padded paper rows.

  Each grid point t works on rows 2048·t … 2048·t + 2047 of three padded arrays (the two aggregated means and the node
  features), with the six weight and bias arrays whole, and writes the same rows of the result.  At row p and feature j
  the body's value is the two relations' convolutions of row p, added and rectified: it reads row p of the padded arrays
  only, so the result array is that function of whatever the region found in its arrays.
-/
import proofs.«168620_j7301444403985_1_alg».proof.Proof.Gen.KernelIdeal.Frame
import proofs.«168620_j7301444403985_1_alg».proof.Proof.LibSageBlocks
import Idealize.ShloMosaic.Lib.Pipeline.Value

set_option maxRecDepth 16384

noncomputable section

namespace Cert.KernelIdeal.Layers

open Cert.KernelIdeal Cert.KernelIdeal.Gen Cert.Lib
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The rectifier's threshold: the float word zero. -/
abbrev z0 : Ideal .f32 := FloatOps.ofBits .f32 0x00000000#32

theorem hz2 : (![0, 0] : Fin 2 → Nat) = fun _ => 0 := funext fun a => by fin_cases a <;> rfl

/-- The region's result as one function of the arrays it finds. -/
def G0 (c : Dev nD) : S305152x256.Idx → Elt Ideal .f32 :=
  sageDual (V c main_v53) (V c main_v54) (V c main_v55) (V c main_arg2) (V c main_arg4) (V c main_arg5) (V c main_arg7)
    (V c main_arg3) (V c main_arg6) z0

/-- The body's arithmetic as one closed term of its loaded blocks. -/
theorem pay0_eq (x0 x1 x2 : Vec Ideal S2048x128 .f32) (w3 w5 w6 w8 : Vec Ideal S128x256 .f32) (b4 b7 : Vec Ideal S256 .f32) :
    k0_pay1 (F := Ideal) x0 x1 x2 w3 w5 w6 w8 b4 b7
      = maximumf (addf (addf (addf (addf (addf
          (matmul (φ₁ := .bf16) (φ₂ := .bf16) (DotDims.plain 2048 128 256) none (shapeCast S2048x128 x0 shapeCasts_S2048x128_S2048x128) w3 (constant ⟨2, ![2048, 256]⟩ .f32 0x00000000#32))
          (matmul (φ₁ := .bf16) (φ₂ := .bf16) (DotDims.plain 2048 128 256) none (shapeCast S2048x128 x2 shapeCasts_S2048x128_S2048x128) w5 (constant ⟨2, ![2048, 256]⟩ .f32 0x00000000#32)))
          (broadcastTo ⟨2, ![2048, 256]⟩ (shapeCast ⟨2, ![1, 256]⟩ b4 shapeCasts_S256_S1x256) broadcasts_S1x256_S2048x256))
          (matmul (φ₁ := .bf16) (φ₂ := .bf16) (DotDims.plain 2048 128 256) none (shapeCast S2048x128 x1 shapeCasts_S2048x128_S2048x128) w6 (constant ⟨2, ![2048, 256]⟩ .f32 0x00000000#32)))
          (matmul (φ₁ := .bf16) (φ₂ := .bf16) (DotDims.plain 2048 128 256) none (shapeCast S2048x128 x2 shapeCasts_S2048x128_S2048x128) w8 (constant ⟨2, ![2048, 256]⟩ .f32 0x00000000#32)))
          (broadcastTo ⟨2, ![2048, 256]⟩ (shapeCast ⟨2, ![1, 256]⟩ b7 shapeCasts_S256_S1x256) broadcasts_S1x256_S2048x256))
        (broadcast ⟨2, ![2048, 256]⟩ z0) := rfl

/-- The body's value at row `a` of the block and feature `j`. -/
theorem pay0_apply (x0 x1 x2 : Vec Ideal S2048x128 .f32) (w3 w5 w6 w8 : Vec Ideal S128x256 .f32) (b4 b7 : Vec Ideal S256 .f32)
    (a : Fin 2048) (j : Fin 256) :
    k0_pay1 (F := Ideal) x0 x1 x2 w3 w5 w6 w8 b4 b7 (ix2 a j)
      = max ((((∑ c : Fin 128, x0 (ix2 a c) * w3 (ix2 c j)) + b4 (ix1 j)) + ∑ c : Fin 128, x2 (ix2 a c) * w5 (ix2 c j))
            + (((∑ c : Fin 128, x1 (ix2 a c) * w6 (ix2 c j)) + b7 (ix1 j)) + ∑ c : Fin 128, x2 (ix2 a c) * w8 (ix2 c j))) z0 := by
  rw [pay0_eq, dual_body_apply, bias_rows_apply, bias_rows_apply, shapeCast_self, shapeCast_self, shapeCast_self]
  rfl

theorem hz1 : (![0] : Fin 1 → Nat) = fun _ => 0 := funext fun a => by fin_cases a; rfl

/-- The printed index maps, decided over the grid: the three row-block windows and the result move with the point along
    the rows, the weights and biases stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Window 0's block at point `t` is rows `2048·t …` of the array it stages. -/
theorem blk0_0 (c : Dev nD) (t : Fin cfg0.N) (a : Fin 2048) (cc : Fin 128) (p : Fin 305152) (hp : p.val = t.val * 2048 + a.val) :
    (iblk0 V c 0 t : Vec Ideal S2048x128 .f32) (ix2 a cc) = (V c main_v53 : S305152x128.Idx → Elt Ideal .f32) (ix2 p cc) := by
  obtain ⟨h0, h1, -, -, -, -, -, -, -, -, -, -, -, -, -, -, -, -⟩ := idx0 t
  unfold iblk0
  rw [View.read_apply]
  show V c main_v53 _ = V c main_v53 _
  congr 1
  funext ax
  apply Fin.ext
  match ax with
  | ⟨0, _⟩ => show win0_0.index t 0 * 2048 + 1 * a.val = p.val; omega
  | ⟨1, _⟩ => show win0_0.index t 1 * 128 + 1 * cc.val = cc.val; omega

/-- Window 1's block at point `t` is rows `2048·t …` of the array it stages. -/
theorem blk0_1 (c : Dev nD) (t : Fin cfg0.N) (a : Fin 2048) (cc : Fin 128) (p : Fin 305152) (hp : p.val = t.val * 2048 + a.val) :
    (iblk0 V c 1 t : Vec Ideal S2048x128 .f32) (ix2 a cc) = (V c main_v54 : S305152x128.Idx → Elt Ideal .f32) (ix2 p cc) := by
  obtain ⟨-, -, h0, h1, -, -, -, -, -, -, -, -, -, -, -, -, -, -⟩ := idx0 t
  unfold iblk0
  rw [View.read_apply]
  show V c main_v54 _ = V c main_v54 _
  congr 1
  funext ax
  apply Fin.ext
  match ax with
  | ⟨0, _⟩ => show win0_1.index t 0 * 2048 + 1 * a.val = p.val; omega
  | ⟨1, _⟩ => show win0_1.index t 1 * 128 + 1 * cc.val = cc.val; omega

/-- Window 2's block at point `t` is rows `2048·t …` of the array it stages. -/
theorem blk0_2 (c : Dev nD) (t : Fin cfg0.N) (a : Fin 2048) (cc : Fin 128) (p : Fin 305152) (hp : p.val = t.val * 2048 + a.val) :
    (iblk0 V c 2 t : Vec Ideal S2048x128 .f32) (ix2 a cc) = (V c main_v55 : S305152x128.Idx → Elt Ideal .f32) (ix2 p cc) := by
  obtain ⟨-, -, -, -, h0, h1, -, -, -, -, -, -, -, -, -, -, -, -⟩ := idx0 t
  unfold iblk0
  rw [View.read_apply]
  show V c main_v55 _ = V c main_v55 _
  congr 1
  funext ax
  apply Fin.ext
  match ax with
  | ⟨0, _⟩ => show win0_2.index t 0 * 2048 + 1 * a.val = p.val; omega
  | ⟨1, _⟩ => show win0_2.index t 1 * 128 + 1 * cc.val = cc.val; omega

/-- Window 3 stages its whole weight array at every point. -/
theorem blk0_3 (c : Dev nD) (t : Fin cfg0.N) (cc : Fin 128) (j : Fin 256) :
    (iblk0 V c 3 t : Vec Ideal S128x256 .f32) (ix2 cc j) = (V c main_arg2 : S128x256.Idx → Elt Ideal .f32) (ix2 cc j) := by
  obtain ⟨-, -, -, -, -, -, h0, h1, -, -, -, -, -, -, -, -, -, -⟩ := idx0 t
  unfold iblk0
  rw [View.read_apply]
  show V c main_arg2 _ = V c main_arg2 _
  congr 1
  funext ax
  apply Fin.ext
  match ax with
  | ⟨0, _⟩ => show win0_3.index t 0 * 128 + 1 * cc.val = cc.val; omega
  | ⟨1, _⟩ => show win0_3.index t 1 * 256 + 1 * j.val = j.val; omega

/-- Window 4 stages its whole bias vector at every point. -/
theorem blk0_4 (c : Dev nD) (t : Fin cfg0.N) (j : Fin 256) :
    (iblk0 V c 4 t : Vec Ideal S256 .f32) (ix1 j) = (V c main_arg3 : S256.Idx → Elt Ideal .f32) (ix1 j) := by
  obtain ⟨-, -, -, -, -, -, -, -, h0, -, -, -, -, -, -, -, -, -⟩ := idx0 t
  unfold iblk0
  rw [View.read_apply]
  show V c main_arg3 _ = V c main_arg3 _
  congr 1
  funext ax
  apply Fin.ext
  match ax with
  | ⟨0, _⟩ => show win0_4.index t 0 * 256 + 1 * j.val = j.val; omega

/-- Window 5 stages its whole weight array at every point. -/
theorem blk0_5 (c : Dev nD) (t : Fin cfg0.N) (cc : Fin 128) (j : Fin 256) :
    (iblk0 V c 5 t : Vec Ideal S128x256 .f32) (ix2 cc j) = (V c main_arg4 : S128x256.Idx → Elt Ideal .f32) (ix2 cc j) := by
  obtain ⟨-, -, -, -, -, -, -, -, -, h0, h1, -, -, -, -, -, -, -⟩ := idx0 t
  unfold iblk0
  rw [View.read_apply]
  show V c main_arg4 _ = V c main_arg4 _
  congr 1
  funext ax
  apply Fin.ext
  match ax with
  | ⟨0, _⟩ => show win0_5.index t 0 * 128 + 1 * cc.val = cc.val; omega
  | ⟨1, _⟩ => show win0_5.index t 1 * 256 + 1 * j.val = j.val; omega

/-- Window 6 stages its whole weight array at every point. -/
theorem blk0_6 (c : Dev nD) (t : Fin cfg0.N) (cc : Fin 128) (j : Fin 256) :
    (iblk0 V c 6 t : Vec Ideal S128x256 .f32) (ix2 cc j) = (V c main_arg5 : S128x256.Idx → Elt Ideal .f32) (ix2 cc j) := by
  obtain ⟨-, -, -, -, -, -, -, -, -, -, -, h0, h1, -, -, -, -, -⟩ := idx0 t
  unfold iblk0
  rw [View.read_apply]
  show V c main_arg5 _ = V c main_arg5 _
  congr 1
  funext ax
  apply Fin.ext
  match ax with
  | ⟨0, _⟩ => show win0_6.index t 0 * 128 + 1 * cc.val = cc.val; omega
  | ⟨1, _⟩ => show win0_6.index t 1 * 256 + 1 * j.val = j.val; omega

/-- Window 7 stages its whole bias vector at every point. -/
theorem blk0_7 (c : Dev nD) (t : Fin cfg0.N) (j : Fin 256) :
    (iblk0 V c 7 t : Vec Ideal S256 .f32) (ix1 j) = (V c main_arg6 : S256.Idx → Elt Ideal .f32) (ix1 j) := by
  obtain ⟨-, -, -, -, -, -, -, -, -, -, -, -, -, h0, -, -, -, -⟩ := idx0 t
  unfold iblk0
  rw [View.read_apply]
  show V c main_arg6 _ = V c main_arg6 _
  congr 1
  funext ax
  apply Fin.ext
  match ax with
  | ⟨0, _⟩ => show win0_7.index t 0 * 256 + 1 * j.val = j.val; omega

/-- Window 8 stages its whole weight array at every point. -/
theorem blk0_8 (c : Dev nD) (t : Fin cfg0.N) (cc : Fin 128) (j : Fin 256) :
    (iblk0 V c 8 t : Vec Ideal S128x256 .f32) (ix2 cc j) = (V c main_arg7 : S128x256.Idx → Elt Ideal .f32) (ix2 cc j) := by
  obtain ⟨-, -, -, -, -, -, -, -, -, -, -, -, -, -, h0, h1, -, -⟩ := idx0 t
  unfold iblk0
  rw [View.read_apply]
  show V c main_arg7 _ = V c main_arg7 _
  congr 1
  funext ax
  apply Fin.ext
  match ax with
  | ⟨0, _⟩ => show win0_8.index t 0 * 128 + 1 * cc.val = cc.val; omega
  | ⟨1, _⟩ => show win0_8.index t 1 * 256 + 1 * j.val = j.val; omega

/-- What point `t` writes back is block `t` of `G0`: at row `a` of the block the body reads row `2048·t + a` of the three
    padded arrays and the whole weights and biases. -/
theorem flushed0_eq (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  rw [View.canon_unit_zero hz2]
  simp only [View.ld_unit_zero (S := S2048x128) hz2, View.ld_unit_zero (S := S128x256) hz2, View.ld_unit_zero (S := S256) hz1]
  funext y
  obtain ⟨a, j, rfl⟩ : ∃ (a : Fin 2048) (j : Fin 256), y = ix2 a j := ⟨y 0, y 1, eq_ix2 y⟩
  have hN : cfg0.N = 149 := N_0
  have hlt : t.val * 2048 + a.val < 305152 := by have := t.isLt; have := a.isLt; omega
  obtain ⟨-, -, -, -, -, -, -, -, -, -, -, -, -, -, -, -, h0, h1⟩ := idx0 t
  have hemb : ((cfg0.win 9).blk t).view.emb (ix2 a j) = (ix2 (⟨t.val * 2048 + a.val, hlt⟩ : Fin 305152) j : S305152x256.Idx) := by
    funext ax
    apply Fin.ext
    match ax with
    | ⟨0, _⟩ => show win0_9.index t 0 * 2048 + 1 * a.val = t.val * 2048 + a.val; omega
    | ⟨1, _⟩ => show win0_9.index t 1 * 256 + 1 * j.val = j.val; omega
  rw [View.read_apply, hemb]
  refine (pay0_apply (iblk0 V c 0 t) (iblk0 V c 1 t) (iblk0 V c 2 t) (iblk0 V c 3 t) (iblk0 V c 5 t) (iblk0 V c 6 t)
    (iblk0 V c 8 t) (iblk0 V c 4 t) (iblk0 V c 7 t) a j).trans ?_
  simp only [fun cc => blk0_0 V c t a cc ⟨_, hlt⟩ rfl, fun cc => blk0_1 V c t a cc ⟨_, hlt⟩ rfl,
    fun cc => blk0_2 V c t a cc ⟨_, hlt⟩ rfl, blk0_3 V c t, blk0_5 V c t, blk0_6 V c t, blk0_8 V c t, blk0_4 V c t, blk0_7 V c t]
  rfl

/-- An index of the result array is in point `t`'s block iff each coordinate is in the block's range on its axis. -/
theorem mem_blk0 (t : Fin cfg0.N) (i : S305152x256.Idx) :
    i ∈ ((cfg0.win 9).blk t).view.set ↔ ∀ a : Fin 2, win0_9.index t a * S2048x256.size a ≤ (i a).val
      ∧ (i a).val < win0_9.index t a * S2048x256.size a + S2048x256.size a := by
  show i ∈ ((View.whole main_v56).slice (win0_9.rect t)).set ↔ _
  rw [View.set_slice_whole, Rect.mem_set_unit]
  exact Iff.rfl

/-- The blocks tile the result array (row `r` lies in block `r / 2048`), so after the region it holds `G0` of what the
    region found. -/
theorem arr0 (c : Dev nD) : (dat0 V c).arrAt 9 cfg0.N = G0 V c :=
  (dat0 V c).arrAt_eq_of_cover 9 (G0 V c) (fun t _ => flushed0_eq V c t) fun i => by
    have hi0 : (i 0).val < 305152 := (i 0).isLt
    have hi1 : (i 1).val < 256 := (i 1).isLt
    have hN : cfg0.N = 149 := N_0
    have hq : (i 0).val / 2048 < cfg0.N := by omega
    obtain ⟨-, -, -, -, -, -, -, -, -, -, -, -, -, -, -, -, h0, h1⟩ := idx0 ⟨(i 0).val / 2048, hq⟩
    refine ⟨⟨(i 0).val / 2048, hq⟩, flush0_9 _, ?_⟩
    rw [mem_blk0]
    intro a
    match a with
    | ⟨0, _⟩ =>
      show win0_9.index ⟨(i 0).val / 2048, hq⟩ 0 * 2048 ≤ (i 0).val
        ∧ (i 0).val < win0_9.index ⟨(i 0).val / 2048, hq⟩ 0 * 2048 + 2048
      rw [h0]; show (i 0).val / 2048 * 2048 ≤ (i 0).val ∧ (i 0).val < (i 0).val / 2048 * 2048 + 2048; omega
    | ⟨1, _⟩ =>
      show win0_9.index ⟨(i 0).val / 2048, hq⟩ 1 * 256 ≤ (i 1).val
        ∧ (i 1).val < win0_9.index ⟨(i 0).val / 2048, hq⟩ 1 * 256 + 256
      rw [h1]; omega

end Cert.KernelIdeal.Layers

end
-- ==== Proof.RefRows.lean ====
/-
  The reference's three dense stages, read row by row over the extended reals.

  Each stage of the reference is a chain of whole-array operations: a product of an aggregated array with a weight, plus a
  bias row spread over all rows, plus a product of the node features with a second weight; two such chains added and
  rectified against the zero array (the first layer's "paper" nodes and the second layer), one chain rectified (the first
  layer's "author" nodes), and a final product plus bias row.  Read at an entry (a, j), a product is the sum over the
  contracted coordinate c of left (a, c) times right (c, j), the spread bias is the bias vector at j, and the rectifier is
  the maximum with the zero word's value.  So each stage, as a whole array, is the corresponding row-local layer of
  Cert.Lib (sageDual, sageSingle, linearRows) applied to the aggregated arrays, which stay unopened here.
-/
import proofs.«168620_j7301444403985_1_alg».proof.Proof.Gen.ReferenceIdeal.Read
import proofs.«168620_j7301444403985_1_alg».proof.Proof.LibSageBlocks

noncomputable section

namespace Cert.ReferenceIdeal.Rows

open Cert.ReferenceIdeal Cert.ReferenceIdeal.Gen Cert.ReferenceIdeal.Read Cert.Lib Idealize.ShloMosaic Idealize.ShloMosaic.ValueIdx

/-- The rectifier's threshold: the value of the all-zero 32-bit word. -/
abbrev z0 : Ideal .f32 := FloatOps.ofBits .f32 0x00000000#32

/-! ## Index equations

At the entry (a, j) of a product, the k-th term reads the left operand at (a, k) and the right operand at (k, j); a bias
vector spread over the rows reads, at (a, j), its entry j. -/

theorem lidx_v28 (a : Fin 304096) (j : Fin 256) (k : Fin 128) : lidx_main_v28 (ix2 a j) k = ix2 a k :=
  funext fun q => Fin.ext (by match q with | ⟨0, _⟩ => rfl | ⟨1, _⟩ => rfl)
theorem ridx_v28 (a : Fin 304096) (j : Fin 256) (k : Fin 128) : ridx_main_v28 (ix2 a j) k = ix2 k j :=
  funext fun q => Fin.ext (by match q with | ⟨0, _⟩ => rfl | ⟨1, _⟩ => rfl)
theorem lidx_v32 (a : Fin 304096) (j : Fin 256) (k : Fin 128) : lidx_main_v32 (ix2 a j) k = ix2 a k :=
  funext fun q => Fin.ext (by match q with | ⟨0, _⟩ => rfl | ⟨1, _⟩ => rfl)
theorem ridx_v32 (a : Fin 304096) (j : Fin 256) (k : Fin 128) : ridx_main_v32 (ix2 a j) k = ix2 k j :=
  funext fun q => Fin.ext (by match q with | ⟨0, _⟩ => rfl | ⟨1, _⟩ => rfl)
theorem lidx_v59 (a : Fin 304096) (j : Fin 256) (k : Fin 128) : lidx_main_v59 (ix2 a j) k = ix2 a k :=
  funext fun q => Fin.ext (by match q with | ⟨0, _⟩ => rfl | ⟨1, _⟩ => rfl)
theorem ridx_v59 (a : Fin 304096) (j : Fin 256) (k : Fin 128) : ridx_main_v59 (ix2 a j) k = ix2 k j :=
  funext fun q => Fin.ext (by match q with | ⟨0, _⟩ => rfl | ⟨1, _⟩ => rfl)
theorem lidx_v63 (a : Fin 304096) (j : Fin 256) (k : Fin 128) : lidx_main_v63 (ix2 a j) k = ix2 a k :=
  funext fun q => Fin.ext (by match q with | ⟨0, _⟩ => rfl | ⟨1, _⟩ => rfl)
theorem ridx_v63 (a : Fin 304096) (j : Fin 256) (k : Fin 128) : ridx_main_v63 (ix2 a j) k = ix2 k j :=
  funext fun q => Fin.ext (by match q with | ⟨0, _⟩ => rfl | ⟨1, _⟩ => rfl)
theorem lidx_v91 (a : Fin 154096) (j : Fin 256) (k : Fin 128) : lidx_main_v91 (ix2 a j) k = ix2 a k :=
  funext fun q => Fin.ext (by match q with | ⟨0, _⟩ => rfl | ⟨1, _⟩ => rfl)
theorem ridx_v91 (a : Fin 154096) (j : Fin 256) (k : Fin 128) : ridx_main_v91 (ix2 a j) k = ix2 k j :=
  funext fun q => Fin.ext (by match q with | ⟨0, _⟩ => rfl | ⟨1, _⟩ => rfl)
theorem lidx_v95 (a : Fin 154096) (j : Fin 256) (k : Fin 128) : lidx_main_v95 (ix2 a j) k = ix2 a k :=
  funext fun q => Fin.ext (by match q with | ⟨0, _⟩ => rfl | ⟨1, _⟩ => rfl)
theorem ridx_v95 (a : Fin 154096) (j : Fin 256) (k : Fin 128) : ridx_main_v95 (ix2 a j) k = ix2 k j :=
  funext fun q => Fin.ext (by match q with | ⟨0, _⟩ => rfl | ⟨1, _⟩ => rfl)
theorem lidx_v126 (a : Fin 104096) (j : Fin 256) (k : Fin 256) : lidx_main_v126 (ix2 a j) k = ix2 a k :=
  funext fun q => Fin.ext (by match q with | ⟨0, _⟩ => rfl | ⟨1, _⟩ => rfl)
theorem ridx_v126 (a : Fin 104096) (j : Fin 256) (k : Fin 256) : ridx_main_v126 (ix2 a j) k = ix2 k j :=
  funext fun q => Fin.ext (by match q with | ⟨0, _⟩ => rfl | ⟨1, _⟩ => rfl)
theorem lidx_v130 (a : Fin 104096) (j : Fin 256) (k : Fin 256) : lidx_main_v130 (ix2 a j) k = ix2 a k :=
  funext fun q => Fin.ext (by match q with | ⟨0, _⟩ => rfl | ⟨1, _⟩ => rfl)
theorem ridx_v130 (a : Fin 104096) (j : Fin 256) (k : Fin 256) : ridx_main_v130 (ix2 a j) k = ix2 k j :=
  funext fun q => Fin.ext (by match q with | ⟨0, _⟩ => rfl | ⟨1, _⟩ => rfl)
theorem lidx_v157 (a : Fin 104096) (j : Fin 256) (k : Fin 256) : lidx_main_v157 (ix2 a j) k = ix2 a k :=
  funext fun q => Fin.ext (by match q with | ⟨0, _⟩ => rfl | ⟨1, _⟩ => rfl)
theorem ridx_v157 (a : Fin 104096) (j : Fin 256) (k : Fin 256) : ridx_main_v157 (ix2 a j) k = ix2 k j :=
  funext fun q => Fin.ext (by match q with | ⟨0, _⟩ => rfl | ⟨1, _⟩ => rfl)
theorem lidx_v161 (a : Fin 104096) (j : Fin 256) (k : Fin 256) : lidx_main_v161 (ix2 a j) k = ix2 a k :=
  funext fun q => Fin.ext (by match q with | ⟨0, _⟩ => rfl | ⟨1, _⟩ => rfl)
theorem ridx_v161 (a : Fin 104096) (j : Fin 256) (k : Fin 256) : ridx_main_v161 (ix2 a j) k = ix2 k j :=
  funext fun q => Fin.ext (by match q with | ⟨0, _⟩ => rfl | ⟨1, _⟩ => rfl)
theorem lidx_v165 (a : Fin 104096) (j : Fin 64) (k : Fin 256) : lidx_main_v165 (ix2 a j) k = ix2 a k :=
  funext fun q => Fin.ext (by match q with | ⟨0, _⟩ => rfl | ⟨1, _⟩ => rfl)
theorem ridx_v165 (a : Fin 104096) (j : Fin 64) (k : Fin 256) : ridx_main_v165 (ix2 a j) k = ix2 k j :=
  funext fun q => Fin.ext (by match q with | ⟨0, _⟩ => rfl | ⟨1, _⟩ => rfl)
theorem bias_v30 (a : Fin 304096) (j : Fin 256) : idx_main_v29 (idx_main_v30 (ix2 a j)) = ix1 j :=
  funext fun q => Fin.ext (by match q with | ⟨0, _⟩ => rfl)
theorem bias_v61 (a : Fin 304096) (j : Fin 256) : idx_main_v60 (idx_main_v61 (ix2 a j)) = ix1 j :=
  funext fun q => Fin.ext (by match q with | ⟨0, _⟩ => rfl)
theorem bias_v93 (a : Fin 154096) (j : Fin 256) : idx_main_v92 (idx_main_v93 (ix2 a j)) = ix1 j :=
  funext fun q => Fin.ext (by match q with | ⟨0, _⟩ => rfl)
theorem bias_v128 (a : Fin 104096) (j : Fin 256) : idx_main_v127 (idx_main_v128 (ix2 a j)) = ix1 j :=
  funext fun q => Fin.ext (by match q with | ⟨0, _⟩ => rfl)
theorem bias_v159 (a : Fin 104096) (j : Fin 256) : idx_main_v158 (idx_main_v159 (ix2 a j)) = ix1 j :=
  funext fun q => Fin.ext (by match q with | ⟨0, _⟩ => rfl)
theorem bias_v167 (a : Fin 104096) (j : Fin 64) : idx_main_v166 (idx_main_v167 (ix2 a j)) = ix1 j :=
  funext fun q => Fin.ext (by match q with | ⟨0, _⟩ => rfl)

/-! ## One relation's convolution

(left · W_l + bias row) + features · W_r at the entry (a, j) is the convolution of Cert.Lib at node a, feature j. -/

theorem conv_v33 (x0 : (⟨S304096x128, .f32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x22 : (⟨S2x500000, .i32⟩ : BufTy).Contents (Elt Ideal)) (x23 : (⟨S2x500000, .i32⟩ : BufTy).Contents (Elt Ideal)) (a : Fin 304096) (j : Fin 256) :
    val_main_v33 (F := Ideal) x0 x2 x3 x4 x22 x23 (ix2 a j) = sageConv (val_main_v27 (F := Ideal) x0 x22 x23) x0 x2 x4 x3 a j := by
  rw [val_main_v33_apply, val_main_v31_apply, val_main_v28_apply, val_main_v30_apply, val_main_v29_apply, val_main_v32_apply]
  simp only [lidx_v28, ridx_v28, lidx_v32, ridx_v32, bias_v30]
  rfl

theorem conv_v64 (x0 : (⟨S304096x128, .f32⟩ : BufTy).Contents (Elt Ideal)) (x1 : (⟨S154096x128, .f32⟩ : BufTy).Contents (Elt Ideal)) (x5 : (⟨S128x256, .f32⟩ : BufTy).Contents (Elt Ideal)) (x6 : (⟨S256, .f32⟩ : BufTy).Contents (Elt Ideal)) (x7 : (⟨S128x256, .f32⟩ : BufTy).Contents (Elt Ideal)) (x24 : (⟨S2x500000, .i32⟩ : BufTy).Contents (Elt Ideal)) (x25 : (⟨S2x500000, .i32⟩ : BufTy).Contents (Elt Ideal)) (a : Fin 304096) (j : Fin 256) :
    val_main_v64 (F := Ideal) x0 x1 x5 x6 x7 x24 x25 (ix2 a j) = sageConv (val_main_v58 (F := Ideal) x1 x24 x25) x0 x5 x7 x6 a j := by
  rw [val_main_v64_apply, val_main_v62_apply, val_main_v59_apply, val_main_v61_apply, val_main_v60_apply, val_main_v63_apply]
  simp only [lidx_v59, ridx_v59, lidx_v63, ridx_v63, bias_v61]
  rfl

theorem conv_v96 (x0 : (⟨S304096x128, .f32⟩ : BufTy).Contents (Elt Ideal)) (x1 : (⟨S154096x128, .f32⟩ : BufTy).Contents (Elt Ideal)) (x8 : (⟨S128x256, .f32⟩ : BufTy).Contents (Elt Ideal)) (x9 : (⟨S256, .f32⟩ : BufTy).Contents (Elt Ideal)) (x10 : (⟨S128x256, .f32⟩ : BufTy).Contents (Elt Ideal)) (x26 : (⟨S2x500000, .i32⟩ : BufTy).Contents (Elt Ideal)) (x27 : (⟨S2x500000, .i32⟩ : BufTy).Contents (Elt Ideal)) (a : Fin 154096) (j : Fin 256) :
    val_main_v96 (F := Ideal) x0 x1 x8 x9 x10 x26 x27 (ix2 a j) = sageConv (val_main_v90 (F := Ideal) x0 x26 x27) x1 x8 x10 x9 a j := by
  rw [val_main_v96_apply, val_main_v94_apply, val_main_v91_apply, val_main_v93_apply, val_main_v92_apply, val_main_v95_apply]
  simp only [lidx_v91, ridx_v91, lidx_v95, ridx_v95, bias_v93]
  rfl

theorem conv_v131 (x0 : (⟨S304096x128, .f32⟩ : BufTy).Contents (Elt Ideal)) (x1 : (⟨S154096x128, .f32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S128x256, .f32⟩ : BufTy).Contents (Elt Ideal)) (x6 : (⟨S256, .f32⟩ : BufTy).Contents (Elt Ideal)) (x7 : (⟨S128x256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x22 : (⟨S2x500000, .i32⟩ : BufTy).Contents (Elt Ideal)) (x23 : (⟨S2x500000, .i32⟩ : BufTy).Contents (Elt Ideal)) (x24 : (⟨S2x500000, .i32⟩ : BufTy).Contents (Elt Ideal)) (x25 : (⟨S2x500000, .i32⟩ : BufTy).Contents (Elt Ideal)) (a : Fin 104096) (j : Fin 256) :
    val_main_v131 (F := Ideal) x0 x1 x2 x3 x4 x5 x6 x7 x11 x12 x13 x22 x23 x24 x25 (ix2 a j) = sageConv (val_main_v125 (F := Ideal) x0 x1 x2 x3 x4 x5 x6 x7 x22 x23 x24 x25) (val_main_v99 (F := Ideal) x0 x1 x2 x3 x4 x5 x6 x7 x22 x23 x24 x25) x11 x13 x12 a j := by
  rw [val_main_v131_apply, val_main_v129_apply, val_main_v126_apply, val_main_v128_apply, val_main_v127_apply, val_main_v130_apply]
  simp only [lidx_v126, ridx_v126, lidx_v130, ridx_v130, bias_v128]
  rfl

theorem conv_v162 (x0 : (⟨S304096x128, .f32⟩ : BufTy).Contents (Elt Ideal)) (x1 : (⟨S154096x128, .f32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S128x256, .f32⟩ : BufTy).Contents (Elt Ideal)) (x6 : (⟨S256, .f32⟩ : BufTy).Contents (Elt Ideal)) (x7 : (⟨S128x256, .f32⟩ : BufTy).Contents (Elt Ideal)) (x8 : (⟨S128x256, .f32⟩ : BufTy).Contents (Elt Ideal)) (x9 : (⟨S256, .f32⟩ : BufTy).Contents (Elt Ideal)) (x10 : (⟨S128x256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x22 : (⟨S2x500000, .i32⟩ : BufTy).Contents (Elt Ideal)) (x23 : (⟨S2x500000, .i32⟩ : BufTy).Contents (Elt Ideal)) (x24 : (⟨S2x500000, .i32⟩ : BufTy).Contents (Elt Ideal)) (x25 : (⟨S2x500000, .i32⟩ : BufTy).Contents (Elt Ideal)) (x26 : (⟨S2x500000, .i32⟩ : BufTy).Contents (Elt Ideal)) (x27 : (⟨S2x500000, .i32⟩ : BufTy).Contents (Elt Ideal)) (a : Fin 104096) (j : Fin 256) :
    val_main_v162 (F := Ideal) x0 x1 x2 x3 x4 x5 x6 x7 x8 x9 x10 x14 x15 x16 x22 x23 x24 x25 x26 x27 (ix2 a j) = sageConv (val_main_v156 (F := Ideal) x0 x1 x8 x9 x10 x24 x26 x27) (val_main_v99 (F := Ideal) x0 x1 x2 x3 x4 x5 x6 x7 x22 x23 x24 x25) x14 x16 x15 a j := by
  rw [val_main_v162_apply, val_main_v160_apply, val_main_v157_apply, val_main_v159_apply, val_main_v158_apply, val_main_v161_apply]
  simp only [lidx_v157, ridx_v157, lidx_v161, ridx_v161, bias_v159]
  rfl

/-! ## The three stages as whole arrays -/

/-- First layer, the nodes with two incoming relations: the two convolutions added, then the maximum with zero. -/
theorem paper0_eq (x0 : (⟨S304096x128, .f32⟩ : BufTy).Contents (Elt Ideal)) (x1 : (⟨S154096x128, .f32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S128x256, .f32⟩ : BufTy).Contents (Elt Ideal)) (x6 : (⟨S256, .f32⟩ : BufTy).Contents (Elt Ideal)) (x7 : (⟨S128x256, .f32⟩ : BufTy).Contents (Elt Ideal)) (x22 : (⟨S2x500000, .i32⟩ : BufTy).Contents (Elt Ideal)) (x23 : (⟨S2x500000, .i32⟩ : BufTy).Contents (Elt Ideal)) (x24 : (⟨S2x500000, .i32⟩ : BufTy).Contents (Elt Ideal)) (x25 : (⟨S2x500000, .i32⟩ : BufTy).Contents (Elt Ideal)) :
    val_main_v97 (F := Ideal) x0 x1 x2 x3 x4 x5 x6 x7 x22 x23 x24 x25 = sageDual (val_main_v27 (F := Ideal) x0 x22 x23) (val_main_v58 (F := Ideal) x1 x24 x25) x0 x2 x4 x5 x7 x3 x6 z0 := by
  funext i
  obtain ⟨a, j, rfl⟩ : ∃ (a : Fin 304096) (j : Fin 256), i = ix2 a j := ⟨i 0, i 1, eq_ix2 i⟩
  rw [val_main_v97_apply, val_main_v65_apply, conv_v33, conv_v64, val_main_call0_v0_apply, val_main_call0_cst_apply]
  rfl

/-- First layer, the nodes with one incoming relation: one convolution, then the maximum with zero. -/
theorem author0_eq (x0 : (⟨S304096x128, .f32⟩ : BufTy).Contents (Elt Ideal)) (x1 : (⟨S154096x128, .f32⟩ : BufTy).Contents (Elt Ideal)) (x8 : (⟨S128x256, .f32⟩ : BufTy).Contents (Elt Ideal)) (x9 : (⟨S256, .f32⟩ : BufTy).Contents (Elt Ideal)) (x10 : (⟨S128x256, .f32⟩ : BufTy).Contents (Elt Ideal)) (x26 : (⟨S2x500000, .i32⟩ : BufTy).Contents (Elt Ideal)) (x27 : (⟨S2x500000, .i32⟩ : BufTy).Contents (Elt Ideal)) :
    val_main_v98 (F := Ideal) x0 x1 x8 x9 x10 x26 x27 = sageSingle (val_main_v90 (F := Ideal) x0 x26 x27) x1 x8 x10 x9 z0 := by
  funext i
  obtain ⟨a, j, rfl⟩ : ∃ (a : Fin 154096) (j : Fin 256), i = ix2 a j := ⟨i 0, i 1, eq_ix2 i⟩
  rw [val_main_v98_apply, conv_v96, val_main_call1_v0_apply, val_main_call1_cst_apply]
  rfl

/-- Second layer: again two convolutions that share the node features, added and rectified. -/
theorem hidden1_eq (x0 : (⟨S304096x128, .f32⟩ : BufTy).Contents (Elt Ideal)) (x1 : (⟨S154096x128, .f32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S128x256, .f32⟩ : BufTy).Contents (Elt Ideal)) (x6 : (⟨S256, .f32⟩ : BufTy).Contents (Elt Ideal)) (x7 : (⟨S128x256, .f32⟩ : BufTy).Contents (Elt Ideal)) (x8 : (⟨S128x256, .f32⟩ : BufTy).Contents (Elt Ideal)) (x9 : (⟨S256, .f32⟩ : BufTy).Contents (Elt Ideal)) (x10 : (⟨S128x256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x22 : (⟨S2x500000, .i32⟩ : BufTy).Contents (Elt Ideal)) (x23 : (⟨S2x500000, .i32⟩ : BufTy).Contents (Elt Ideal)) (x24 : (⟨S2x500000, .i32⟩ : BufTy).Contents (Elt Ideal)) (x25 : (⟨S2x500000, .i32⟩ : BufTy).Contents (Elt Ideal)) (x26 : (⟨S2x500000, .i32⟩ : BufTy).Contents (Elt Ideal)) (x27 : (⟨S2x500000, .i32⟩ : BufTy).Contents (Elt Ideal)) :
    val_main_v164 (F := Ideal) x0 x1 x2 x3 x4 x5 x6 x7 x8 x9 x10 x11 x12 x13 x14 x15 x16 x22 x23 x24 x25 x26 x27 = sageDual (val_main_v125 (F := Ideal) x0 x1 x2 x3 x4 x5 x6 x7 x22 x23 x24 x25) (val_main_v156 (F := Ideal) x0 x1 x8 x9 x10 x24 x26 x27) (val_main_v99 (F := Ideal) x0 x1 x2 x3 x4 x5 x6 x7 x22 x23 x24 x25) x11 x13 x14 x16 x12 x15 z0 := by
  funext i
  obtain ⟨a, j, rfl⟩ : ∃ (a : Fin 104096) (j : Fin 256), i = ix2 a j := ⟨i 0, i 1, eq_ix2 i⟩
  rw [val_main_v164_apply, val_main_v163_apply, conv_v131, conv_v162, val_main_call2_v0_apply, val_main_call2_cst_apply]
  rfl

/-- The output: the second layer's rows through the last weight, plus the last bias row. -/
theorem out_eq (x0 : (⟨S304096x128, .f32⟩ : BufTy).Contents (Elt Ideal)) (x1 : (⟨S154096x128, .f32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S128x256, .f32⟩ : BufTy).Contents (Elt Ideal)) (x6 : (⟨S256, .f32⟩ : BufTy).Contents (Elt Ideal)) (x7 : (⟨S128x256, .f32⟩ : BufTy).Contents (Elt Ideal)) (x8 : (⟨S128x256, .f32⟩ : BufTy).Contents (Elt Ideal)) (x9 : (⟨S256, .f32⟩ : BufTy).Contents (Elt Ideal)) (x10 : (⟨S128x256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x20 : (⟨S256x64, .f32⟩ : BufTy).Contents (Elt Ideal)) (x21 : (⟨S64, .f32⟩ : BufTy).Contents (Elt Ideal)) (x22 : (⟨S2x500000, .i32⟩ : BufTy).Contents (Elt Ideal)) (x23 : (⟨S2x500000, .i32⟩ : BufTy).Contents (Elt Ideal)) (x24 : (⟨S2x500000, .i32⟩ : BufTy).Contents (Elt Ideal)) (x25 : (⟨S2x500000, .i32⟩ : BufTy).Contents (Elt Ideal)) (x26 : (⟨S2x500000, .i32⟩ : BufTy).Contents (Elt Ideal)) (x27 : (⟨S2x500000, .i32⟩ : BufTy).Contents (Elt Ideal)) :
    val_main_v168 (F := Ideal) x0 x1 x2 x3 x4 x5 x6 x7 x8 x9 x10 x11 x12 x13 x14 x15 x16 x20 x21 x22 x23 x24 x25 x26 x27 = linearRows (sageDual (val_main_v125 (F := Ideal) x0 x1 x2 x3 x4 x5 x6 x7 x22 x23 x24 x25) (val_main_v156 (F := Ideal) x0 x1 x8 x9 x10 x24 x26 x27) (val_main_v99 (F := Ideal) x0 x1 x2 x3 x4 x5 x6 x7 x22 x23 x24 x25) x11 x13 x14 x16 x12 x15 z0) x20 x21 := by
  funext i
  obtain ⟨a, j, rfl⟩ : ∃ (a : Fin 104096) (j : Fin 64), i = ix2 a j := ⟨i 0, i 1, eq_ix2 i⟩
  rw [val_main_v168_apply, val_main_v165_apply, val_main_v167_apply, val_main_v166_apply, hidden1_eq]
  simp only [lidx_v165, ridx_v165, bias_v167]
  rfl

end Cert.ReferenceIdeal.Rows

end
-- ==== Proof.LibSagePadded.lean ====
/-
  Graph-convolution layers on arrays with rows appended below.

  Every layer here is row-local: row a of the result reads row a of the aggregated features and of the node features
  and nothing else of them.  So appending rows below the inputs (a padding with no low and no interior part, whatever
  the padding value) leaves the result's rows above the padding as they were; and a linear layer on rows reads row a
  of its input only.
-/
import proofs.«168620_j7301444403985_1_alg».proof.Proof.LibSageBlocks

noncomputable section

namespace Cert.Lib

open Idealize.ShloMosaic Idealize.ShloMosaic.ValueIdx

/-- A convolution of inputs padded below, at a row of the operands, is the convolution of the operands. -/
theorem sageConv_pad_rows {M M' k n hi : Nat} (A H : FVec Ideal ⟨2, ![M, k]⟩ .f32) {u1 u2 : Shape}
    (v1 : u1.Idx → Ideal .f32) (v2 : u2.Idx → Ideal .f32)
    (h : (⟨2, ![M, k]⟩ : Shape).Pads ![0, 0] ![hi, 0] ![0, 0] ⟨2, ![M', k]⟩) (hu1 : 0 < u1.numel) (hu2 : 0 < u2.numel)
    (Wl Wr : FVec Ideal ⟨2, ![k, n]⟩ .f32) (b : FVec Ideal ⟨1, ![n]⟩ .f32)
    (a' : Fin M') (a : Fin M) (j : Fin n) (ha : a'.val = a.val) :
    sageConv (pad ⟨2, ![M', k]⟩ ![0, 0] ![hi, 0] ![0, 0] A v1 h hu1) (pad ⟨2, ![M', k]⟩ ![0, 0] ![hi, 0] ![0, 0] H v2 h hu2)
        Wl Wr b a' j
      = sageConv A H Wl Wr b a j :=
  sageConv_congr _ _ A H Wl Wr b a' a j (fun c => pad_rows_apply A v1 h hu1 a' a c ha)
    (fun c => pad_rows_apply H v2 h hu2 a' a c ha)

/-- The rectified two-relation layer of inputs padded below, at a row of the operands. -/
theorem sageDual_pad_rows {M M' k n hi : Nat} (A1 A2 H : FVec Ideal ⟨2, ![M, k]⟩ .f32) {u1 u2 u3 : Shape}
    (v1 : u1.Idx → Ideal .f32) (v2 : u2.Idx → Ideal .f32) (v3 : u3.Idx → Ideal .f32)
    (h : (⟨2, ![M, k]⟩ : Shape).Pads ![0, 0] ![hi, 0] ![0, 0] ⟨2, ![M', k]⟩)
    (hu1 : 0 < u1.numel) (hu2 : 0 < u2.numel) (hu3 : 0 < u3.numel)
    (Wl1 Wr1 Wl2 Wr2 : FVec Ideal ⟨2, ![k, n]⟩ .f32) (b1 b2 : FVec Ideal ⟨1, ![n]⟩ .f32) (z : Ideal .f32)
    (a' : Fin M') (a : Fin M) (j : Fin n) (ha : a'.val = a.val) :
    sageDual (pad ⟨2, ![M', k]⟩ ![0, 0] ![hi, 0] ![0, 0] A1 v1 h hu1) (pad ⟨2, ![M', k]⟩ ![0, 0] ![hi, 0] ![0, 0] A2 v2 h hu2)
        (pad ⟨2, ![M', k]⟩ ![0, 0] ![hi, 0] ![0, 0] H v3 h hu3) Wl1 Wr1 Wl2 Wr2 b1 b2 z (ix2 a' j)
      = sageDual A1 A2 H Wl1 Wr1 Wl2 Wr2 b1 b2 z (ix2 a j) := by
  show max (sageConv _ _ Wl1 Wr1 b1 a' j + sageConv _ _ Wl2 Wr2 b2 a' j) z
    = max (sageConv A1 H Wl1 Wr1 b1 a j + sageConv A2 H Wl2 Wr2 b2 a j) z
  rw [sageConv_pad_rows A1 H v1 v3 h hu1 hu3 Wl1 Wr1 b1 a' a j ha, sageConv_pad_rows A2 H v2 v3 h hu2 hu3 Wl2 Wr2 b2 a' a j ha]

/-- The rectified one-relation layer of inputs padded below, at a row of the operands. -/
theorem sageSingle_pad_rows {M M' k n hi : Nat} (A H : FVec Ideal ⟨2, ![M, k]⟩ .f32) {u1 u2 : Shape}
    (v1 : u1.Idx → Ideal .f32) (v2 : u2.Idx → Ideal .f32)
    (h : (⟨2, ![M, k]⟩ : Shape).Pads ![0, 0] ![hi, 0] ![0, 0] ⟨2, ![M', k]⟩) (hu1 : 0 < u1.numel) (hu2 : 0 < u2.numel)
    (Wl Wr : FVec Ideal ⟨2, ![k, n]⟩ .f32) (b : FVec Ideal ⟨1, ![n]⟩ .f32) (z : Ideal .f32)
    (a' : Fin M') (a : Fin M) (j : Fin n) (ha : a'.val = a.val) :
    sageSingle (pad ⟨2, ![M', k]⟩ ![0, 0] ![hi, 0] ![0, 0] A v1 h hu1) (pad ⟨2, ![M', k]⟩ ![0, 0] ![hi, 0] ![0, 0] H v2 h hu2)
        Wl Wr b z (ix2 a' j)
      = sageSingle A H Wl Wr b z (ix2 a j) := by
  show max (sageConv _ _ Wl Wr b a' j) z = max (sageConv A H Wl Wr b a j) z
  rw [sageConv_pad_rows A H v1 v2 h hu1 hu2 Wl Wr b a' a j ha]

/-- A linear layer on rows reads row `a` of its input only. -/
theorem linearRows_congr {M M' k n : Nat} (Y : FVec Ideal ⟨2, ![M, k]⟩ .f32) (Y' : FVec Ideal ⟨2, ![M', k]⟩ .f32)
    (W : FVec Ideal ⟨2, ![k, n]⟩ .f32) (b : FVec Ideal ⟨1, ![n]⟩ .f32) (a : Fin M) (a' : Fin M') (j : Fin n)
    (hY : ∀ c, Y (ix2 a c) = Y' (ix2 a' c)) :
    linearRows Y W b (ix2 a j) = linearRows Y' W b (ix2 a' j) := by
  show (∑ c : Fin k, Y (ix2 a c) * W (ix2 c j)) + b (ix1 j) = (∑ c : Fin k, Y' (ix2 a' c) * W (ix2 c j)) + b (ix1 j)
  rw [Finset.sum_congr rfl fun c _ => congrArg (· * W (ix2 c j)) (hY c)]

end Cert.Lib

end
-- ==== Proof.Paper0.lean ====
/-
  The paper layer: the first kernel region against the reference's first rectified stage.

  The first region finds the two means and the paper features with zero rows appended, and the six parameter arrays as
  launched; it leaves in its result the rectified two-relation layer of what it found, row by row.  Row a < 304096 of
  that result reads row a of the padded arrays, which is row a of the arrays before padding: the first 304096 rows are
  the layer of the unpadded means and features, and that is the reference's stage.
-/
import proofs.«168620_j7301444403985_1_alg».proof.Proof.HostEntry0
import proofs.«168620_j7301444403985_1_alg».proof.Proof.HostArgs0
import proofs.«168620_j7301444403985_1_alg».proof.Proof.Region0
import proofs.«168620_j7301444403985_1_alg».proof.Proof.RefRows
import proofs.«168620_j7301444403985_1_alg».proof.Proof.LibSagePadded

set_option maxRecDepth 16384

noncomputable section

namespace Cert.KernelIdeal.Whole

open Cert.KernelIdeal Cert.KernelIdeal.Gen Cert.KernelIdeal.Host Cert.KernelIdeal.Layers Cert.Lib
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first region's result array is the layer's function of what the region found. -/
theorem W7_v56 (c : Dev nD) : W7 m ρ c (Proc.devRef .tc main_v56) = G0 (V6 m ρ) c :=
  (W7_arr m ρ c 9).trans (arr0 (V6 m ρ) c)

/-- The first 304096 rows of the first region's result are the reference's rectified paper stage. -/
theorem paper0 (c : Dev nD) :
    extractStridedSlice S304096x256 ![0, 0] (W7 m ρ c (Proc.devRef .tc main_v56)) slices_S305152x256_S304096x256_0_0
      = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg22)) (m ((c : Thread nD τ).loc main_arg23)) (m ((c : Thread nD τ).loc main_arg24)) (m ((c : Thread nD τ).loc main_arg25)) := by
  rw [Cert.ReferenceIdeal.Rows.paper0_eq, W7_v56]
  funext i
  obtain ⟨a, j, rfl⟩ : ∃ (a : Fin 304096) (j : Fin 256), i = ix2 a j := ⟨i 0, i 1, eq_ix2 i⟩
  have ha : a.val < 305152 := by have := a.isLt; omega
  rw [slice2_axis0_apply 0 (G0 (V6 m ρ) c) slices_S305152x256_S304096x256_0_0 a j ⟨a.val, ha⟩ (Nat.zero_add _).symm]
  show sageDual (W6 m ρ c (Proc.devRef .tc main_v53)) (W6 m ρ c (Proc.devRef .tc main_v54))
      (W6 m ρ c (Proc.devRef .tc main_v55)) (W6 m ρ c (Proc.devRef .tc main_arg2)) (W6 m ρ c (Proc.devRef .tc main_arg4))
      (W6 m ρ c (Proc.devRef .tc main_arg5)) (W6 m ρ c (Proc.devRef .tc main_arg7)) (W6 m ρ c (Proc.devRef .tc main_arg3))
      (W6 m ρ c (Proc.devRef .tc main_arg6)) z0 (ix2 (⟨a.val, ha⟩ : Fin 305152) j) = _
  rw [W6_v53, W6_v54, W6_v55, W6_arg2, W6_arg3, W6_arg4, W6_arg5, W6_arg6, W6_arg7]
  exact sageDual_pad_rows _ _ _ _ _ _ pads_S304096x128_S305152x128_010560_000 h_S_ h_S_ h_S_ _ _ _ _ _ _ _
    (⟨a.val, ha⟩ : Fin 305152) a j rfl

end Cert.KernelIdeal.Whole

end
-- ==== Proof.Region1.lean ====
/-
  The second kernel region: the rectified one-relation layer on the padded author rows.

  Each grid point t works on rows 2048·t … 2048·t + 2047 of two padded arrays (the aggregated mean and the node
  features), with the two weight arrays and the bias vector whole, and writes the same rows of the result.  At row p and
  feature j the body's value is the relation's convolution of row p, rectified: it reads row p of the padded arrays only,
  so the result array is that function of whatever the region found in its arrays.
-/
import proofs.«168620_j7301444403985_1_alg».proof.Proof.Region0

set_option maxRecDepth 16384

noncomputable section

namespace Cert.KernelIdeal.Layers

open Cert.KernelIdeal Cert.KernelIdeal.Gen Cert.Lib
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's result as one function of the arrays it finds. -/
def G1 (c : Dev nD) : S155648x256.Idx → Elt Ideal .f32 :=
  sageSingle (V c main_v83) (V c main_v84) (V c main_arg8) (V c main_arg10) (V c main_arg9) z0

/-- The body's arithmetic as one closed term of its loaded blocks. -/
theorem pay1_eq (x0 x1 : Vec Ideal S2048x128 .f32) (w2 w4 : Vec Ideal S128x256 .f32) (b3 : Vec Ideal S256 .f32) :
    k1_pay1 (F := Ideal) x0 x1 w2 w4 b3
      = maximumf (addf (addf
          (matmul (φ₁ := .bf16) (φ₂ := .bf16) (DotDims.plain 2048 128 256) none (shapeCast S2048x128 x0 shapeCasts_S2048x128_S2048x128) w2 (constant ⟨2, ![2048, 256]⟩ .f32 0x00000000#32))
          (matmul (φ₁ := .bf16) (φ₂ := .bf16) (DotDims.plain 2048 128 256) none (shapeCast S2048x128 x1 shapeCasts_S2048x128_S2048x128) w4 (constant ⟨2, ![2048, 256]⟩ .f32 0x00000000#32)))
          (broadcastTo ⟨2, ![2048, 256]⟩ (shapeCast ⟨2, ![1, 256]⟩ b3 shapeCasts_S256_S1x256) broadcasts_S1x256_S2048x256))
        (broadcast ⟨2, ![2048, 256]⟩ z0) := rfl

/-- The body's value at row `a` of the block and feature `j`. -/
theorem pay1_apply (x0 x1 : Vec Ideal S2048x128 .f32) (w2 w4 : Vec Ideal S128x256 .f32) (b3 : Vec Ideal S256 .f32)
    (a : Fin 2048) (j : Fin 256) :
    k1_pay1 (F := Ideal) x0 x1 w2 w4 b3 (ix2 a j)
      = max (((∑ c : Fin 128, x0 (ix2 a c) * w2 (ix2 c j)) + b3 (ix1 j)) + ∑ c : Fin 128, x1 (ix2 a c) * w4 (ix2 c j)) z0 := by
  rw [pay1_eq, single_body_apply, bias_rows_apply, shapeCast_self, shapeCast_self]
  rfl

/-- The printed index maps, decided over the grid: the two row-block windows and the result move with the point along
    the rows, the weights and the bias stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `2048·t …` of the array it stages. -/
theorem blk1_0 (c : Dev nD) (t : Fin cfg1.N) (a : Fin 2048) (cc : Fin 128) (p : Fin 155648) (hp : p.val = t.val * 2048 + a.val) :
    (iblk1 V c 0 t : Vec Ideal S2048x128 .f32) (ix2 a cc) = (V c main_v83 : S155648x128.Idx → Elt Ideal .f32) (ix2 p cc) := by
  obtain ⟨h0, h1, -, -, -, -, -, -, -, -, -⟩ := idx1 t
  unfold iblk1
  rw [View.read_apply]
  show V c main_v83 _ = V c main_v83 _
  congr 1
  funext ax
  apply Fin.ext
  match ax with
  | ⟨0, _⟩ => show win1_0.index t 0 * 2048 + 1 * a.val = p.val; omega
  | ⟨1, _⟩ => show win1_0.index t 1 * 128 + 1 * cc.val = cc.val; omega

/-- Window 1's block at point `t` is rows `2048·t …` of the array it stages. -/
theorem blk1_1 (c : Dev nD) (t : Fin cfg1.N) (a : Fin 2048) (cc : Fin 128) (p : Fin 155648) (hp : p.val = t.val * 2048 + a.val) :
    (iblk1 V c 1 t : Vec Ideal S2048x128 .f32) (ix2 a cc) = (V c main_v84 : S155648x128.Idx → Elt Ideal .f32) (ix2 p cc) := by
  obtain ⟨-, -, h0, h1, -, -, -, -, -, -, -⟩ := idx1 t
  unfold iblk1
  rw [View.read_apply]
  show V c main_v84 _ = V c main_v84 _
  congr 1
  funext ax
  apply Fin.ext
  match ax with
  | ⟨0, _⟩ => show win1_1.index t 0 * 2048 + 1 * a.val = p.val; omega
  | ⟨1, _⟩ => show win1_1.index t 1 * 128 + 1 * cc.val = cc.val; omega

/-- Window 2 stages its whole weight array at every point. -/
theorem blk1_2 (c : Dev nD) (t : Fin cfg1.N) (cc : Fin 128) (j : Fin 256) :
    (iblk1 V c 2 t : Vec Ideal S128x256 .f32) (ix2 cc j) = (V c main_arg8 : S128x256.Idx → Elt Ideal .f32) (ix2 cc j) := by
  obtain ⟨-, -, -, -, h0, h1, -, -, -, -, -⟩ := idx1 t
  unfold iblk1
  rw [View.read_apply]
  show V c main_arg8 _ = V c main_arg8 _
  congr 1
  funext ax
  apply Fin.ext
  match ax with
  | ⟨0, _⟩ => show win1_2.index t 0 * 128 + 1 * cc.val = cc.val; omega
  | ⟨1, _⟩ => show win1_2.index t 1 * 256 + 1 * j.val = j.val; omega

/-- Window 3 stages its whole bias vector at every point. -/
theorem blk1_3 (c : Dev nD) (t : Fin cfg1.N) (j : Fin 256) :
    (iblk1 V c 3 t : Vec Ideal S256 .f32) (ix1 j) = (V c main_arg9 : S256.Idx → Elt Ideal .f32) (ix1 j) := by
  obtain ⟨-, -, -, -, -, -, h0, -, -, -, -⟩ := idx1 t
  unfold iblk1
  rw [View.read_apply]
  show V c main_arg9 _ = V c main_arg9 _
  congr 1
  funext ax
  apply Fin.ext
  match ax with
  | ⟨0, _⟩ => show win1_3.index t 0 * 256 + 1 * j.val = j.val; omega

/-- Window 4 stages its whole weight array at every point. -/
theorem blk1_4 (c : Dev nD) (t : Fin cfg1.N) (cc : Fin 128) (j : Fin 256) :
    (iblk1 V c 4 t : Vec Ideal S128x256 .f32) (ix2 cc j) = (V c main_arg10 : S128x256.Idx → Elt Ideal .f32) (ix2 cc j) := by
  obtain ⟨-, -, -, -, -, -, -, h0, h1, -, -⟩ := idx1 t
  unfold iblk1
  rw [View.read_apply]
  show V c main_arg10 _ = V c main_arg10 _
  congr 1
  funext ax
  apply Fin.ext
  match ax with
  | ⟨0, _⟩ => show win1_4.index t 0 * 128 + 1 * cc.val = cc.val; omega
  | ⟨1, _⟩ => show win1_4.index t 1 * 256 + 1 * j.val = j.val; omega

/-- What point `t` writes back is block `t` of `G1`: at row `a` of the block the body reads row `2048·t + a` of the two
    padded arrays and the whole weights and bias. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S2048x128) hz2, View.ld_unit_zero (S := S128x256) hz2, View.ld_unit_zero (S := S256) hz1]
  funext y
  obtain ⟨a, j, rfl⟩ : ∃ (a : Fin 2048) (j : Fin 256), y = ix2 a j := ⟨y 0, y 1, eq_ix2 y⟩
  have hN : cfg1.N = 76 := N_1
  have hlt : t.val * 2048 + a.val < 155648 := by have := t.isLt; have := a.isLt; omega
  obtain ⟨-, -, -, -, -, -, -, -, -, h0, h1⟩ := idx1 t
  have hemb : ((cfg1.win 5).blk t).view.emb (ix2 a j) = (ix2 (⟨t.val * 2048 + a.val, hlt⟩ : Fin 155648) j : S155648x256.Idx) := by
    funext ax
    apply Fin.ext
    match ax with
    | ⟨0, _⟩ => show win1_5.index t 0 * 2048 + 1 * a.val = t.val * 2048 + a.val; omega
    | ⟨1, _⟩ => show win1_5.index t 1 * 256 + 1 * j.val = j.val; omega
  rw [View.read_apply, hemb]
  refine (pay1_apply (iblk1 V c 0 t) (iblk1 V c 1 t) (iblk1 V c 2 t) (iblk1 V c 4 t) (iblk1 V c 3 t) a j).trans ?_
  simp only [fun cc => blk1_0 V c t a cc ⟨_, hlt⟩ rfl, fun cc => blk1_1 V c t a cc ⟨_, hlt⟩ rfl,
    blk1_2 V c t, blk1_4 V c t, blk1_3 V c t]
  rfl

/-- An index of the result array is in point `t`'s block iff each coordinate is in the block's range on its axis. -/
theorem mem_blk1 (t : Fin cfg1.N) (i : S155648x256.Idx) :
    i ∈ ((cfg1.win 5).blk t).view.set ↔ ∀ a : Fin 2, win1_5.index t a * S2048x256.size a ≤ (i a).val
      ∧ (i a).val < win1_5.index t a * S2048x256.size a + S2048x256.size a := by
  show i ∈ ((View.whole main_v85).slice (win1_5.rect t)).set ↔ _
  rw [View.set_slice_whole, Rect.mem_set_unit]
  exact Iff.rfl

/-- The blocks tile the result array (row `r` lies in block `r / 2048`), so after the region it holds `G1` of what the
    region found. -/
theorem arr1 (c : Dev nD) : (dat1 V c).arrAt 5 cfg1.N = G1 V c :=
  (dat1 V c).arrAt_eq_of_cover 5 (G1 V c) (fun t _ => flushed1_eq V c t) fun i => by
    have hi0 : (i 0).val < 155648 := (i 0).isLt
    have hi1 : (i 1).val < 256 := (i 1).isLt
    have hN : cfg1.N = 76 := N_1
    have hq : (i 0).val / 2048 < cfg1.N := by omega
    obtain ⟨-, -, -, -, -, -, -, -, -, h0, h1⟩ := idx1 ⟨(i 0).val / 2048, hq⟩
    refine ⟨⟨(i 0).val / 2048, hq⟩, flush1_5 _, ?_⟩
    rw [mem_blk1]
    intro a
    match a with
    | ⟨0, _⟩ =>
      show win1_5.index ⟨(i 0).val / 2048, hq⟩ 0 * 2048 ≤ (i 0).val
        ∧ (i 0).val < win1_5.index ⟨(i 0).val / 2048, hq⟩ 0 * 2048 + 2048
      rw [h0]; show (i 0).val / 2048 * 2048 ≤ (i 0).val ∧ (i 0).val < (i 0).val / 2048 * 2048 + 2048; omega
    | ⟨1, _⟩ =>
      show win1_5.index ⟨(i 0).val / 2048, hq⟩ 1 * 256 ≤ (i 1).val
        ∧ (i 1).val < win1_5.index ⟨(i 0).val / 2048, hq⟩ 1 * 256 + 256
      rw [h1]; omega

end Cert.KernelIdeal.Layers

end
-- ==== Proof.Author0.lean ====
/-
  The author layer: the second kernel region against the reference's second rectified stage.

  The second region finds the third relation's mean and the author features with zero rows appended, and its three
  parameter arrays as launched; it leaves in its result the rectified one-relation layer of what it found, row by row.
  Row a < 154096 of that result reads row a of the arrays before padding: the first 154096 rows are the reference's
  stage.
-/
import proofs.«168620_j7301444403985_1_alg».proof.Proof.HostEntry1
import proofs.«168620_j7301444403985_1_alg».proof.Proof.HostArgsB
import proofs.«168620_j7301444403985_1_alg».proof.Proof.Region1
import proofs.«168620_j7301444403985_1_alg».proof.Proof.RefRows
import proofs.«168620_j7301444403985_1_alg».proof.Proof.LibSagePadded

set_option maxRecDepth 16384

noncomputable section

namespace Cert.KernelIdeal.Whole

open Cert.KernelIdeal Cert.KernelIdeal.Gen Cert.KernelIdeal.Host Cert.KernelIdeal.Layers Cert.Lib
open Idealize.ShloMosaic Idealize.ShloMosaic.TcCoe Idealize.ShloMosaic.ValueIdx Idealize.SL.Sem

variable (m : (ℓ : Loc nD τ sig) → Buf (Elt Ideal) ℓ) (ρ : Dev nD → PrngReg)

/-- The second region's result array is the layer's function of what the region found. -/
theorem W12_v85 (c : Dev nD) : W12 m ρ c (Proc.devRef .tc main_v85) = G1 (V11 m ρ) c :=
  (W12_arr m ρ c 5).trans (arr1 (V11 m ρ) c)

/-- The first 154096 rows of the second region's result are the reference's rectified author stage. -/
theorem author0 (c : Dev nD) :
    extractStridedSlice S154096x256 ![0, 0] (W12 m ρ c (Proc.devRef .tc main_v85)) slices_S155648x256_S154096x256_0_0
      = Cert.ReferenceIdeal.Read.val_main_v98 (F := Ideal) (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg26)) (m ((c : Thread nD τ).loc main_arg27)) := by
  rw [Cert.ReferenceIdeal.Rows.author0_eq, W12_v85]
  funext i
  obtain ⟨a, j, rfl⟩ : ∃ (a : Fin 154096) (j : Fin 256), i = ix2 a j := ⟨i 0, i 1, eq_ix2 i⟩
  have ha : a.val < 155648 := by have := a.isLt; omega
  rw [slice2_axis0_apply 0 (G1 (V11 m ρ) c) slices_S155648x256_S154096x256_0_0 a j ⟨a.val, ha⟩ (Nat.zero_add _).symm]
  show sageSingle (W11 m ρ c (Proc.devRef .tc main_v83)) (W11 m ρ c (Proc.devRef .tc main_v84))
      (W11 m ρ c (Proc.devRef .tc main_arg8)) (W11 m ρ c (Proc.devRef .tc main_arg10))
      (W11 m ρ c (Proc.devRef .tc main_arg9)) z0 (ix2 (⟨a.val, ha⟩ : Fin 155648) j) = _
  rw [W11_v83, W11_v84, W11_arg8, W11_arg10, W11_arg9]
  exact sageSingle_pad_rows _ _ _ _ pads_S154096x128_S155648x128_015520_000 h_S_ h_S_ _ _ _ _
    (⟨a.val, ha⟩ : Fin 155648) a j rfl

end Cert.KernelIdeal.Whole

end
-- ==== Proof.HostEntry2.lean ====
/-
  What the host operations between the second and the third kernel region leave.

  After the second region the program keeps the first 154096 rows of its result (the author layer), trims the paper and
  the author layer to the nodes the second layer keeps, computes the second layer's two means from them along the first
  hop lists, and appends 352 zero rows to the two means and to the trimmed paper layer; the third region's windows stage
  these three padded arrays.  The two layers are the reference's rectified stages (the two bridges before this module),
  so the means and the trimmed layer are the reference's stage terms of the same arguments.
-/
import proofs.«168620_j7301444403985_1_alg».proof.Proof.HostEntry1
import proofs.«168620_j7301444403985_1_alg».proof.Proof.HostArgsC
import proofs.«168620_j7301444403985_1_alg».proof.Proof.Paper0
import proofs.«168620_j7301444403985_1_alg».proof.Proof.Author0

set_option maxRecDepth 16384
set_option Elab.async false

noncomputable section

namespace Cert.KernelIdeal.Host

open Cert.KernelIdeal Cert.KernelIdeal.Gen Cert.KernelIdeal.Whole
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the sixty-six operations that follow the second region -/

set_option maxHeartbeats 40000000 in
/-- The trimmed paper layer is the reference's trimmed stage. -/
theorem W13_v87 (c : Dev nD) :
    W13 m ρ c (Proc.devRef .tc main_v87)
      = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg22)) (m ((c : Thread nD τ).loc main_arg23)) (m ((c : Thread nD τ).loc main_arg24)) (m ((c : Thread nD τ).loc main_arg25)) := by
  dsimp only [W13, hostOps2]
  after_results_simp
  rw [W12_v57, paper0]
  rfl

set_option maxHeartbeats 40000000 in
/-- The second layer's cites mean is the reference's mean stage. -/
theorem W13_v113 (c : Dev nD) :
    W13 m ρ c (Proc.devRef .tc main_v113)
      = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg22)) (m ((c : Thread nD τ).loc main_arg23)) (m ((c : Thread nD τ).loc main_arg24)) (m ((c : Thread nD τ).loc main_arg25)) := by
  dsimp only [W13, hostOps2]
  after_results_simp
  rw [W12_v57, paper0, W12_arg22]
  rfl

set_option maxHeartbeats 40000000 in
/-- The second layer's writes mean is the reference's mean stage. -/
theorem W13_v138 (c : Dev nD) :
    W13 m ρ c (Proc.devRef .tc main_v138)
      = Cert.ReferenceIdeal.Read.val_main_v156 (F := Ideal) (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg24)) (m ((c : Thread nD τ).loc main_arg26)) (m ((c : Thread nD τ).loc main_arg27)) := by
  dsimp only [W13, hostOps2]
  after_results_simp
  rw [author0, W12_arg24]
  rfl

/-! ## Entering the third region -/

set_option maxHeartbeats 4000000 in
/-- The third region's first window's array is the second layer's cites mean with zero rows appended (the padding value
    is the preceding stretch's integer zero, converted). -/
theorem W18_v139 (c : Dev nD) :
    W18 m ρ c (Proc.devRef .tc main_v139)
      = pad S104448x256 ![0, 0] ![352, 0] ![0, 0]
          (Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg22)) (m ((c : Thread nD τ).loc main_arg23)) (m ((c : Thread nD τ).loc main_arg24)) (m ((c : Thread nD τ).loc main_arg25)))
          (sitofp (F := Ideal) .f32 (W13 m ρ c (Proc.devRef .tc main_c_33) : IVec S_ 32))
          pads_S104096x256_S104448x256_03520_000 h_S_ := by
  have h := W13_v113 m ρ c
  dsimp only [W18, W17, W16, W15, W14, hostOps2_1, hostOps2_2, hostOps2_3, hostOps2_4, hostOps2_5]
  generalize W13 m ρ c = U at h ⊢
  after_results_simp
  rw [← h]
  rfl

set_option maxHeartbeats 4000000 in
/-- Its second window's array is the second layer's writes mean with zero rows appended. -/
theorem W18_v140 (c : Dev nD) :
    W18 m ρ c (Proc.devRef .tc main_v140)
      = pad S104448x256 ![0, 0] ![352, 0] ![0, 0]
          (Cert.ReferenceIdeal.Read.val_main_v156 (F := Ideal) (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg24)) (m ((c : Thread nD τ).loc main_arg26)) (m ((c : Thread nD τ).loc main_arg27)))
          (sitofp (F := Ideal) .f32 (constantI S_ 32 0#32)) pads_S104096x256_S104448x256_03520_000 h_S_ := by
  have h := W13_v138 m ρ c
  dsimp only [W18, W17, W16, W15, W14, hostOps2_1, hostOps2_2, hostOps2_3, hostOps2_4, hostOps2_5]
  generalize W13 m ρ c = U at h ⊢
  after_results_simp
  rw [← h]
  rfl

set_option maxHeartbeats 4000000 in
/-- Its third window's array is the trimmed paper layer with zero rows appended. -/
theorem W18_v141 (c : Dev nD) :
    W18 m ρ c (Proc.devRef .tc main_v141)
      = pad S104448x256 ![0, 0] ![352, 0] ![0, 0]
          (Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg22)) (m ((c : Thread nD τ).loc main_arg23)) (m ((c : Thread nD τ).loc main_arg24)) (m ((c : Thread nD τ).loc main_arg25)))
          (sitofp (F := Ideal) .f32 (constantI S_ 32 0#32)) pads_S104096x256_S104448x256_03520_000 h_S_ := by
  have h := W13_v87 m ρ c
  dsimp only [W18, W17, W16, W15, W14, hostOps2_1, hostOps2_2, hostOps2_3, hostOps2_4, hostOps2_5]
  generalize W13 m ρ c = U at h ⊢
  after_results_simp
  rw [← h]
  rfl

end Cert.KernelIdeal.Host

end
-- ==== Proof.Region2.lean ====
/-
  The third kernel region: the second layer and the final linear layer, fused, on the padded rows.

  Each grid point t works on rows 2048·t … 2048·t + 2047 of three padded arrays (the two aggregated means and the hidden
  features), with six weight and bias arrays of the second layer and the final weight and bias whole, and writes the same
  rows of the result.  At row p the body first forms, for every hidden feature d, the two relations' convolutions of row
  p, added and rectified, and then sends that row through the final weight and adds the final bias.  It reads row p of
  the padded arrays only, so the result array is that function of whatever the region found in its arrays.
-/
import proofs.«168620_j7301444403985_1_alg».proof.Proof.Region0

set_option maxRecDepth 16384

noncomputable section

namespace Cert.KernelIdeal.Layers

open Cert.KernelIdeal Cert.KernelIdeal.Gen Cert.Lib
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's result as one function of the arrays it finds. -/
def G2 (c : Dev nD) : S104448x64.Idx → Elt Ideal .f32 :=
  linearRows (sageDual (V c main_v139) (V c main_v140) (V c main_v141) (V c main_arg11) (V c main_arg13) (V c main_arg14)
    (V c main_arg16) (V c main_arg12) (V c main_arg15) z0) (V c main_arg20) (V c main_arg21)

/-- The hidden rows' arithmetic as one closed term of the loaded blocks (the closing change of format is the identity
    on the extended reals). -/
theorem hid2_eq (x0 x1 x2 : Vec Ideal S2048x256 .f32) (w3 w5 w6 w8 : Vec Ideal S256x256 .f32) (b4 b7 : Vec Ideal S256 .f32) :
    k2_pay2 (F := Ideal) x0 x1 x2 w3 w5 w6 w8 b4 b7
      = maximumf (addf (addf (addf (addf (addf
          (matmul (φ₁ := .bf16) (φ₂ := .bf16) (DotDims.plain 2048 256 256) none (shapeCast S2048x256 x0 shapeCasts_S2048x256_S2048x256) w3 (constant ⟨2, ![2048, 256]⟩ .f32 0x00000000#32))
          (matmul (φ₁ := .bf16) (φ₂ := .bf16) (DotDims.plain 2048 256 256) none (shapeCast S2048x256 x2 shapeCasts_S2048x256_S2048x256) w5 (constant ⟨2, ![2048, 256]⟩ .f32 0x00000000#32)))
          (broadcastTo ⟨2, ![2048, 256]⟩ (shapeCast ⟨2, ![1, 256]⟩ b4 shapeCasts_S256_S1x256) broadcasts_S1x256_S2048x256))
          (matmul (φ₁ := .bf16) (φ₂ := .bf16) (DotDims.plain 2048 256 256) none (shapeCast S2048x256 x1 shapeCasts_S2048x256_S2048x256) w6 (constant ⟨2, ![2048, 256]⟩ .f32 0x00000000#32)))
          (matmul (φ₁ := .bf16) (φ₂ := .bf16) (DotDims.plain 2048 256 256) none (shapeCast S2048x256 x2 shapeCasts_S2048x256_S2048x256) w8 (constant ⟨2, ![2048, 256]⟩ .f32 0x00000000#32)))
          (broadcastTo ⟨2, ![2048, 256]⟩ (shapeCast ⟨2, ![1, 256]⟩ b7 shapeCasts_S256_S1x256) broadcasts_S1x256_S2048x256))
        (broadcast ⟨2, ![2048, 256]⟩ z0) := rfl

/-- The hidden value at row `a` of the block and hidden feature `d`. -/
theorem hid2_apply (x0 x1 x2 : Vec Ideal S2048x256 .f32) (w3 w5 w6 w8 : Vec Ideal S256x256 .f32) (b4 b7 : Vec Ideal S256 .f32)
    (a : Fin 2048) (d : Fin 256) :
    k2_pay2 (F := Ideal) x0 x1 x2 w3 w5 w6 w8 b4 b7 (ix2 a d)
      = max ((((∑ c : Fin 256, x0 (ix2 a c) * w3 (ix2 c d)) + b4 (ix1 d)) + ∑ c : Fin 256, x2 (ix2 a c) * w5 (ix2 c d))
            + (((∑ c : Fin 256, x1 (ix2 a c) * w6 (ix2 c d)) + b7 (ix1 d)) + ∑ c : Fin 256, x2 (ix2 a c) * w8 (ix2 c d))) z0 := by
  rw [hid2_eq, dual_body_apply, bias_rows_apply, bias_rows_apply, shapeCast_self, shapeCast_self, shapeCast_self]
  rfl

/-- The final layer's arithmetic as one closed term of the hidden rows and the loaded weight and bias. -/
theorem lin2_eq (y : FVec Ideal S2048x256 .bf16) (w9 : Vec Ideal S256x64 .f32) (b10 : Vec Ideal S64 .f32) :
    k2_pay1 (F := Ideal) y w9 b10
      = addf (matmul (φ₁ := .bf16) (φ₂ := .bf16) (DotDims.plain 2048 256 64) none y w9 (constant ⟨2, ![2048, 64]⟩ .f32 0x00000000#32))
          (broadcastTo ⟨2, ![2048, 64]⟩ (shapeCast ⟨2, ![1, 64]⟩ b10 shapeCasts_S64_S1x64) broadcasts_S1x64_S2048x64) := rfl

/-- The final layer's value at row `a` of the block and output feature `j`. -/
theorem lin2_apply (y : FVec Ideal S2048x256 .bf16) (w9 : Vec Ideal S256x64 .f32) (b10 : Vec Ideal S64 .f32)
    (a : Fin 2048) (j : Fin 64) :
    k2_pay1 (F := Ideal) y w9 b10 (ix2 a j) = (∑ d : Fin 256, y (ix2 a d) * w9 (ix2 d j)) + b10 (ix1 j) := by
  rw [lin2_eq, linear_body_apply, bias_rows_apply]

/-- The body's value at row `a` of the block and output feature `j`: the hidden row through the final weight, plus
    the final bias. -/
theorem pay2_apply (x0 x1 x2 : Vec Ideal S2048x256 .f32) (w3 w5 w6 w8 : Vec Ideal S256x256 .f32) (b4 b7 : Vec Ideal S256 .f32)
    (w9 : Vec Ideal S256x64 .f32) (b10 : Vec Ideal S64 .f32) (a : Fin 2048) (j : Fin 64) :
    k2_pay1 (F := Ideal) (k2_pay2 (F := Ideal) x0 x1 x2 w3 w5 w6 w8 b4 b7) w9 b10 (ix2 a j)
      = (∑ d : Fin 256,
          max ((((∑ c : Fin 256, x0 (ix2 a c) * w3 (ix2 c d)) + b4 (ix1 d)) + ∑ c : Fin 256, x2 (ix2 a c) * w5 (ix2 c d))
              + (((∑ c : Fin 256, x1 (ix2 a c) * w6 (ix2 c d)) + b7 (ix1 d)) + ∑ c : Fin 256, x2 (ix2 a c) * w8 (ix2 c d))) z0
            * w9 (ix2 d j)) + b10 (ix1 j) := by
  rw [lin2_apply]
  refine congrArg (· + b10 (ix1 j)) (Finset.sum_congr rfl fun d _ => ?_)
  rw [hid2_apply]

/-- The printed index maps, decided over the grid: the three row-block windows and the result move with the point along
    the rows, the weights and biases stay. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 1) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 1) = 0
    ∧ win2_11.index t (0 : Fin 2) = t.val ∧ win2_11.index t (1 : Fin 2) = 0 :=
  (by decide +kernel : ∀ t : Fin grid2.N, _)

/-- Window 0's block at point `t` is rows `2048·t …` of the array it stages. -/
theorem blk2_0 (c : Dev nD) (t : Fin cfg2.N) (a : Fin 2048) (cc : Fin 256) (p : Fin 104448) (hp : p.val = t.val * 2048 + a.val) :
    (iblk2 V c 0 t : Vec Ideal S2048x256 .f32) (ix2 a cc) = (V c main_v139 : S104448x256.Idx → Elt Ideal .f32) (ix2 p cc) := by
  obtain ⟨h0, h1, -, -, -, -, -, -, -, -, -, -, -, -, -, -, -, -, -, -, -⟩ := idx2 t
  unfold iblk2
  rw [View.read_apply]
  show V c main_v139 _ = V c main_v139 _
  congr 1
  funext ax
  apply Fin.ext
  match ax with
  | ⟨0, _⟩ => show win2_0.index t 0 * 2048 + 1 * a.val = p.val; omega
  | ⟨1, _⟩ => show win2_0.index t 1 * 256 + 1 * cc.val = cc.val; omega

/-- Window 1's block at point `t` is rows `2048·t …` of the array it stages. -/
theorem blk2_1 (c : Dev nD) (t : Fin cfg2.N) (a : Fin 2048) (cc : Fin 256) (p : Fin 104448) (hp : p.val = t.val * 2048 + a.val) :
    (iblk2 V c 1 t : Vec Ideal S2048x256 .f32) (ix2 a cc) = (V c main_v140 : S104448x256.Idx → Elt Ideal .f32) (ix2 p cc) := by
  obtain ⟨-, -, h0, h1, -, -, -, -, -, -, -, -, -, -, -, -, -, -, -, -, -⟩ := idx2 t
  unfold iblk2
  rw [View.read_apply]
  show V c main_v140 _ = V c main_v140 _
  congr 1
  funext ax
  apply Fin.ext
  match ax with
  | ⟨0, _⟩ => show win2_1.index t 0 * 2048 + 1 * a.val = p.val; omega
  | ⟨1, _⟩ => show win2_1.index t 1 * 256 + 1 * cc.val = cc.val; omega

/-- Window 2's block at point `t` is rows `2048·t …` of the array it stages. -/
theorem blk2_2 (c : Dev nD) (t : Fin cfg2.N) (a : Fin 2048) (cc : Fin 256) (p : Fin 104448) (hp : p.val = t.val * 2048 + a.val) :
    (iblk2 V c 2 t : Vec Ideal S2048x256 .f32) (ix2 a cc) = (V c main_v141 : S104448x256.Idx → Elt Ideal .f32) (ix2 p cc) := by
  obtain ⟨-, -, -, -, h0, h1, -, -, -, -, -, -, -, -, -, -, -, -, -, -, -⟩ := idx2 t
  unfold iblk2
  rw [View.read_apply]
  show V c main_v141 _ = V c main_v141 _
  congr 1
  funext ax
  apply Fin.ext
  match ax with
  | ⟨0, _⟩ => show win2_2.index t 0 * 2048 + 1 * a.val = p.val; omega
  | ⟨1, _⟩ => show win2_2.index t 1 * 256 + 1 * cc.val = cc.val; omega

/-- Window 3 stages its whole weight array at every point. -/
theorem blk2_3 (c : Dev nD) (t : Fin cfg2.N) (cc : Fin 256) (d : Fin 256) :
    (iblk2 V c 3 t : Vec Ideal S256x256 .f32) (ix2 cc d) = (V c main_arg11 : S256x256.Idx → Elt Ideal .f32) (ix2 cc d) := by
  obtain ⟨-, -, -, -, -, -, h0, h1, -, -, -, -, -, -, -, -, -, -, -, -, -⟩ := idx2 t
  unfold iblk2
  rw [View.read_apply]
  show V c main_arg11 _ = V c main_arg11 _
  congr 1
  funext ax
  apply Fin.ext
  match ax with
  | ⟨0, _⟩ => show win2_3.index t 0 * 256 + 1 * cc.val = cc.val; omega
  | ⟨1, _⟩ => show win2_3.index t 1 * 256 + 1 * d.val = d.val; omega

/-- Window 4 stages its whole bias vector at every point. -/
theorem blk2_4 (c : Dev nD) (t : Fin cfg2.N) (d : Fin 256) :
    (iblk2 V c 4 t : Vec Ideal S256 .f32) (ix1 d) = (V c main_arg12 : S256.Idx → Elt Ideal .f32) (ix1 d) := by
  obtain ⟨-, -, -, -, -, -, -, -, h0, -, -, -, -, -, -, -, -, -, -, -, -⟩ := idx2 t
  unfold iblk2
  rw [View.read_apply]
  show V c main_arg12 _ = V c main_arg12 _
  congr 1
  funext ax
  apply Fin.ext
  match ax with
  | ⟨0, _⟩ => show win2_4.index t 0 * 256 + 1 * d.val = d.val; omega

/-- Window 5 stages its whole weight array at every point. -/
theorem blk2_5 (c : Dev nD) (t : Fin cfg2.N) (cc : Fin 256) (d : Fin 256) :
    (iblk2 V c 5 t : Vec Ideal S256x256 .f32) (ix2 cc d) = (V c main_arg13 : S256x256.Idx → Elt Ideal .f32) (ix2 cc d) := by
  obtain ⟨-, -, -, -, -, -, -, -, -, h0, h1, -, -, -, -, -, -, -, -, -, -⟩ := idx2 t
  unfold iblk2
  rw [View.read_apply]
  show V c main_arg13 _ = V c main_arg13 _
  congr 1
  funext ax
  apply Fin.ext
  match ax with
  | ⟨0, _⟩ => show win2_5.index t 0 * 256 + 1 * cc.val = cc.val; omega
  | ⟨1, _⟩ => show win2_5.index t 1 * 256 + 1 * d.val = d.val; omega

/-- Window 6 stages its whole weight array at every point. -/
theorem blk2_6 (c : Dev nD) (t : Fin cfg2.N) (cc : Fin 256) (d : Fin 256) :
    (iblk2 V c 6 t : Vec Ideal S256x256 .f32) (ix2 cc d) = (V c main_arg14 : S256x256.Idx → Elt Ideal .f32) (ix2 cc d) := by
  obtain ⟨-, -, -, -, -, -, -, -, -, -, -, h0, h1, -, -, -, -, -, -, -, -⟩ := idx2 t
  unfold iblk2
  rw [View.read_apply]
  show V c main_arg14 _ = V c main_arg14 _
  congr 1
  funext ax
  apply Fin.ext
  match ax with
  | ⟨0, _⟩ => show win2_6.index t 0 * 256 + 1 * cc.val = cc.val; omega
  | ⟨1, _⟩ => show win2_6.index t 1 * 256 + 1 * d.val = d.val; omega

/-- Window 7 stages its whole bias vector at every point. -/
theorem blk2_7 (c : Dev nD) (t : Fin cfg2.N) (d : Fin 256) :
    (iblk2 V c 7 t : Vec Ideal S256 .f32) (ix1 d) = (V c main_arg15 : S256.Idx → Elt Ideal .f32) (ix1 d) := by
  obtain ⟨-, -, -, -, -, -, -, -, -, -, -, -, -, h0, -, -, -, -, -, -, -⟩ := idx2 t
  unfold iblk2
  rw [View.read_apply]
  show V c main_arg15 _ = V c main_arg15 _
  congr 1
  funext ax
  apply Fin.ext
  match ax with
  | ⟨0, _⟩ => show win2_7.index t 0 * 256 + 1 * d.val = d.val; omega

/-- Window 8 stages its whole weight array at every point. -/
theorem blk2_8 (c : Dev nD) (t : Fin cfg2.N) (cc : Fin 256) (d : Fin 256) :
    (iblk2 V c 8 t : Vec Ideal S256x256 .f32) (ix2 cc d) = (V c main_arg16 : S256x256.Idx → Elt Ideal .f32) (ix2 cc d) := by
  obtain ⟨-, -, -, -, -, -, -, -, -, -, -, -, -, -, h0, h1, -, -, -, -, -⟩ := idx2 t
  unfold iblk2
  rw [View.read_apply]
  show V c main_arg16 _ = V c main_arg16 _
  congr 1
  funext ax
  apply Fin.ext
  match ax with
  | ⟨0, _⟩ => show win2_8.index t 0 * 256 + 1 * cc.val = cc.val; omega
  | ⟨1, _⟩ => show win2_8.index t 1 * 256 + 1 * d.val = d.val; omega

/-- Window 9 stages the whole final weight array at every point. -/
theorem blk2_9 (c : Dev nD) (t : Fin cfg2.N) (d : Fin 256) (j : Fin 64) :
    (iblk2 V c 9 t : Vec Ideal S256x64 .f32) (ix2 d j) = (V c main_arg20 : S256x64.Idx → Elt Ideal .f32) (ix2 d j) := by
  obtain ⟨-, -, -, -, -, -, -, -, -, -, -, -, -, -, -, -, h0, h1, -, -, -⟩ := idx2 t
  unfold iblk2
  rw [View.read_apply]
  show V c main_arg20 _ = V c main_arg20 _
  congr 1
  funext ax
  apply Fin.ext
  match ax with
  | ⟨0, _⟩ => show win2_9.index t 0 * 256 + 1 * d.val = d.val; omega
  | ⟨1, _⟩ => show win2_9.index t 1 * 64 + 1 * j.val = j.val; omega

/-- Window 10 stages the whole final bias vector at every point. -/
theorem blk2_10 (c : Dev nD) (t : Fin cfg2.N) (j : Fin 64) :
    (iblk2 V c 10 t : Vec Ideal S64 .f32) (ix1 j) = (V c main_arg21 : S64.Idx → Elt Ideal .f32) (ix1 j) := by
  obtain ⟨-, -, -, -, -, -, -, -, -, -, -, -, -, -, -, -, -, -, h0, -, -⟩ := idx2 t
  unfold iblk2
  rw [View.read_apply]
  show V c main_arg21 _ = V c main_arg21 _
  congr 1
  funext ax
  apply Fin.ext
  match ax with
  | ⟨0, _⟩ => show win2_10.index t 0 * 64 + 1 * j.val = j.val; omega

/-- What point `t` writes back is block `t` of `G2`: at row `a` of the block the body reads row `2048·t + a` of the three
    padded arrays and the whole weights and biases. -/
theorem flushed2_eq (c : Dev nD) (t : Fin cfg2.N) :
    (dat2 V c).flushed 11 t = ((cfg2.win 11).blk t).view.read (Elt Ideal) (G2 V c) := by
  show (cfg2.win 11).cut (grid2.coords t) ((dat2 V c).after 11 t) = _
  rw [after2_11]
  unfold out2_11
  rw [View.canon_unit_zero hz2]
  simp only [View.ld_unit_zero (S := S2048x256) hz2, View.ld_unit_zero (S := S256x256) hz2, View.ld_unit_zero (S := S256) hz1,
    View.ld_unit_zero (S := S256x64) hz2, View.ld_unit_zero (S := S64) hz1]
  funext y
  obtain ⟨a, j, rfl⟩ : ∃ (a : Fin 2048) (j : Fin 64), y = ix2 a j := ⟨y 0, y 1, eq_ix2 y⟩
  have hN : cfg2.N = 51 := N_2
  have hlt : t.val * 2048 + a.val < 104448 := by have := t.isLt; have := a.isLt; omega
  obtain ⟨-, -, -, -, -, -, -, -, -, -, -, -, -, -, -, -, -, -, -, h0, h1⟩ := idx2 t
  have hemb : ((cfg2.win 11).blk t).view.emb (ix2 a j) = (ix2 (⟨t.val * 2048 + a.val, hlt⟩ : Fin 104448) j : S104448x64.Idx) := by
    funext ax
    apply Fin.ext
    match ax with
    | ⟨0, _⟩ => show win2_11.index t 0 * 2048 + 1 * a.val = t.val * 2048 + a.val; omega
    | ⟨1, _⟩ => show win2_11.index t 1 * 64 + 1 * j.val = j.val; omega
  rw [View.read_apply, hemb]
  refine (pay2_apply (iblk2 V c 0 t) (iblk2 V c 1 t) (iblk2 V c 2 t) (iblk2 V c 3 t) (iblk2 V c 5 t) (iblk2 V c 6 t)
    (iblk2 V c 8 t) (iblk2 V c 4 t) (iblk2 V c 7 t) (iblk2 V c 9 t) (iblk2 V c 10 t) a j).trans ?_
  simp only [fun cc => blk2_0 V c t a cc ⟨_, hlt⟩ rfl, fun cc => blk2_1 V c t a cc ⟨_, hlt⟩ rfl,
    fun cc => blk2_2 V c t a cc ⟨_, hlt⟩ rfl, blk2_3 V c t, blk2_5 V c t, blk2_6 V c t, blk2_8 V c t, blk2_4 V c t, blk2_7 V c t,
    blk2_9 V c t, blk2_10 V c t]
  rfl

/-- An index of the result array is in point `t`'s block iff each coordinate is in the block's range on its axis. -/
theorem mem_blk2 (t : Fin cfg2.N) (i : S104448x64.Idx) :
    i ∈ ((cfg2.win 11).blk t).view.set ↔ ∀ a : Fin 2, win2_11.index t a * S2048x64.size a ≤ (i a).val
      ∧ (i a).val < win2_11.index t a * S2048x64.size a + S2048x64.size a := by
  show i ∈ ((View.whole main_v142).slice (win2_11.rect t)).set ↔ _
  rw [View.set_slice_whole, Rect.mem_set_unit]
  exact Iff.rfl

/-- The blocks tile the result array (row `r` lies in block `r / 2048`), so after the region it holds `G2` of what the
    region found. -/
theorem arr2 (c : Dev nD) : (dat2 V c).arrAt 11 cfg2.N = G2 V c :=
  (dat2 V c).arrAt_eq_of_cover 11 (G2 V c) (fun t _ => flushed2_eq V c t) fun i => by
    have hi0 : (i 0).val < 104448 := (i 0).isLt
    have hi1 : (i 1).val < 64 := (i 1).isLt
    have hN : cfg2.N = 51 := N_2
    have hq : (i 0).val / 2048 < cfg2.N := by omega
    obtain ⟨-, -, -, -, -, -, -, -, -, -, -, -, -, -, -, -, -, -, -, h0, h1⟩ := idx2 ⟨(i 0).val / 2048, hq⟩
    refine ⟨⟨(i 0).val / 2048, hq⟩, flush2_11 _, ?_⟩
    rw [mem_blk2]
    intro a
    match a with
    | ⟨0, _⟩ =>
      show win2_11.index ⟨(i 0).val / 2048, hq⟩ 0 * 2048 ≤ (i 0).val
        ∧ (i 0).val < win2_11.index ⟨(i 0).val / 2048, hq⟩ 0 * 2048 + 2048
      rw [h0]; show (i 0).val / 2048 * 2048 ≤ (i 0).val ∧ (i 0).val < (i 0).val / 2048 * 2048 + 2048; omega
    | ⟨1, _⟩ =>
      show win2_11.index ⟨(i 0).val / 2048, hq⟩ 1 * 64 ≤ (i 1).val
        ∧ (i 1).val < win2_11.index ⟨(i 0).val / 2048, hq⟩ 1 * 64 + 64
      rw [h1]; omega

end Cert.KernelIdeal.Layers

end
-- ==== Proof.Output.lean ====
/-
  The output: the third kernel region against the reference's result, and the idealized kernel's run.

  The third region finds the second layer's two means and the trimmed paper layer with zero rows appended, and its eight
  parameter arrays as launched; it leaves in its result the final linear layer of the rectified two-relation layer of
  what it found, row by row.  Row a < 104096 of that result reads row a of the arrays before padding, so the first
  104096 rows — what the program returns — are the reference's result term of the same arguments.  With the run that
  names every buffer by the fold of the program's segments this is the kernel's run: it terminates without a fault, its
  result buffer holds the reference's result term of its own arguments, and its arguments end unchanged.
-/
import proofs.«168620_j7301444403985_1_alg».proof.Proof.KernelRun
import proofs.«168620_j7301444403985_1_alg».proof.Proof.HostEntry2
import proofs.«168620_j7301444403985_1_alg».proof.Proof.Region2

set_option maxRecDepth 16384

noncomputable section

namespace Cert.KernelIdeal.Whole

open Cert.KernelIdeal Cert.KernelIdeal.Gen Cert.KernelIdeal.Host Cert.KernelIdeal.Layers Cert.Lib
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The third region's result array is the last two layers' function of what the region found. -/
theorem W19_v142 (c : Dev nD) : W19 m ρ c (Proc.devRef .tc main_v142) = G2 (V18 m ρ) c :=
  (W19_arr m ρ c 11).trans (arr2 (V18 m ρ) c)

/-- What the program returns — the first 104096 rows of the third region's result — is the reference's result term of the
    program's own arguments. -/
theorem W20_v143 (c : Dev nD) :
    W20 m ρ c (Proc.devRef .tc main_v143)
      = Cert.ReferenceIdeal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  have hs : W20 m ρ c (Proc.devRef .tc main_v143)
      = extractStridedSlice S104096x64 ![0, 0] (W19 m ρ c (Proc.devRef .tc main_v142)) slices_S104448x64_S104096x64_0_0 := by
    dsimp only [W20, hostOps3]
    after_results_simp <;> rfl
  rw [hs, Cert.ReferenceIdeal.Rows.out_eq, W19_v142]
  funext i
  obtain ⟨a, j, rfl⟩ : ∃ (a : Fin 104096) (j : Fin 64), i = ix2 a j := ⟨i 0, i 1, eq_ix2 i⟩
  have ha : a.val < 104448 := by have := a.isLt; omega
  rw [slice2_axis0_apply 0 (G2 (V18 m ρ) c) slices_S104448x64_S104096x64_0_0 a j ⟨a.val, ha⟩ (Nat.zero_add _).symm]
  show linearRows (sageDual (W18 m ρ c (Proc.devRef .tc main_v139)) (W18 m ρ c (Proc.devRef .tc main_v140))
      (W18 m ρ c (Proc.devRef .tc main_v141)) (W18 m ρ c (Proc.devRef .tc main_arg11)) (W18 m ρ c (Proc.devRef .tc main_arg13))
      (W18 m ρ c (Proc.devRef .tc main_arg14)) (W18 m ρ c (Proc.devRef .tc main_arg16)) (W18 m ρ c (Proc.devRef .tc main_arg12))
      (W18 m ρ c (Proc.devRef .tc main_arg15)) z0) (W18 m ρ c (Proc.devRef .tc main_arg20))
      (W18 m ρ c (Proc.devRef .tc main_arg21)) (ix2 (⟨a.val, ha⟩ : Fin 104448) j) = _
  rw [W18_v139, W18_v140, W18_v141, W18_arg11, W18_arg12, W18_arg13, W18_arg14, W18_arg15, W18_arg16, W18_arg20, W18_arg21]
  exact linearRows_congr _ _ _ _ (⟨a.val, ha⟩ : Fin 104448) a j fun cc =>
    sageDual_pad_rows _ _ _ _ _ _ pads_S104096x256_S104448x256_03520_000 h_S_ h_S_ h_S_ _ _ _ _ _ _ _
      (⟨a.val, ha⟩ : Fin 104448) a cc rfl

/-- The idealized kernel's run: every weakly fair execution terminates without a fault, the result buffer ends at the
    reference's result term of the kernel's own arguments, and the arguments end unchanged. -/
theorem run_value : θ_run defs (onTc (τ := τ) (main (F := Ideal))) ⟨m, fun _ => 0, ρ⟩ (fun r => ∀ c : Dev nD,
      r.2.mem ((c.tc : Thread nD τ).loc main_v143)
        = Cert.ReferenceIdeal.Read.val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c =>
    ⟨(h c _ (mem_uc main_v143 (by decide))).trans (W20_v143 m ρ c),
      (h c _ (mem_uc main_arg0 (by decide))).trans (W20_main_arg0 m ρ c),
      (h c _ (mem_uc main_arg1 (by decide))).trans (W20_main_arg1 m ρ c),
      (h c _ (mem_uc main_arg2 (by decide))).trans (W20_main_arg2 m ρ c),
      (h c _ (mem_uc main_arg3 (by decide))).trans (W20_main_arg3 m ρ c),
      (h c _ (mem_uc main_arg4 (by decide))).trans (W20_main_arg4 m ρ c),
      (h c _ (mem_uc main_arg5 (by decide))).trans (W20_main_arg5 m ρ c),
      (h c _ (mem_uc main_arg6 (by decide))).trans (W20_main_arg6 m ρ c),
      (h c _ (mem_uc main_arg7 (by decide))).trans (W20_main_arg7 m ρ c),
      (h c _ (mem_uc main_arg8 (by decide))).trans (W20_main_arg8 m ρ c),
      (h c _ (mem_uc main_arg9 (by decide))).trans (W20_main_arg9 m ρ c),
      (h c _ (mem_uc main_arg10 (by decide))).trans (W20_main_arg10 m ρ c),
      (h c _ (mem_uc main_arg11 (by decide))).trans (W20_main_arg11 m ρ c),
      (h c _ (mem_uc main_arg12 (by decide))).trans (W20_main_arg12 m ρ c),
      (h c _ (mem_uc main_arg13 (by decide))).trans (W20_main_arg13 m ρ c),
      (h c _ (mem_uc main_arg14 (by decide))).trans (W20_main_arg14 m ρ c),
      (h c _ (mem_uc main_arg15 (by decide))).trans (W20_main_arg15 m ρ c),
      (h c _ (mem_uc main_arg16 (by decide))).trans (W20_main_arg16 m ρ c),
      (h c _ (mem_uc main_arg17 (by decide))).trans (W20_main_arg17 m ρ c),
      (h c _ (mem_uc main_arg18 (by decide))).trans (W20_main_arg18 m ρ c),
      (h c _ (mem_uc main_arg19 (by decide))).trans (W20_main_arg19 m ρ c),
      (h c _ (mem_uc main_arg20 (by decide))).trans (W20_main_arg20 m ρ c),
      (h c _ (mem_uc main_arg21 (by decide))).trans (W20_main_arg21 m ρ c),
      (h c _ (mem_uc main_arg22 (by decide))).trans (W20_main_arg22 m ρ c),
      (h c _ (mem_uc main_arg23 (by decide))).trans (W20_main_arg23 m ρ c),
      (h c _ (mem_uc main_arg24 (by decide))).trans (W20_main_arg24 m ρ c),
      (h c _ (mem_uc main_arg25 (by decide))).trans (W20_main_arg25 m ρ c),
      (h c _ (mem_uc main_arg26 (by decide))).trans (W20_main_arg26 m ρ c),
      (h c _ (mem_uc main_arg27 (by decide))).trans (W20_main_arg27 m ρ c)⟩)
    (run_fold m ρ)

end Cert.KernelIdeal.Whole

end
-- ==== Proof.lean ====
/-
  The certificate's claims.

  The program is a two-layer graph network on two node types and three relations: per relation and layer, the mean of
  the gathered source rows per destination node, through one weight, plus a bias, plus the destination's own features
  through another weight; the relations into one node type added and rectified; a final linear layer on the paper nodes.
  The kernel computes the means on the host exactly as the reference does and each layer's dense part in a kernel region,
  on row blocks of zero-padded arrays, grouping the sum as ((((p₁ + q₁) + b₁) + p₂) + q₂) + b₂ where the reference has
  ((p₁ + b₁) + q₁) + ((p₂ + b₂) + q₂).  Over the extended reals these agree because addition is commutative and
  associative (also at infinite values: the precondition is never opened); the padded rows are cut off again.  So both
  programs end with the same result term of their arguments.  The three frames are the generated ones; the idealization
  rewrote no operation.
-/
import proofs.«168620_j7301444403985_1_alg».proof.Defs
import proofs.«168620_j7301444403985_1_alg».proof.Proof.Gen.Kernel
import proofs.«168620_j7301444403985_1_alg».proof.Proof.Gen.Kernel.Skeleton
import proofs.«168620_j7301444403985_1_alg».proof.Proof.Gen.Kernel.Launch
import proofs.«168620_j7301444403985_1_alg».proof.Proof.Gen.Kernel.Points
import proofs.«168620_j7301444403985_1_alg».proof.Proof.Gen.Kernel.Frame
import proofs.«168620_j7301444403985_1_alg».proof.Proof.Gen.KernelIdeal
import proofs.«168620_j7301444403985_1_alg».proof.Proof.Gen.KernelIdeal.Skeleton
import proofs.«168620_j7301444403985_1_alg».proof.Proof.Gen.KernelIdeal.Launch
import proofs.«168620_j7301444403985_1_alg».proof.Proof.Gen.KernelIdeal.Points
import proofs.«168620_j7301444403985_1_alg».proof.Proof.Gen.KernelIdeal.Frame
import proofs.«168620_j7301444403985_1_alg».proof.Proof.Gen.ReferenceIdeal
import proofs.«168620_j7301444403985_1_alg».proof.Proof.Gen.ReferenceIdeal.Run
import proofs.«168620_j7301444403985_1_alg».proof.Proof.Gen.ReferenceIdeal.Read
import proofs.«168620_j7301444403985_1_alg».proof.Proof.Gen.Pre_finite_inputs
import proofs.«168620_j7301444403985_1_alg».proof.Proof.Output
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched: the generated frame. -/
theorem frame_k [Cert.Kernel.Facts] [Cert.Pre_finite_inputs.Facts] : Cert.frame_Kernel :=
  fun m ρ _ => Cert.Kernel.Gen.frame m ρ

/-- The idealized kernel runs and leaves its arguments as launched: the generated frame. -/
theorem frame_ki [Cert.KernelIdeal.Facts] [Cert.Pre_finite_inputs.Facts] : Cert.frame_KernelIdeal :=
  fun m ρ _ => Cert.KernelIdeal.Gen.frame m ρ

/-- The reference runs and leaves its arguments as launched: its generated run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both idealized programs end with the same result: the kernel's result
    buffer holds the reference's result term of the kernel's arguments (`run_value`), the reference's holds that term of
    its own arguments (its generated run), and the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v168 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25, e26, e27⟩ := hagree c
  rw [Cert.ReferenceIdeal.Read.val_main_v168_eq, e0, e1, e2, e3, e4, e5, e6, e7, e8, e9, e10, e11, e12, e13, e14, e15, e16, e20, e21, e22, e23, e24, e25, e26, e27]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
